-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x4096 : Shape := ⟨3, ![64, 64, 4096]⟩
abbrev S_ : Shape := ⟨0, ![]⟩

class Facts : Prop where
  bcast_S_S64x64x4096 : S_.BroadcastsInDim S64x64x4096 (![] : Fin 0 → Fin S64x64x4096.rank)
  reducesTo_S64x64x4096_S_d0_1_2 : S64x64x4096.ReducesTo [0, 1, 2] S_
  h_S_ : 0 < S_.numel

variable [Facts]

def fn {F : FTy → Type} [FloatOps F] (main_arg0 : FVec F S64x64x4096 .f32) : IVec S_ 1 :=
  let main_v0 : FVec F S64x64x4096 .f32 := Host.absf main_arg0
  let main_cst : FVec F S_ .f32 := constant S_ .f32 0x7F800000#32
  let main_v1 : FVec F S64x64x4096 .f32 := broadcastInDim S64x64x4096 ![] bcast_S_S64x64x4096 main_cst
  let main_v2 : IVec S64x64x4096 1 := cmpf .olt main_v0 main_v1
  let main_c : IVec S_ 1 := constantI S_ 1 1#1
  let main_v3 : IVec S_ 1 := (fun x v => Host.reduce IntOp.andi x v reducesTo_S64x64x4096_S_d0_1_2 h_S_) main_v2 main_c
  main_v3
-- ==== Kernel.lean ====
abbrev S64x64x4096 : Shape := ⟨3, ![64, 64, 4096]⟩
abbrev S4096x4096 : Shape := ⟨2, ![4096, 4096]⟩
abbrev S4x4096x4096 : Shape := ⟨3, ![4, 4096, 4096]⟩
abbrev S128x4096 : Shape := ⟨2, ![128, 4096]⟩
abbrev S4x128x4096 : Shape := ⟨3, ![4, 128, 4096]⟩
abbrev S1x128x4096 : Shape := ⟨3, ![1, 128, 4096]⟩
abbrev S4096x4096x4 : Shape := ⟨3, ![4096, 4096, 4]⟩
abbrev S64x64x4096x4 : Shape := ⟨4, ![64, 64, 4096, 4]⟩

abbrev nBuf : Space → Nat
  | .hbm => 5
  | .vmem => 4
  | .smem => 0
  | _ => 0

abbrev bufTy : (tb : Table) → Fin (tcTables nBuf tb) → BufTy
  | .hbm, ⟨0, _⟩ => ⟨S64x64x4096, .f32⟩
  | .hbm, ⟨1, _⟩ => ⟨S4096x4096, .f32⟩
  | .hbm, ⟨2, _⟩ => ⟨S4x4096x4096, .f32⟩
  | .hbm, ⟨3, _⟩ => ⟨S4096x4096x4, .f32⟩
  | .hbm, ⟨4, _⟩ => ⟨S64x64x4096x4, .f32⟩
  | .local _ .vmem, ⟨0, _⟩ => ⟨S128x4096, .f32⟩
  | .local _ .vmem, ⟨1, _⟩ => ⟨S128x4096, .f32⟩
  | .local _ .vmem, ⟨2, _⟩ => ⟨S4x128x4096, .f32⟩
  | .local _ .vmem, ⟨3, _⟩ => ⟨S4x128x4096, .f32⟩
  | _, _ => ⟨S64x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x64x4096_S4096x4096 : S64x64x4096.ShapeCasts S4096x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  rotates_S128x4096_d1 : S128x4096.Rotates 1 none
  inb_S4x128x4096_S1x128x4096_0_0_0 : ∀ a, (![0, 0, 0] : Fin 3 → Nat) a + S1x128x4096.size a ≤ S4x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S4x128x4096_S1x128x4096_1_0_0 : ∀ a, (![1, 0, 0] : Fin 3 → Nat) a + S1x128x4096.size a ≤ S4x128x4096.size a
  inb_S4x128x4096_S1x128x4096_2_0_0 : ∀ a, (![2, 0, 0] : Fin 3 → Nat) a + S1x128x4096.size a ≤ S4x128x4096.size a
  inb_S4x128x4096_S1x128x4096_3_0_0 : ∀ a, (![3, 0, 0] : Fin 3 → Nat) a + S1x128x4096.size a ≤ S4x128x4096.size a
  transposes_S4x4096x4096_S4096x4096x4_1_2_0 : S4x4096x4096.Transposes [1, 2, 0] S4096x4096x4
  shapeCasts_S4096x4096x4_S64x64x4096x4 : S4096x4096x4.ShapeCasts S64x64x4096x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x4096.size a ≤ S4x4096x4096.size a
  hwx0_1 : ∀ i : grid0.Coords, EltTy.bits .f32 = 32 ∨ (Rect.block (s := S4x4096x4096) S4x128x4096.size (cc0_transform_1 i) (hinb0_1 i)).WholeWords (EltTy.packing .f32)

variable [Facts₀]

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x4096 : Shape := ⟨3, ![64, 64, 4096]⟩
abbrev S8 : Shape := ⟨1, ![8]⟩
abbrev S_ : Shape := ⟨0, ![]⟩
abbrev S64x64x4092 : Shape := ⟨3, ![64, 64, 4092]⟩
abbrev S64x64x4 : Shape := ⟨3, ![64, 64, 4]⟩
abbrev S1 : Shape := ⟨1, ![1]⟩
abbrev S64x64x4093 : Shape := ⟨3, ![64, 64, 4093]⟩
abbrev S64x64x3 : Shape := ⟨3, ![64, 64, 3]⟩
abbrev S64x64x4094 : Shape := ⟨3, ![64, 64, 4094]⟩
abbrev S64x64x2 : Shape := ⟨3, ![64, 64, 2]⟩
abbrev S64x64x4095 : Shape := ⟨3, ![64, 64, 4095]⟩
abbrev S64x64x1 : Shape := ⟨3, ![64, 64, 1]⟩
abbrev S64x64x0 : Shape := ⟨3, ![64, 64, 0]⟩
abbrev S64x64x4088 : Shape := ⟨3, ![64, 64, 4088]⟩
abbrev S64x64x8 : Shape := ⟨3, ![64, 64, 8]⟩
abbrev S64x64x4090 : Shape := ⟨3, ![64, 64, 4090]⟩
abbrev S64x64x6 : Shape := ⟨3, ![64, 64, 6]⟩
abbrev S64x64x4080 : Shape := ⟨3, ![64, 64, 4080]⟩
abbrev S64x64x16 : Shape := ⟨3, ![64, 64, 16]⟩
abbrev S64x64x4084 : Shape := ⟨3, ![64, 64, 4084]⟩
abbrev S64x64x12 : Shape := ⟨3, ![64, 64, 12]⟩
abbrev S64x64x4096x1 : Shape := ⟨4, ![64, 64, 4096, 1]⟩
abbrev S64x64x4096x4 : Shape := ⟨4, ![64, 64, 4096, 4]⟩

abbrev nBuf : Space → Nat
  | .hbm => 332
  | .vmem => 0
  | .smem => 0
  | _ => 0

abbrev hbmTy0_0 (i : Nat) : BufTy := match i % 128 with
  | 0 => ⟨S64x64x4096, .f32⟩
  | 1 => ⟨S8, .f32⟩
  | 2 => ⟨S8, .f32⟩
  | 3 => ⟨S_, .f32⟩
  | 4 => ⟨S64x64x4096, .f32⟩
  | 5 => ⟨S_, .f32⟩
  | 6 => ⟨S64x64x4096, .f32⟩
  | 7 => ⟨S64x64x4092, .f32⟩
  | 8 => ⟨S64x64x4, .f32⟩
  | 9 => ⟨S64x64x4096, .f32⟩
  | 10 => ⟨S1, .f32⟩
  | 11 => ⟨S_, .f32⟩
  | 12 => ⟨S64x64x4096, .f32⟩
  | 13 => ⟨S64x64x4096, .f32⟩
  | 14 => ⟨S64x64x4096, .f32⟩
  | 15 => ⟨S1, .f32⟩
  | 16 => ⟨S_, .f32⟩
  | 17 => ⟨S64x64x4096, .f32⟩
  | 18 => ⟨S64x64x4096, .f32⟩
  | 19 => ⟨S64x64x4096, .f32⟩
  | 20 => ⟨S64x64x4093, .f32⟩
  | 21 => ⟨S64x64x3, .f32⟩
  | 22 => ⟨S64x64x4096, .f32⟩
  | 23 => ⟨S1, .f32⟩
  | 24 => ⟨S_, .f32⟩
  | 25 => ⟨S64x64x4096, .f32⟩
  | 26 => ⟨S64x64x4096, .f32⟩
  | 27 => ⟨S64x64x4096, .f32⟩
  | 28 => ⟨S1, .f32⟩
  | 29 => ⟨S_, .f32⟩
  | 30 => ⟨S64x64x4096, .f32⟩
  | 31 => ⟨S64x64x4096, .f32⟩
  | 32 => ⟨S64x64x4096, .f32⟩
  | 33 => ⟨S64x64x4094, .f32⟩
  | 34 => ⟨S64x64x2, .f32⟩
  | 35 => ⟨S64x64x4096, .f32⟩
  | 36 => ⟨S1, .f32⟩
  | 37 => ⟨S_, .f32⟩
  | 38 => ⟨S64x64x4096, .f32⟩
  | 39 => ⟨S64x64x4096, .f32⟩
  | 40 => ⟨S64x64x4096, .f32⟩
  | 41 => ⟨S1, .f32⟩
  | 42 => ⟨S_, .f32⟩
  | 43 => ⟨S64x64x4096, .f32⟩
  | 44 => ⟨S64x64x4096, .f32⟩
  | 45 => ⟨S64x64x4096, .f32⟩
  | 46 => ⟨S64x64x4095, .f32⟩
  | 47 => ⟨S64x64x1, .f32⟩
  | 48 => ⟨S64x64x4096, .f32⟩
  | 49 => ⟨S1, .f32⟩
  | 50 => ⟨S_, .f32⟩
  | 51 => ⟨S64x64x4096, .f32⟩
  | 52 => ⟨S64x64x4096, .f32⟩
  | 53 => ⟨S64x64x4096, .f32⟩
  | 54 => ⟨S1, .f32⟩
  | 55 => ⟨S_, .f32⟩
  | 56 => ⟨S64x64x4096, .f32⟩
  | 57 => ⟨S64x64x4096, .f32⟩
  | 58 => ⟨S64x64x4096, .f32⟩
  | 59 => ⟨S64x64x4096, .f32⟩
  | 60 => ⟨S64x64x0, .f32⟩
  | 61 => ⟨S64x64x4096, .f32⟩
  | 62 => ⟨S1, .f32⟩
  | 63 => ⟨S_, .f32⟩
  | 64 => ⟨S64x64x4096, .f32⟩
  | 65 => ⟨S64x64x4096, .f32⟩
  | 66 => ⟨S64x64x4096, .f32⟩
  | 67 => ⟨S1, .f32⟩
  | 68 => ⟨S_, .f32⟩
  | 69 => ⟨S64x64x4096, .f32⟩
  | 70 => ⟨S64x64x4096, .f32⟩
  | 71 => ⟨S64x64x4096, .f32⟩
  | 72 => ⟨S64x64x1, .f32⟩
  | 73 => ⟨S64x64x4095, .f32⟩
  | 74 => ⟨S64x64x4096, .f32⟩
  | 75 => ⟨S1, .f32⟩
  | 76 => ⟨S_, .f32⟩
  | 77 => ⟨S64x64x4096, .f32⟩
  | 78 => ⟨S64x64x4096, .f32⟩
  | 79 => ⟨S64x64x4096, .f32⟩
  | 80 => ⟨S1, .f32⟩
  | 81 => ⟨S_, .f32⟩
  | 82 => ⟨S64x64x4096, .f32⟩
  | 83 => ⟨S64x64x4096, .f32⟩
  | 84 => ⟨S64x64x4096, .f32⟩
  | 85 => ⟨S64x64x2, .f32⟩
  | 86 => ⟨S64x64x4094, .f32⟩
  | 87 => ⟨S64x64x4096, .f32⟩
  | 88 => ⟨S1, .f32⟩
  | 89 => ⟨S_, .f32⟩
  | 90 => ⟨S64x64x4096, .f32⟩
  | 91 => ⟨S64x64x4096, .f32⟩
  | 92 => ⟨S64x64x4096, .f32⟩
  | 93 => ⟨S1, .f32⟩
  | 94 => ⟨S_, .f32⟩
  | 95 => ⟨S64x64x4096, .f32⟩
  | 96 => ⟨S64x64x4096, .f32⟩
  | 97 => ⟨S64x64x4096, .f32⟩
  | 98 => ⟨S64x64x3, .f32⟩
  | 99 => ⟨S64x64x4093, .f32⟩
  | 100 => ⟨S64x64x4096, .f32⟩
  | 101 => ⟨S1, .f32⟩
  | 102 => ⟨S_, .f32⟩
  | 103 => ⟨S64x64x4096, .f32⟩
  | 104 => ⟨S64x64x4096, .f32⟩
  | 105 => ⟨S64x64x4096, .f32⟩
  | 106 => ⟨S1, .f32⟩
  | 107 => ⟨S_, .f32⟩
  | 108 => ⟨S64x64x4096, .f32⟩
  | 109 => ⟨S64x64x4096, .f32⟩
  | 110 => ⟨S64x64x4096, .f32⟩
  | 111 => ⟨S_, .f32⟩
  | 112 => ⟨S64x64x4096, .f32⟩
  | 113 => ⟨S_, .f32⟩
  | 114 => ⟨S64x64x4096, .f32⟩
  | 115 => ⟨S64x64x4088, .f32⟩
  | 116 => ⟨S64x64x8, .f32⟩
  | 117 => ⟨S64x64x4096, .f32⟩
  | 118 => ⟨S1, .f32⟩
  | 119 => ⟨S_, .f32⟩
  | 120 => ⟨S64x64x4096, .f32⟩
  | 121 => ⟨S64x64x4096, .f32⟩
  | 122 => ⟨S64x64x4096, .f32⟩
  | 123 => ⟨S1, .f32⟩
  | 124 => ⟨S_, .f32⟩
  | 125 => ⟨S64x64x4096, .f32⟩
  | 126 => ⟨S64x64x4096, .f32⟩
  | 127 => ⟨S64x64x4096, .f32⟩
  | _ => ⟨S64x64x4096, .f32⟩

abbrev hbmTy0_1 (i : Nat) : BufTy := match i % 128 with
  | 0 => ⟨S64x64x4090, .f32⟩
  | 1 => ⟨S64x64x6, .f32⟩
  | 2 => ⟨S64x64x4096, .f32⟩
  | 3 => ⟨S1, .f32⟩
  | 4 => ⟨S_, .f32⟩
  | 5 => ⟨S64x64x4096, .f32⟩
  | 6 => ⟨S64x64x4096, .f32⟩
  | 7 => ⟨S64x64x4096, .f32⟩
  | 8 => ⟨S1, .f32⟩
  | 9 => ⟨S_, .f32⟩
  | 10 => ⟨S64x64x4096, .f32⟩
  | 11 => ⟨S64x64x4096, .f32⟩
  | 12 => ⟨S64x64x4096, .f32⟩
  | 13 => ⟨S64x64x4092, .f32⟩
  | 14 => ⟨S64x64x4, .f32⟩
  | 15 => ⟨S64x64x4096, .f32⟩
  | 16 => ⟨S1, .f32⟩
  | 17 => ⟨S_, .f32⟩
  | 18 => ⟨S64x64x4096, .f32⟩
  | 19 => ⟨S64x64x4096, .f32⟩
  | 20 => ⟨S64x64x4096, .f32⟩
  | 21 => ⟨S1, .f32⟩
  | 22 => ⟨S_, .f32⟩
  | 23 => ⟨S64x64x4096, .f32⟩
  | 24 => ⟨S64x64x4096, .f32⟩
  | 25 => ⟨S64x64x4096, .f32⟩
  | 26 => ⟨S64x64x4094, .f32⟩
  | 27 => ⟨S64x64x2, .f32⟩
  | 28 => ⟨S64x64x4096, .f32⟩
  | 29 => ⟨S1, .f32⟩
  | 30 => ⟨S_, .f32⟩
  | 31 => ⟨S64x64x4096, .f32⟩
  | 32 => ⟨S64x64x4096, .f32⟩
  | 33 => ⟨S64x64x4096, .f32⟩
  | 34 => ⟨S1, .f32⟩
  | 35 => ⟨S_, .f32⟩
  | 36 => ⟨S64x64x4096, .f32⟩
  | 37 => ⟨S64x64x4096, .f32⟩
  | 38 => ⟨S64x64x4096, .f32⟩
  | 39 => ⟨S64x64x4096, .f32⟩
  | 40 => ⟨S64x64x0, .f32⟩
  | 41 => ⟨S64x64x4096, .f32⟩
  | 42 => ⟨S1, .f32⟩
  | 43 => ⟨S_, .f32⟩
  | 44 => ⟨S64x64x4096, .f32⟩
  | 45 => ⟨S64x64x4096, .f32⟩
  | 46 => ⟨S64x64x4096, .f32⟩
  | 47 => ⟨S1, .f32⟩
  | 48 => ⟨S_, .f32⟩
  | 49 => ⟨S64x64x4096, .f32⟩
  | 50 => ⟨S64x64x4096, .f32⟩
  | 51 => ⟨S64x64x4096, .f32⟩
  | 52 => ⟨S64x64x2, .f32⟩
  | 53 => ⟨S64x64x4094, .f32⟩
  | 54 => ⟨S64x64x4096, .f32⟩
  | 55 => ⟨S1, .f32⟩
  | 56 => ⟨S_, .f32⟩
  | 57 => ⟨S64x64x4096, .f32⟩
  | 58 => ⟨S64x64x4096, .f32⟩
  | 59 => ⟨S64x64x4096, .f32⟩
  | 60 => ⟨S1, .f32⟩
  | 61 => ⟨S_, .f32⟩
  | 62 => ⟨S64x64x4096, .f32⟩
  | 63 => ⟨S64x64x4096, .f32⟩
  | 64 => ⟨S64x64x4096, .f32⟩
  | 65 => ⟨S64x64x4, .f32⟩
  | 66 => ⟨S64x64x4092, .f32⟩
  | 67 => ⟨S64x64x4096, .f32⟩
  | 68 => ⟨S1, .f32⟩
  | 69 => ⟨S_, .f32⟩
  | 70 => ⟨S64x64x4096, .f32⟩
  | 71 => ⟨S64x64x4096, .f32⟩
  | 72 => ⟨S64x64x4096, .f32⟩
  | 73 => ⟨S1, .f32⟩
  | 74 => ⟨S_, .f32⟩
  | 75 => ⟨S64x64x4096, .f32⟩
  | 76 => ⟨S64x64x4096, .f32⟩
  | 77 => ⟨S64x64x4096, .f32⟩
  | 78 => ⟨S64x64x6, .f32⟩
  | 79 => ⟨S64x64x4090, .f32⟩
  | 80 => ⟨S64x64x4096, .f32⟩
  | 81 => ⟨S1, .f32⟩
  | 82 => ⟨S_, .f32⟩
  | 83 => ⟨S64x64x4096, .f32⟩
  | 84 => ⟨S64x64x4096, .f32⟩
  | 85 => ⟨S64x64x4096, .f32⟩
  | 86 => ⟨S1, .f32⟩
  | 87 => ⟨S_, .f32⟩
  | 88 => ⟨S64x64x4096, .f32⟩
  | 89 => ⟨S64x64x4096, .f32⟩
  | 90 => ⟨S64x64x4096, .f32⟩
  | 91 => ⟨S_, .f32⟩
  | 92 => ⟨S64x64x4096, .f32⟩
  | 93 => ⟨S_, .f32⟩
  | 94 => ⟨S64x64x4096, .f32⟩
  | 95 => ⟨S64x64x4080, .f32⟩
  | 96 => ⟨S64x64x16, .f32⟩
  | 97 => ⟨S64x64x4096, .f32⟩
  | 98 => ⟨S1, .f32⟩
  | 99 => ⟨S_, .f32⟩
  | 100 => ⟨S64x64x4096, .f32⟩
  | 101 => ⟨S64x64x4096, .f32⟩
  | 102 => ⟨S64x64x4096, .f32⟩
  | 103 => ⟨S1, .f32⟩
  | 104 => ⟨S_, .f32⟩
  | 105 => ⟨S64x64x4096, .f32⟩
  | 106 => ⟨S64x64x4096, .f32⟩
  | 107 => ⟨S64x64x4096, .f32⟩
  | 108 => ⟨S64x64x4084, .f32⟩
  | 109 => ⟨S64x64x12, .f32⟩
  | 110 => ⟨S64x64x4096, .f32⟩
  | 111 => ⟨S1, .f32⟩
  | 112 => ⟨S_, .f32⟩
  | 113 => ⟨S64x64x4096, .f32⟩
  | 114 => ⟨S64x64x4096, .f32⟩
  | 115 => ⟨S64x64x4096, .f32⟩
  | 116 => ⟨S1, .f32⟩
  | 117 => ⟨S_, .f32⟩
  | 118 => ⟨S64x64x4096, .f32⟩
  | 119 => ⟨S64x64x4096, .f32⟩
  | 120 => ⟨S64x64x4096, .f32⟩
  | 121 => ⟨S64x64x4088, .f32⟩
  | 122 => ⟨S64x64x8, .f32⟩
  | 123 => ⟨S64x64x4096, .f32⟩
  | 124 => ⟨S1, .f32⟩
  | 125 => ⟨S_, .f32⟩
  | 126 => ⟨S64x64x4096, .f32⟩
  | 127 => ⟨S64x64x4096, .f32⟩
  | _ => ⟨S64x64x4096, .f32⟩

abbrev hbmTy0_2 (i : Nat) : BufTy := match i % 128 with
  | 0 => ⟨S64x64x4096, .f32⟩
  | 1 => ⟨S1, .f32⟩
  | 2 => ⟨S_, .f32⟩
  | 3 => ⟨S64x64x4096, .f32⟩
  | 4 => ⟨S64x64x4096, .f32⟩
  | 5 => ⟨S64x64x4096, .f32⟩
  | 6 => ⟨S64x64x4092, .f32⟩
  | 7 => ⟨S64x64x4, .f32⟩
  | 8 => ⟨S64x64x4096, .f32⟩
  | 9 => ⟨S1, .f32⟩
  | 10 => ⟨S_, .f32⟩
  | 11 => ⟨S64x64x4096, .f32⟩
  | 12 => ⟨S64x64x4096, .f32⟩
  | 13 => ⟨S64x64x4096, .f32⟩
  | 14 => ⟨S1, .f32⟩
  | 15 => ⟨S_, .f32⟩
  | 16 => ⟨S64x64x4096, .f32⟩
  | 17 => ⟨S64x64x4096, .f32⟩
  | 18 => ⟨S64x64x4096, .f32⟩
  | 19 => ⟨S64x64x4096, .f32⟩
  | 20 => ⟨S64x64x0, .f32⟩
  | 21 => ⟨S64x64x4096, .f32⟩
  | 22 => ⟨S1, .f32⟩
  | 23 => ⟨S_, .f32⟩
  | 24 => ⟨S64x64x4096, .f32⟩
  | 25 => ⟨S64x64x4096, .f32⟩
  | 26 => ⟨S64x64x4096, .f32⟩
  | 27 => ⟨S1, .f32⟩
  | 28 => ⟨S_, .f32⟩
  | 29 => ⟨S64x64x4096, .f32⟩
  | 30 => ⟨S64x64x4096, .f32⟩
  | 31 => ⟨S64x64x4096, .f32⟩
  | 32 => ⟨S64x64x4, .f32⟩
  | 33 => ⟨S64x64x4092, .f32⟩
  | 34 => ⟨S64x64x4096, .f32⟩
  | 35 => ⟨S1, .f32⟩
  | 36 => ⟨S_, .f32⟩
  | 37 => ⟨S64x64x4096, .f32⟩
  | 38 => ⟨S64x64x4096, .f32⟩
  | 39 => ⟨S64x64x4096, .f32⟩
  | 40 => ⟨S1, .f32⟩
  | 41 => ⟨S_, .f32⟩
  | 42 => ⟨S64x64x4096, .f32⟩
  | 43 => ⟨S64x64x4096, .f32⟩
  | 44 => ⟨S64x64x4096, .f32⟩
  | 45 => ⟨S64x64x8, .f32⟩
  | 46 => ⟨S64x64x4088, .f32⟩
  | 47 => ⟨S64x64x4096, .f32⟩
  | 48 => ⟨S1, .f32⟩
  | 49 => ⟨S_, .f32⟩
  | 50 => ⟨S64x64x4096, .f32⟩
  | 51 => ⟨S64x64x4096, .f32⟩
  | 52 => ⟨S64x64x4096, .f32⟩
  | 53 => ⟨S1, .f32⟩
  | 54 => ⟨S_, .f32⟩
  | 55 => ⟨S64x64x4096, .f32⟩
  | 56 => ⟨S64x64x4096, .f32⟩
  | 57 => ⟨S64x64x4096, .f32⟩
  | 58 => ⟨S64x64x12, .f32⟩
  | 59 => ⟨S64x64x4084, .f32⟩
  | 60 => ⟨S64x64x4096, .f32⟩
  | 61 => ⟨S1, .f32⟩
  | 62 => ⟨S_, .f32⟩
  | 63 => ⟨S64x64x4096, .f32⟩
  | 64 => ⟨S64x64x4096, .f32⟩
  | 65 => ⟨S64x64x4096, .f32⟩
  | 66 => ⟨S1, .f32⟩
  | 67 => ⟨S_, .f32⟩
  | 68 => ⟨S64x64x4096, .f32⟩
  | 69 => ⟨S64x64x4096, .f32⟩
  | 70 => ⟨S64x64x4096, .f32⟩
  | 71 => ⟨S64x64x4096x1, .f32⟩
  | 72 => ⟨S64x64x4096x1, .f32⟩
  | 73 => ⟨S64x64x4096x1, .f32⟩
  | 74 => ⟨S64x64x4096x1, .f32⟩
  | 75 => ⟨S64x64x4096x4, .f32⟩
  | _ => ⟨S64x64x4096, .f32⟩

abbrev hbmTy (i : Nat) : BufTy := match i / 128 with
  | 0 => hbmTy0_0 i
  | 1 => hbmTy0_1 i
  | 2 => hbmTy0_2 i
  | _ => ⟨S64x64x4096, .f32⟩

abbrev bufTy : (tb : Table) → Fin (tcTables nBuf tb) → BufTy
  | .hbm, ⟨i, _⟩ => hbmTy i
  | _, _ => ⟨S64x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_cst_2 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_v0 : Ref sig .tc := ⟨.hbm, 20, rfl⟩
abbrev main_call1_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call2_v0 : Ref sig .tc := ⟨.hbm, 33, rfl⟩
abbrev main_call2_v1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call3_v0 : Ref sig .tc := ⟨.hbm, 46, rfl⟩
abbrev main_call3_v1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_call4_v0 : Ref sig .tc := ⟨.hbm, 59, rfl⟩
abbrev main_call4_v1 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call5_v0 : Ref sig .tc := ⟨.hbm, 72, rfl⟩
abbrev main_call5_v1 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_call6_v0 : Ref sig .tc := ⟨.hbm, 85, rfl⟩
abbrev main_call6_v1 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_call7_v0 : Ref sig .tc := ⟨.hbm, 98, rfl⟩
abbrev main_call7_v1 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_3 : Ref sig .tc := ⟨.hbm, 111, rfl⟩
abbrev main_v90 : Ref sig .tc := ⟨.hbm, 112, rfl⟩
abbrev main_cst_4 : Ref sig .tc := ⟨.hbm, 113, rfl⟩
abbrev main_v91 : Ref sig .tc := ⟨.hbm, 114, rfl⟩
abbrev main_call8_v0 : Ref sig .tc := ⟨.hbm, 115, rfl⟩
abbrev main_call8_v1 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_call9_v0 : Ref sig .tc := ⟨.hbm, 128, rfl⟩
abbrev main_call9_v1 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_call10_v0 : Ref sig .tc := ⟨.hbm, 141, rfl⟩
abbrev main_call10_v1 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_call11_v0 : Ref sig .tc := ⟨.hbm, 154, rfl⟩
abbrev main_call11_v1 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_call12_v0 : Ref sig .tc := ⟨.hbm, 167, rfl⟩
abbrev main_call12_v1 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_call13_v0 : Ref sig .tc := ⟨.hbm, 180, rfl⟩
abbrev main_call13_v1 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_call14_v0 : Ref sig .tc := ⟨.hbm, 193, rfl⟩
abbrev main_call14_v1 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_call15_v0 : Ref sig .tc := ⟨.hbm, 206, rfl⟩
abbrev main_call15_v1 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_cst_5 : Ref sig .tc := ⟨.hbm, 219, rfl⟩
abbrev main_v180 : Ref sig .tc := ⟨.hbm, 220, rfl⟩
abbrev main_cst_6 : Ref sig .tc := ⟨.hbm, 221, rfl⟩
abbrev main_v181 : Ref sig .tc := ⟨.hbm, 222, rfl⟩
abbrev main_call16_v0 : Ref sig .tc := ⟨.hbm, 223, rfl⟩
abbrev main_call16_v1 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_call17_v0 : Ref sig .tc := ⟨.hbm, 236, rfl⟩
abbrev main_call17_v1 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_call18_v0 : Ref sig .tc := ⟨.hbm, 249, rfl⟩
abbrev main_call18_v1 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_call19_v0 : Ref sig .tc := ⟨.hbm, 262, rfl⟩
abbrev main_call19_v1 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_call20_v0 : Ref sig .tc := ⟨.hbm, 275, rfl⟩
abbrev main_call20_v1 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_call21_v0 : Ref sig .tc := ⟨.hbm, 288, rfl⟩
abbrev main_call21_v1 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_call22_v0 : Ref sig .tc := ⟨.hbm, 301, rfl⟩
abbrev main_call22_v1 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_call23_v0 : Ref sig .tc := ⟨.hbm, 314, rfl⟩
abbrev main_call23_v1 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩

abbrev nD : Nat := 1
abbrev τ : Topo := Topo.v7x

variable {F : FTy → Type} [FloatOps F]

class Facts₀ : Prop where
  bcast_S_S64x64x4096 : S_.BroadcastsInDim S64x64x4096 (![] : Fin 0 → Fin S64x64x4096.rank)
  slices_S64x64x4096_S64x64x4092_0_0_4 : S64x64x4096.Slices ![0, 0, 4] S64x64x4092
  slices_S64x64x4096_S64x64x4_0_0_0 : S64x64x4096.Slices ![0, 0, 0] S64x64x4
  concatenates_S64x64x4092_S64x64x4_S64x64x4096_d2 : Shape.Concatenates [S64x64x4092, S64x64x4] S64x64x4096 2
  slices_S8_S1_0 : S8.Slices ![0] S1
  shapeCasts_S1_S_ : S1.ShapeCasts S_
  slices_S64x64x4096_S64x64x4093_0_0_3 : S64x64x4096.Slices ![0, 0, 3] S64x64x4093
  slices_S64x64x4096_S64x64x3_0_0_0 : S64x64x4096.Slices ![0, 0, 0] S64x64x3
  concatenates_S64x64x4093_S64x64x3_S64x64x4096_d2 : Shape.Concatenates [S64x64x4093, S64x64x3] S64x64x4096 2
  slices_S8_S1_1 : S8.Slices ![1] S1
  slices_S64x64x4096_S64x64x4094_0_0_2 : S64x64x4096.Slices ![0, 0, 2] S64x64x4094
  slices_S64x64x4096_S64x64x2_0_0_0 : S64x64x4096.Slices ![0, 0, 0] S64x64x2
  concatenates_S64x64x4094_S64x64x2_S64x64x4096_d2 : Shape.Concatenates [S64x64x4094, S64x64x2] S64x64x4096 2
  slices_S8_S1_2 : S8.Slices ![2] S1
  slices_S64x64x4096_S64x64x4095_0_0_1 : S64x64x4096.Slices ![0, 0, 1] S64x64x4095
  slices_S64x64x4096_S64x64x1_0_0_0 : S64x64x4096.Slices ![0, 0, 0] S64x64x1
  concatenates_S64x64x4095_S64x64x1_S64x64x4096_d2 : Shape.Concatenates [S64x64x4095, S64x64x1] S64x64x4096 2
  slices_S8_S1_3 : S8.Slices ![3] S1
  slices_S64x64x4096_S64x64x4096_0_0_0 : S64x64x4096.Slices ![0, 0, 0] S64x64x4096
  slices_S64x64x4096_S64x64x0_0_0_0 : S64x64x4096.Slices ![0, 0, 0] S64x64x0
  concatenates_S64x64x4096_S64x64x0_S64x64x4096_d2 : Shape.Concatenates [S64x64x4096, S64x64x0] S64x64x4096 2
  slices_S8_S1_4 : S8.Slices ![4] S1
  slices_S64x64x4096_S64x64x1_0_0_4095 : S64x64x4096.Slices ![0, 0, 4095] S64x64x1
  slices_S64x64x4096_S64x64x4095_0_0_0 : S64x64x4096.Slices ![0, 0, 0] S64x64x4095
  concatenates_S64x64x1_S64x64x4095_S64x64x4096_d2 : Shape.Concatenates [S64x64x1, S64x64x4095] S64x64x4096 2
  slices_S8_S1_5 : S8.Slices ![5] S1
  slices_S64x64x4096_S64x64x2_0_0_4094 : S64x64x4096.Slices ![0, 0, 4094] S64x64x2
  slices_S64x64x4096_S64x64x4094_0_0_0 : S64x64x4096.Slices ![0, 0, 0] S64x64x4094
  concatenates_S64x64x2_S64x64x4094_S64x64x4096_d2 : Shape.Concatenates [S64x64x2, S64x64x4094] S64x64x4096 2
  slices_S8_S1_6 : S8.Slices ![6] S1
  slices_S64x64x4096_S64x64x3_0_0_4093 : S64x64x4096.Slices ![0, 0, 4093] S64x64x3
  slices_S64x64x4096_S64x64x4093_0_0_0 : S64x64x4096.Slices ![0, 0, 0] S64x64x4093
  concatenates_S64x64x3_S64x64x4093_S64x64x4096_d2 : Shape.Concatenates [S64x64x3, S64x64x4093] S64x64x4096 2
  slices_S8_S1_7 : S8.Slices ![7] S1
  slices_S64x64x4096_S64x64x4088_0_0_8 : S64x64x4096.Slices ![0, 0, 8] S64x64x4088
  slices_S64x64x4096_S64x64x8_0_0_0 : S64x64x4096.Slices ![0, 0, 0] S64x64x8
  concatenates_S64x64x4088_S64x64x8_S64x64x4096_d2 : Shape.Concatenates [S64x64x4088, S64x64x8] S64x64x4096 2
  slices_S64x64x4096_S64x64x4090_0_0_6 : S64x64x4096.Slices ![0, 0, 6] S64x64x4090
  slices_S64x64x4096_S64x64x6_0_0_0 : S64x64x4096.Slices ![0, 0, 0] S64x64x6
  concatenates_S64x64x4090_S64x64x6_S64x64x4096_d2 : Shape.Concatenates [S64x64x4090, S64x64x6] S64x64x4096 2
  slices_S64x64x4096_S64x64x4_0_0_4092 : S64x64x4096.Slices ![0, 0, 4092] S64x64x4
  slices_S64x64x4096_S64x64x4092_0_0_0 : S64x64x4096.Slices ![0, 0, 0] S64x64x4092
  concatenates_S64x64x4_S64x64x4092_S64x64x4096_d2 : Shape.Concatenates [S64x64x4, S64x64x4092] S64x64x4096 2
  slices_S64x64x4096_S64x64x6_0_0_4090 : S64x64x4096.Slices ![0, 0, 4090] S64x64x6
  slices_S64x64x4096_S64x64x4090_0_0_0 : S64x64x4096.Slices ![0, 0, 0] S64x64x4090
  concatenates_S64x64x6_S64x64x4090_S64x64x4096_d2 : Shape.Concatenates [S64x64x6, S64x64x4090] S64x64x4096 2
  slices_S64x64x4096_S64x64x4080_0_0_16 : S64x64x4096.Slices ![0, 0, 16] S64x64x4080
  slices_S64x64x4096_S64x64x16_0_0_0 : S64x64x4096.Slices ![0, 0, 0] S64x64x16
  concatenates_S64x64x4080_S64x64x16_S64x64x4096_d2 : Shape.Concatenates [S64x64x4080, S64x64x16] S64x64x4096 2
  slices_S64x64x4096_S64x64x4084_0_0_12 : S64x64x4096.Slices ![0, 0, 12] S64x64x4084
  slices_S64x64x4096_S64x64x12_0_0_0 : S64x64x4096.Slices ![0, 0, 0] S64x64x12
  concatenates_S64x64x4084_S64x64x12_S64x64x4096_d2 : Shape.Concatenates [S64x64x4084, S64x64x12] S64x64x4096 2
  slices_S64x64x4096_S64x64x8_0_0_4088 : S64x64x4096.Slices ![0, 0, 4088] S64x64x8
  slices_S64x64x4096_S64x64x4088_0_0_0 : S64x64x4096.Slices ![0, 0, 0] S64x64x4088
  concatenates_S64x64x8_S64x64x4088_S64x64x4096_d2 : Shape.Concatenates [S64x64x8, S64x64x4088] S64x64x4096 2
  slices_S64x64x4096_S64x64x12_0_0_4084 : S64x64x4096.Slices ![0, 0, 4084] S64x64x12
  slices_S64x64x4096_S64x64x4084_0_0_0 : S64x64x4096.Slices ![0, 0, 0] S64x64x4084
  concatenates_S64x64x12_S64x64x4084_S64x64x4096_d2 : Shape.Concatenates [S64x64x12, S64x64x4084] S64x64x4096 2
  bcast_S64x64x4096_S64x64x4096x1_0_1_2 : S64x64x4096.BroadcastsInDim S64x64x4096x1 (![0, 1, 2] : Fin 3 → Fin S64x64x4096x1.rank)
  concatenates_S64x64x4096x1_S64x64x4096x1_S64x64x4096x1_S64x64x4096x1_S64x64x4096x4_d3 : Shape.Concatenates [S64x64x4096x1, S64x64x4096x1, S64x64x4096x1, S64x64x4096x1] S64x64x4096x4 3

variable [Facts₀]

class Facts : Prop extends Facts₀ where

variable [Facts]
-- ==== Proof.Swt.lean ====
/-
  The value both programs compute: a three-level undecimated wavelet filter bank along the last axis.

  A row of 4096 entries is filtered cyclically: at level `d` (1, 2, 4) the entry at position `t` of a filtered
  row is the sum over the eight taps `j` of `w j · a ((t + d·(4 − j)) mod 4096)`, accumulated from zero in the
  order of the taps.  The low-pass row of one level is the input of the next; the result holds, per row and
  position, the last low-pass row and the three high-pass rows, the deepest first.  Positions that wrap are
  written as a forward move around the cycle: moving back by `k` is moving forward by `4096 − k`.

  Weights and the zero are kept as the binary words the programs carry; no word is ever evaluated.
-/
import Idealize.ShloMosaic.PureOps.Ideal
import Idealize.ShloMosaic.Lib.ValueIdx

noncomputable section

namespace Cert.Swt

open Idealize.ShloMosaic Idealize.ShloMosaic.ValueIdx

/-- A row of the signal. -/
abbrev Row := Fin 4096 → Ideal .f32

/-- Position `t` moved `s` places forward around the cycle of 4096 positions. -/
def turn (s : ℕ) (t : Fin 4096) : Fin 4096 := ⟨(t.val + s) % 4096, Nat.mod_lt _ (by norm_num)⟩

theorem turn_val (s : ℕ) (t : Fin 4096) : (turn s t).val = (t.val + s) % 4096 := rfl

/-- Moving no place is staying. -/
theorem turn_zero (t : Fin 4096) : turn 0 t = t := Fin.ext (by rw [turn_val]; have := t.isLt; omega)

/-- One level: eight taps with weights `w0 … w7`, spaced `d` apart, summed from zero in tap order.  Tap 4 reads
    the position itself. -/
def level (w0 w1 w2 w3 w4 w5 w6 w7 : Ideal .f32) (d : ℕ) (a : Row) : Row := fun t =>
  Ideal.ofBits .f32 0x00000000#32 + w0 * a (turn (4 * d) t) + w1 * a (turn (3 * d) t) + w2 * a (turn (2 * d) t)
    + w3 * a (turn d t) + w4 * a t + w5 * a (turn (4096 - d) t) + w6 * a (turn (4096 - 2 * d) t)
    + w7 * a (turn (4096 - 3 * d) t)

/-- The low-pass filter of a level. -/
def low (d : ℕ) (a : Row) : Row :=
  level (Ideal.ofBits .f32 0xBBF58BFD#32) (Ideal.ofBits .f32 0x3CBE7A8F#32) (Ideal.ofBits .f32 0x3CB2A702#32)
    (Ideal.ofBits .f32 0xBE076D7C#32) (Ideal.ofBits .f32 0xBCA2196C#32) (Ideal.ofBits .f32 0x3EE4673A#32)
    (Ideal.ofBits .f32 0x3F0166AB#32) (Ideal.ofBits .f32 0x3E26CFB5#32) d a

/-- The high-pass filter of a level: the low-pass weights reversed, with alternating signs. -/
def high (d : ℕ) (a : Row) : Row :=
  level (Ideal.ofBits .f32 0xBE26CFB5#32) (Ideal.ofBits .f32 0x3F0166AB#32) (Ideal.ofBits .f32 0xBEE4673A#32)
    (Ideal.ofBits .f32 0xBCA2196C#32) (Ideal.ofBits .f32 0x3E076D7C#32) (Ideal.ofBits .f32 0x3CB2A702#32)
    (Ideal.ofBits .f32 0xBCBE7A8F#32) (Ideal.ofBits .f32 0xBBF58BFD#32) d a

/-- The four result rows of one input row: channel 0 the third low-pass row, then the high-pass rows of levels
    three, two and one. -/
def bank (a : Row) (ch : Fin 4) : Row :=
  match ch with
  | ⟨0, _⟩ => low 4 (low 2 (low 1 a))
  | ⟨1, _⟩ => high 4 (low 2 (low 1 a))
  | ⟨2, _⟩ => high 2 (low 1 a)
  | ⟨3, _⟩ => high 1 a

/-- Row `(b, n)` of the argument. -/
def rowOf (x : (⟨3, ![64, 64, 4096]⟩ : Shape).Idx → Ideal .f32) (b n : Fin 64) : Row := fun t => x (ix3 b n t)

/-- The result at `(b, n, t, ch)`. -/
def at4 (x : (⟨3, ![64, 64, 4096]⟩ : Shape).Idx → Ideal .f32) (b n : Fin 64) (t : Fin 4096) (ch : Fin 4) : Ideal .f32 :=
  bank (rowOf x b n) ch t

/-- The whole result as one function of the argument array. -/
def G (x : (⟨3, ![64, 64, 4096]⟩ : Shape).Idx → Ideal .f32) : (⟨4, ![64, 64, 4096, 4]⟩ : Shape).Idx → Ideal .f32 :=
  fun i => at4 x (i 0) (i 1) (i 2) (i 3)

theorem G_apply (x : (⟨3, ![64, 64, 4096]⟩ : Shape).Idx → Ideal .f32) (b n : Fin 64) (t : Fin 4096) (ch : Fin 4) :
    G x (ix4 b n t ch) = at4 x b n t ch := rfl

end Cert.Swt

end
-- ==== Proof.KRotate.lean ====
/-
  A rotation of a block of rows, read at an index.

  The blocks are 128 rows of 4096 entries.  Rotating a block along its rows by `c` places moves every entry `c`
  positions forward around the cycle of 4096, so the rotated block at position `q` holds the entry that sat `c`
  positions back, which is the entry `4096 − c` positions forward.
-/
import Idealize.ShloMosaic.Lib.KernelVsHost
import proofs.«128658_j3599182594827_2_alg».proof.Proof.Swt

noncomputable section

namespace Cert.KernelIdeal.SwtValue

open Idealize.ShloMosaic Idealize.ShloMosaic.ValueIdx Cert.Swt

/-- The rotated block at row `p`, position `q` is the block at row `p`, position `q` moved `k` places forward, when
    the amount `c` and `k` make up one full cycle. -/
theorem rotate_apply {α : Type} (k : ℕ) (c : BitVec 32) (hc : c.toNat + k = 4096) (hk : 0 < k)
    (v : (⟨2, ![128, 4096]⟩ : Shape).Idx → α) (h : (⟨2, ![128, 4096]⟩ : Shape).Rotates 1 none) (p : Fin 128) (q : Fin 4096) :
    dynamicRotate 1 c none v h (ix2 p q) = v (ix2 p (turn k q)) :=
  dynamicRotate_apply 1 c v h (ix2 p q) (ix2 p (turn k q)) (fun b => by
    match b with
    | ⟨0, _⟩ => rfl
    | ⟨1, _⟩ =>
      show (q.val + k) % 4096 = (q.val + 4096 - c.toNat % 4096) % 4096
      have hq := q.isLt
      rw [Nat.mod_eq_of_lt (by omega : c.toNat < 4096)]
      congr 1
      omega)

end Cert.KernelIdeal.SwtValue

end
-- ==== Proof.KLevel1.lean ====
/-
  The first level of the filter bank, read at an index.

  The block is filtered along its rows with taps one position apart.  The eight taps of each filter are spread over
  several of the body's values (the first five taps, then the last three); put together, row `p` of the low-pass value
  is the low-pass filter of row `p` of the block, and the same for the high-pass value.
-/
import proofs.«128658_j3599182594827_2_alg».proof.Proof.Gen.KernelIdeal.Skeleton
import proofs.«128658_j3599182594827_2_alg».proof.Proof.KRotate

noncomputable section

namespace Cert.KernelIdeal.SwtValue

open Idealize.ShloMosaic Idealize.ShloMosaic.ValueIdx Cert.Swt Cert.KernelIdeal Cert.KernelIdeal.Gen

/-- The low-pass value of level one, at row `p` and position `q`, is the low-pass filter with spacing one of row `p`. -/
theorem low1 (x : Vec Ideal S128x4096 .f32) (p : Fin 128) (q : Fin 4096) :
    k0_pay16 (k0_pay6 x) (k0_pay11 x) (k0_pay13 x) (Scalar.ofBits .f32 0x3EE4673A#32) (ix2 p q)
      = low 1 (fun t => x (ix2 p t)) q := by
  unfold k0_pay16 k0_pay11 k0_pay13 k0_pay14 k0_pay15 k0_pay7 k0_pay8 k0_pay9 k0_pay10 k0_pay6
  simp only [shapeCast_self, addf_apply, mulf_apply, broadcast_apply]
  rw [rotate_apply 4 4092#32 rfl (by decide), rotate_apply 3 4093#32 rfl (by decide),
    rotate_apply 2 4094#32 rfl (by decide), rotate_apply 1 4095#32 rfl (by decide),
    rotate_apply 4095 1#32 rfl (by decide), rotate_apply 4094 2#32 rfl (by decide),
    rotate_apply 4093 3#32 rfl (by decide)]
  rfl

/-- The high-pass value of level one, at row `p` and position `q`, is the high-pass filter with spacing one of row `p`. -/
theorem high1 (x : Vec Ideal S128x4096 .f32) (p : Fin 128) (q : Fin 4096) :
    k0_pay17 (k0_pay6 x) (k0_pay12 x) (k0_pay13 x) (ix2 p q)
      = high 1 (fun t => x (ix2 p t)) q := by
  unfold k0_pay17 k0_pay12 k0_pay13 k0_pay14 k0_pay15 k0_pay7 k0_pay8 k0_pay9 k0_pay10 k0_pay6
  simp only [shapeCast_self, addf_apply, mulf_apply, broadcast_apply]
  rw [rotate_apply 4 4092#32 rfl (by decide), rotate_apply 3 4093#32 rfl (by decide),
    rotate_apply 2 4094#32 rfl (by decide), rotate_apply 1 4095#32 rfl (by decide),
    rotate_apply 4095 1#32 rfl (by decide), rotate_apply 4094 2#32 rfl (by decide),
    rotate_apply 4093 3#32 rfl (by decide)]
  rfl

end Cert.KernelIdeal.SwtValue

end
-- ==== Proof.KLevel2.lean ====
/-
  The second level of the filter bank, read at an index.

  Its input is the low-pass value of the first level, kept here as it stands; the taps are two positions apart.  The
  eight taps of each filter are spread over several of the body's values; put together, row `p` of the low-pass value is
  the low-pass filter with spacing two of row `p` of the input, and the same for the high-pass value.
-/
import proofs.«128658_j3599182594827_2_alg».proof.Proof.Gen.KernelIdeal.Skeleton
import proofs.«128658_j3599182594827_2_alg».proof.Proof.KRotate

noncomputable section

namespace Cert.KernelIdeal.SwtValue

open Idealize.ShloMosaic Idealize.ShloMosaic.ValueIdx Cert.Swt Cert.KernelIdeal Cert.KernelIdeal.Gen

/-- The low-pass value of level two, at row `p` and position `q`, is the low-pass filter with spacing two of row `p` of
    the first level's low-pass value. -/
theorem low2 (v1 v34 v38 : FVec Ideal S128x4096 .f32) (c : Ideal .f32) (p : Fin 128) (q : Fin 4096) :
    k0_pay28 (k0_pay16 v1 v34 v38 c) (k0_pay22 v1 v34 v38 c) (ix2 p q)
      = low 2 (fun t => k0_pay16 v1 v34 v38 c (ix2 p t)) q := by
  unfold k0_pay28 k0_pay22 k0_pay18 k0_pay19 k0_pay21 k0_pay24 k0_pay25 k0_pay26 k0_pay27
  generalize k0_pay16 v1 v34 v38 c = a
  simp only [addf_apply, mulf_apply, broadcast_apply]
  rw [rotate_apply 8 4088#32 rfl (by decide), rotate_apply 6 4090#32 rfl (by decide),
    rotate_apply 4 4092#32 rfl (by decide), rotate_apply 2 4094#32 rfl (by decide),
    rotate_apply 4094 2#32 rfl (by decide), rotate_apply 4092 4#32 rfl (by decide),
    rotate_apply 4090 6#32 rfl (by decide)]
  rfl

/-- The high-pass value of level two, at row `p` and position `q`, is the high-pass filter with spacing two of row `p`
    of the first level's low-pass value. -/
theorem high2 (v1 v34 v38 : FVec Ideal S128x4096 .f32) (c : Ideal .f32) (p : Fin 128) (q : Fin 4096) :
    k0_pay29 (k0_pay16 v1 v34 v38 c) (k0_pay20 v1 v34 v38 c) (k0_pay23 v1 v34 v38 c) (ix2 p q)
      = high 2 (fun t => k0_pay16 v1 v34 v38 c (ix2 p t)) q := by
  unfold k0_pay29 k0_pay20 k0_pay23 k0_pay18 k0_pay19 k0_pay21 k0_pay24 k0_pay25 k0_pay26 k0_pay27
  generalize k0_pay16 v1 v34 v38 c = a
  simp only [addf_apply, mulf_apply, broadcast_apply]
  rw [rotate_apply 8 4088#32 rfl (by decide), rotate_apply 6 4090#32 rfl (by decide),
    rotate_apply 4 4092#32 rfl (by decide), rotate_apply 2 4094#32 rfl (by decide),
    rotate_apply 4094 2#32 rfl (by decide), rotate_apply 4092 4#32 rfl (by decide),
    rotate_apply 4090 6#32 rfl (by decide)]
  rfl

end Cert.KernelIdeal.SwtValue

end
-- ==== Proof.KLevel3.lean ====
/-
  The third level of the filter bank, read at an index.

  Its input is the low-pass value of the second level, kept here as it stands; the taps are four positions apart.  The
  two values of this level are stored as they are formed, each as a block with one leading plane, so they are read at a
  plane, a row and a position.  Put together, row `p` of the stored low-pass value is the low-pass filter with spacing
  four of row `p` of the input, and the same for the stored high-pass value.
-/
import proofs.«128658_j3599182594827_2_alg».proof.Proof.Gen.KernelIdeal.Skeleton
import proofs.«128658_j3599182594827_2_alg».proof.Proof.KRotate

noncomputable section

namespace Cert.KernelIdeal.SwtValue

open Idealize.ShloMosaic Idealize.ShloMosaic.ValueIdx Cert.Swt Cert.KernelIdeal Cert.KernelIdeal.Gen

/-- A block recast with one leading plane, read at that plane, row `p` and position `q`, is the block at `(p, q)`. -/
theorem plane_apply {α : Type} (v : S128x4096.Idx → α) (h : S128x4096.ShapeCasts S1x128x4096) (z : Fin 1) (p : Fin 128)
    (q : Fin 4096) : shapeCast S1x128x4096 v h (ix3 z p q) = v (ix2 p q) :=
  (shapeCast_addUnit_apply ![128, 4096] v h (ix3 z p q)).trans
    (congrArg v (funext fun a => by match a with | ⟨0, _⟩ => rfl | ⟨1, _⟩ => rfl))

/-- The stored low-pass value of level three, at row `p` and position `q`, is the low-pass filter with spacing four of
    row `p` of the second level's low-pass value. -/
theorem low3 (v55 v78 : FVec Ideal S128x4096 .f32) (z : Fin 1) (p : Fin 128) (q : Fin 4096) :
    k0_pay2 (k0_pay28 v55 v78) (k0_pay39 (k0_pay28 v55 v78) (k0_pay32 v55 v78)) (ix3 z p q)
      = low 4 (fun t => k0_pay28 v55 v78 (ix2 p t)) q := by
  unfold k0_pay2 k0_pay39 k0_pay32 k0_pay31 k0_pay33 k0_pay34 k0_pay35 k0_pay36 k0_pay38 k0_pay1
  generalize k0_pay28 v55 v78 = a
  rw [plane_apply]
  simp only [addf_apply, mulf_apply, broadcast_apply]
  rw [rotate_apply 16 4080#32 rfl (by decide), rotate_apply 12 4084#32 rfl (by decide),
    rotate_apply 8 4088#32 rfl (by decide), rotate_apply 4 4092#32 rfl (by decide),
    rotate_apply 4092 4#32 rfl (by decide), rotate_apply 4088 8#32 rfl (by decide),
    rotate_apply 4084 12#32 rfl (by decide)]
  rfl

/-- The stored high-pass value of level three, at row `p` and position `q`, is the high-pass filter with spacing four
    of row `p` of the second level's low-pass value. -/
theorem high3 (v55 v78 : FVec Ideal S128x4096 .f32) (z : Fin 1) (p : Fin 128) (q : Fin 4096) :
    k0_pay3 (k0_pay28 v55 v78) (k0_pay37 (k0_pay28 v55 v78) (k0_pay30 (F := Ideal)) (k0_pay31 v55 v78)
        (Scalar.ofBits .f32 0xBE26CFB5#32)) (k0_pay40 (k0_pay28 v55 v78)) (ix3 z p q)
      = high 4 (fun t => k0_pay28 v55 v78 (ix2 p t)) q := by
  unfold k0_pay3 k0_pay37 k0_pay40 k0_pay30 k0_pay31 k0_pay33 k0_pay34 k0_pay35 k0_pay36 k0_pay38 k0_pay1
  generalize k0_pay28 v55 v78 = a
  rw [plane_apply]
  simp only [addf_apply, mulf_apply, broadcast_apply]
  rw [rotate_apply 16 4080#32 rfl (by decide), rotate_apply 12 4084#32 rfl (by decide),
    rotate_apply 8 4088#32 rfl (by decide), rotate_apply 4 4092#32 rfl (by decide),
    rotate_apply 4092 4#32 rfl (by decide), rotate_apply 4088 8#32 rfl (by decide),
    rotate_apply 4084 12#32 rfl (by decide)]
  rfl

end Cert.KernelIdeal.SwtValue

end
-- ==== Proof.KBank.lean ====
/-
  The four stored values of the body, each read at an index as one row of the filter bank.

  The body chains the three levels: the low-pass value of one level is the input of the next.  Reading the chain row
  by row, the value stored for plane 0 is the third low-pass row, and the values stored for planes 1, 2 and 3 are the
  high-pass rows of levels three, two and one — the four rows of `Cert.Swt.bank`.
-/
import proofs.«128658_j3599182594827_2_alg».proof.Proof.KLevel1
import proofs.«128658_j3599182594827_2_alg».proof.Proof.KLevel2
import proofs.«128658_j3599182594827_2_alg».proof.Proof.KLevel3

noncomputable section

namespace Cert.KernelIdeal.SwtValue

open Idealize.ShloMosaic Idealize.ShloMosaic.ValueIdx Cert.Swt Cert.KernelIdeal Cert.KernelIdeal.Gen

variable (x : Vec Ideal S128x4096 .f32)

/-- Row `p` of the first level's low-pass value is the low-pass filter of row `p` of the block. -/
theorem row_low1 (p : Fin 128) :
    (fun t => k0_pay16 (k0_pay6 x) (k0_pay11 x) (k0_pay13 x) (Scalar.ofBits .f32 0x3EE4673A#32) (ix2 p t))
      = low 1 (fun t => x (ix2 p t)) :=
  funext fun t => low1 x p t

/-- Row `p` of the second level's low-pass value is the second low-pass filter of the first of row `p` of the block. -/
theorem row_low2 (p : Fin 128) :
    (fun t => k0_pay28 (k0_pay16 (k0_pay6 x) (k0_pay11 x) (k0_pay13 x) (Scalar.ofBits .f32 0x3EE4673A#32))
        (k0_pay22 (k0_pay6 x) (k0_pay11 x) (k0_pay13 x) (Scalar.ofBits .f32 0x3EE4673A#32)) (ix2 p t))
      = low 2 (low 1 (fun t => x (ix2 p t))) :=
  funext fun t => (low2 (k0_pay6 x) (k0_pay11 x) (k0_pay13 x) (Scalar.ofBits .f32 0x3EE4673A#32) p t).trans
    (congrArg (fun r => low 2 r t) (row_low1 x p))

/-- Plane 0: the third low-pass row. -/
theorem stored0 (z : Fin 1) (p : Fin 128) (q : Fin 4096) :
    k0_pay2 (k0_pay28 (k0_pay16 (k0_pay6 x) (k0_pay11 x) (k0_pay13 x) (Scalar.ofBits .f32 0x3EE4673A#32))
        (k0_pay22 (k0_pay6 x) (k0_pay11 x) (k0_pay13 x) (Scalar.ofBits .f32 0x3EE4673A#32)))
      (k0_pay39 (k0_pay28 (k0_pay16 (k0_pay6 x) (k0_pay11 x) (k0_pay13 x) (Scalar.ofBits .f32 0x3EE4673A#32))
          (k0_pay22 (k0_pay6 x) (k0_pay11 x) (k0_pay13 x) (Scalar.ofBits .f32 0x3EE4673A#32)))
        (k0_pay32 (k0_pay16 (k0_pay6 x) (k0_pay11 x) (k0_pay13 x) (Scalar.ofBits .f32 0x3EE4673A#32))
          (k0_pay22 (k0_pay6 x) (k0_pay11 x) (k0_pay13 x) (Scalar.ofBits .f32 0x3EE4673A#32)))) (ix3 z p q)
      = bank (fun t => x (ix2 p t)) 0 q :=
  (low3 _ _ z p q).trans (congrArg (fun r => low 4 r q) (row_low2 x p))

/-- Plane 1: the high-pass row of level three. -/
theorem stored1 (z : Fin 1) (p : Fin 128) (q : Fin 4096) :
    k0_pay3 (k0_pay28 (k0_pay16 (k0_pay6 x) (k0_pay11 x) (k0_pay13 x) (Scalar.ofBits .f32 0x3EE4673A#32))
        (k0_pay22 (k0_pay6 x) (k0_pay11 x) (k0_pay13 x) (Scalar.ofBits .f32 0x3EE4673A#32)))
      (k0_pay37 (k0_pay28 (k0_pay16 (k0_pay6 x) (k0_pay11 x) (k0_pay13 x) (Scalar.ofBits .f32 0x3EE4673A#32))
          (k0_pay22 (k0_pay6 x) (k0_pay11 x) (k0_pay13 x) (Scalar.ofBits .f32 0x3EE4673A#32)))
        (k0_pay30 (F := Ideal))
        (k0_pay31 (k0_pay16 (k0_pay6 x) (k0_pay11 x) (k0_pay13 x) (Scalar.ofBits .f32 0x3EE4673A#32))
          (k0_pay22 (k0_pay6 x) (k0_pay11 x) (k0_pay13 x) (Scalar.ofBits .f32 0x3EE4673A#32)))
        (Scalar.ofBits .f32 0xBE26CFB5#32))
      (k0_pay40 (k0_pay28 (k0_pay16 (k0_pay6 x) (k0_pay11 x) (k0_pay13 x) (Scalar.ofBits .f32 0x3EE4673A#32))
        (k0_pay22 (k0_pay6 x) (k0_pay11 x) (k0_pay13 x) (Scalar.ofBits .f32 0x3EE4673A#32)))) (ix3 z p q)
      = bank (fun t => x (ix2 p t)) 1 q :=
  (high3 _ _ z p q).trans (congrArg (fun r => high 4 r q) (row_low2 x p))

/-- Plane 2: the high-pass row of level two. -/
theorem stored2 (z : Fin 1) (p : Fin 128) (q : Fin 4096) :
    k0_pay4 (k0_pay29 (k0_pay16 (k0_pay6 x) (k0_pay11 x) (k0_pay13 x) (Scalar.ofBits .f32 0x3EE4673A#32))
        (k0_pay20 (k0_pay6 x) (k0_pay11 x) (k0_pay13 x) (Scalar.ofBits .f32 0x3EE4673A#32))
        (k0_pay23 (k0_pay6 x) (k0_pay11 x) (k0_pay13 x) (Scalar.ofBits .f32 0x3EE4673A#32))) (ix3 z p q)
      = bank (fun t => x (ix2 p t)) 2 q :=
  (plane_apply _ _ z p q).trans
    ((high2 (k0_pay6 x) (k0_pay11 x) (k0_pay13 x) (Scalar.ofBits .f32 0x3EE4673A#32) p q).trans
      (congrArg (fun r => high 2 r q) (row_low1 x p)))

/-- Plane 3: the high-pass row of level one. -/
theorem stored3 (z : Fin 1) (p : Fin 128) (q : Fin 4096) :
    k0_pay5 (k0_pay17 (k0_pay6 x) (k0_pay12 x) (k0_pay13 x)) (ix3 z p q)
      = bank (fun t => x (ix2 p t)) 3 q :=
  (plane_apply _ _ z p q).trans (high1 x p q)

end Cert.KernelIdeal.SwtValue

end
-- ==== Proof.KBlock.lean ====
/-
  What the body leaves in the output buffer, as ONE function of the input block.

  The body stores four planes of 128 rows of 4096 entries, plane `ch` through the rectangle that starts at plane `ch`.
  Each stored value is a row of the filter bank of the matching row of the block, so the buffer as a whole holds, at
  plane `ch`, row `p` and position `q`, entry `q` of row `ch` of the filter bank of row `p` of the block.
-/
import proofs.«128658_j3599182594827_2_alg».proof.Proof.Gen.KernelIdeal.Frame
import proofs.«128658_j3599182594827_2_alg».proof.Proof.KBank

noncomputable section

namespace Cert.KernelIdeal.SwtValue

open Idealize.ShloMosaic Idealize.ShloMosaic.ValueIdx Cert.Swt Cert.KernelIdeal Cert.KernelIdeal.Gen

/-- The output buffer as a function of the input block: the filter bank of each row, plane by plane. -/
def bankBlock (x : Vec Ideal S128x4096 .f32) : Vec Ideal S4x128x4096 .f32 :=
  fun y => bank (fun t => x (ix2 (y 1) t)) (y 0) (y 2)

theorem bankBlock_apply (x : Vec Ideal S128x4096 .f32) (ch : Fin 4) (p : Fin 128) (q : Fin 4096) :
    bankBlock x (ix3 ch p q) = bank (fun t => x (ix2 p t)) ch q := rfl

theorem zero2 : (![0, 0] : Fin 2 → Nat) = fun _ => 0 := funext fun a => by fin_cases a <;> rfl

/-- Where the rectangle that starts at plane `k` puts its entry `(z, p, q)`: at `(k, p, q)`. -/
theorem emb_plane (k : ℕ) (hk : k < 4)
    (inb : ∀ a, (![k, 0, 0] : Fin 3 → Nat) a + S1x128x4096.size a ≤ S4x128x4096.size a)
    (z : Fin 1) (p : Fin 128) (q : Fin 4096) :
    (Rect.unit (s := S4x128x4096) ![k, 0, 0] S1x128x4096.size inb).emb (ix3 z p q) = ix3 (⟨k, hk⟩ : Fin 4) p q := by
  funext a
  apply Fin.ext
  have hz := z.isLt
  match a with
  | ⟨0, _⟩ => show k + 1 * z.val = k; omega
  | ⟨1, _⟩ => show 0 + 1 * p.val = p.val; omega
  | ⟨2, _⟩ => show 0 + 1 * q.val = q.val; omega

theorem emb_r1 (z : Fin 1) (p : Fin 128) (q : Fin 4096) : r0_1.emb (ix3 z p q) = ix3 (0 : Fin 4) p q :=
  emb_plane 0 (by decide) _ z p q
theorem emb_r2 (z : Fin 1) (p : Fin 128) (q : Fin 4096) : r0_2.emb (ix3 z p q) = ix3 (1 : Fin 4) p q :=
  emb_plane 1 (by decide) _ z p q
theorem emb_r3 (z : Fin 1) (p : Fin 128) (q : Fin 4096) : r0_3.emb (ix3 z p q) = ix3 (2 : Fin 4) p q :=
  emb_plane 2 (by decide) _ z p q
theorem emb_r4 (z : Fin 1) (p : Fin 128) (q : Fin 4096) : r0_4.emb (ix3 z p q) = ix3 (3 : Fin 4) p q :=
  emb_plane 3 (by decide) _ z p q

/-- The buffer after the body is `bankBlock` of the input block. -/
theorem out_eq (x0 : Vec Ideal S128x4096 .f32) : out0_1 x0 = bankBlock x0 := by
  funext y
  unfold out0_1
  simp only [View.ld_unit_zero (S := S128x4096) zero2]
  refine View.canon_apply_of_pieces (bankBlock x0) _ (fun pc hpc => ?_) y (cover0_1 _ _ _ _ y)
  simp only [List.mem_cons, List.mem_nil_iff, or_false] at hpc
  rcases hpc with rfl | rfl | rfl | rfl
  · intro xx
    obtain ⟨z, p, q, rfl⟩ : ∃ (z : Fin 1) (p : Fin 128) (q : Fin 4096), xx = ix3 z p q := ⟨xx 0, xx 1, xx 2, eq_ix3 xx⟩
    refine (stored3 x0 z p q).trans ?_
    exact (congrArg (bankBlock x0) (emb_r4 z p q)).symm
  · intro xx
    obtain ⟨z, p, q, rfl⟩ : ∃ (z : Fin 1) (p : Fin 128) (q : Fin 4096), xx = ix3 z p q := ⟨xx 0, xx 1, xx 2, eq_ix3 xx⟩
    refine (stored2 x0 z p q).trans ?_
    exact (congrArg (bankBlock x0) (emb_r3 z p q)).symm
  · intro xx
    obtain ⟨z, p, q, rfl⟩ : ∃ (z : Fin 1) (p : Fin 128) (q : Fin 4096), xx = ix3 z p q := ⟨xx 0, xx 1, xx 2, eq_ix3 xx⟩
    refine (stored1 x0 z p q).trans ?_
    exact (congrArg (bankBlock x0) (emb_r2 z p q)).symm
  · intro xx
    obtain ⟨z, p, q, rfl⟩ : ∃ (z : Fin 1) (p : Fin 128) (q : Fin 4096), xx = ix3 z p q := ⟨xx 0, xx 1, xx 2, eq_ix3 xx⟩
    refine (stored0 x0 z p q).trans ?_
    exact (congrArg (bankBlock x0) (emb_r1 z p q)).symm

end Cert.KernelIdeal.SwtValue

end
-- ==== Proof.KArray.lean ====
/-
  From blocks to the array: what the output array of the region holds after the run.

  Point `t` of the grid reads rows `128·t … 128·t + 127` of the matrix of rows and writes, for each of the four planes,
  the same rows of the output array.  What it writes is the filter bank of each of its rows, so it is a block of ONE
  function of the matrix: at plane `ch`, row `r`, position `q`, entry `q` of row `ch` of the filter bank of row `r`.
  Every row belongs to the point `r / 128`, so the blocks cover the array, and the array ends holding that function.
-/
import proofs.«128658_j3599182594827_2_alg».proof.Proof.Gen.KernelIdeal.Frame
import proofs.«128658_j3599182594827_2_alg».proof.Proof.KBlock
import Idealize.ShloMosaic.Lib.Pipeline.Value

noncomputable section

namespace Cert.KernelIdeal.SwtValue

open Cert.KernelIdeal Cert.KernelIdeal.Gen Idealize.ShloMosaic Idealize.ShloMosaic.TcCoe Idealize.SL.Sem
open Idealize.ShloMosaic.ValueIdx Cert.Swt
open Idealize.ShloMosaic.Pipeline (Dat)

variable (m : (ℓ : Loc nD τ sig) → Buf (Elt Ideal) ℓ)

/-- The output array of the region as a function of the matrix of rows: the filter bank of each row, plane by plane. -/
def bankRows (X : S4096x4096.Idx → Ideal .f32) : S4x4096x4096.Idx → Ideal .f32 :=
  fun i => bank (fun t => X (ix2 (i 1) t)) (i 0) (i 2)

theorem bankRows_apply (X : S4096x4096.Idx → Ideal .f32) (ch : Fin 4) (r : Fin 4096) (q : Fin 4096) :
    bankRows X (ix3 ch r q) = bank (fun t => X (ix2 r t)) ch q := rfl

/-- The printed index maps over the grid: the input's block index is `(t, 0)`, the output's `(0, t, 0)`. -/
theorem idx_facts : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0 :=
  (by decide +kernel : ∀ t : Fin grid0.N, _)

/-- The input block of point `t` at `(p, q)` is the matrix at row `128·t + p`, position `q`. -/
theorem iblk_read (c : Dev nD) (t : Fin cfg0.N) (p : Fin 128) (q : Fin 4096) (r : Fin 4096)
    (hr : r.val = t.val * 128 + p.val) :
    (iblk m c 0 t : Vec Ideal S128x4096 .f32) (ix2 p q) = (V m c main_v0 : S4096x4096.Idx → Ideal .f32) (ix2 r q) := by
  obtain ⟨e0, e1, -⟩ := idx_facts t
  show V m c main_v0 (((cfg0.win 0).blk t).view.emb (ix2 p q)) = V m c main_v0 (ix2 r q)
  refine congrArg (V m c main_v0) (funext fun a => Fin.ext ?_)
  match a with
  | ⟨0, _⟩ => show win0_0.index t (0 : Fin 2) * 128 + 1 * p.val = r.val; rw [e0, hr]; omega
  | ⟨1, _⟩ => show win0_0.index t (1 : Fin 2) * 4096 + 1 * q.val = q.val; rw [e1]; omega

/-- A block whose rows are rows `r0 …` of the matrix: its filter bank is that of the matrix, read `r0` rows further. -/
theorem block_point (X : S4096x4096.Idx → Ideal .f32) (x : Vec Ideal S128x4096 .f32) (r0 : ℕ)
    (hx : ∀ (p : Fin 128) (q : Fin 4096) (r : Fin 4096), r.val = r0 + p.val → x (ix2 p q) = X (ix2 r q))
    (j : S4x128x4096.Idx) (i : S4x4096x4096.Idx) (h0 : (i 0).val = (j 0).val) (h1 : (i 1).val = r0 + (j 1).val)
    (h2 : (i 2).val = (j 2).val) : bankBlock x j = bankRows X i := by
  obtain ⟨ch, p, q, rfl⟩ : ∃ (ch : Fin 4) (p : Fin 128) (q : Fin 4096), j = ix3 ch p q := ⟨j 0, j 1, j 2, eq_ix3 j⟩
  obtain ⟨ch', r, q', rfl⟩ : ∃ (ch' : Fin 4) (r : Fin 4096) (q' : Fin 4096), i = ix3 ch' r q' := ⟨i 0, i 1, i 2, eq_ix3 i⟩
  have hc : ch' = ch := Fin.ext h0
  have hq : q' = q := Fin.ext h2
  subst hc hq
  rw [bankBlock_apply, bankRows_apply]
  exact congrArg (fun row => bank row _ _) (funext fun t => hx p t r h1)

/-- What point `t` writes back is block `t` of `bankRows` of the matrix of rows. -/
theorem flushed_eq (c : Dev nD) (t : Fin cfg0.N) :
    (dats m 0 c).flushed 1 t = ((cfg0.win 1).blk t).view.read (Elt Ideal) (bankRows (V m c main_v0)) := by
  show (cfg0.win 1).cut (grid0.coords t) ((dats m 0 c).after 1 t) = _
  rw [after0_1, out_eq]
  obtain ⟨-, -, e2, e3, e4⟩ := idx_facts t
  funext j
  show bankBlock (iblk m c 0 t) ((cfg0.win 1).xinj (grid0.coords t) j)
    = bankRows (V m c main_v0) (((cfg0.win 1).blk t).view.emb j)
  refine block_point (V m c main_v0) (iblk m c 0 t) (t.val * 128) (fun p q r hr => iblk_read m c t p q r hr) _ _ ?_ ?_ ?_
  · show win0_1.index t (0 : Fin 3) * 4 + 1 * (j 0).val = (j 0).val; rw [e2]; omega
  · show win0_1.index t (1 : Fin 3) * 128 + 1 * (j 1).val = t.val * 128 + (j 1).val; rw [e3]; omega
  · show win0_1.index t (2 : Fin 3) * 4096 + 1 * (j 2).val = (j 2).val; rw [e4]; omega

/-- An index of the array is in point `t`'s block iff each coordinate is in the block's range on its axis. -/
theorem mem_blk (t : Fin cfg0.N) (i : S4x4096x4096.Idx) :
    i ∈ ((cfg0.win 1).blk t).view.set ↔ ∀ a : Fin 3, win0_1.index t a * S4x128x4096.size a ≤ (i a).val
      ∧ (i a).val < win0_1.index t a * S4x128x4096.size a + S4x128x4096.size a := by
  show i ∈ ((View.whole main_v1).slice (win0_1.rect t)).set ↔ _
  rw [View.set_slice_whole, Rect.mem_set_unit]
  exact Iff.rfl

/-- Row `r` of every plane is written by the point `r / 128`. -/
theorem cover (i : S4x4096x4096.Idx) :
    ∃ t : Fin cfg0.N, (cfg0.win 1).flush t = true ∧ i ∈ ((cfg0.win 1).blk t).view.set := by
  have hN : cfg0.N = 32 := N_0
  have hi0 : (i 0).val < 4 := (i 0).isLt
  have hi1 : (i 1).val < 4096 := (i 1).isLt
  have hi2 : (i 2).val < 4096 := (i 2).isLt
  obtain ⟨t, ht⟩ : ∃ t : Fin cfg0.N, t.val = (i 1).val / 128 := ⟨⟨(i 1).val / 128, by omega⟩, rfl⟩
  obtain ⟨-, -, e2, e3, e4⟩ := idx_facts t
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    rw [e2]; omega
  | ⟨1, _⟩ =>
    show win0_1.index t (1 : Fin 3) * 128 ≤ (i 1).val ∧ (i 1).val < win0_1.index t (1 : Fin 3) * 128 + 128
    rw [e3, ht]; omega
  | ⟨2, _⟩ =>
    show win0_1.index t (2 : Fin 3) * 4096 ≤ (i 2).val ∧ (i 2).val < win0_1.index t (2 : Fin 3) * 4096 + 4096
    rw [e4]; omega

/-- The output array of the region after the run: `bankRows` of the matrix of rows. -/
theorem final (c : Dev nD) : (dats m 0 c).arrAt 1 cfg0.N = bankRows (V m c main_v0) :=
  (dats m 0 c).arrAt_eq_of_cover 1 (bankRows (V m c main_v0)) (fun t _ => flushed_eq m c t) cover

end Cert.KernelIdeal.SwtValue

end
-- ==== Proof.LibRowsFlatten.lean ====
/-
  A rank-3 array `[a, b, c]` and the matrix `[a·b, c]` of its rows, one recast as the other, read at an index.
  Row `r = s·b + t` of the matrix is the slice `(s, t, ·)` of the array: both sit at the same row-major position.
  General in the extents; the matrix's row count `n` is named with its equation `n = a·b` so that a literal
  (`16384` for `2048·8`) can be used.
-/
import Idealize.ShloMosaic.Lib.Pipeline.Value
import Idealize.ShloMosaic.Lib.ValueIdx

namespace Cert.LibRowsFlatten

open Idealize.ShloMosaic Idealize.ShloMosaic.ValueIdx

variable {α : Type}

/-- `[a, b, c]` recast as `[n, c]` with `n = a·b`, read at `(r, l)` with `r = s·b + t`: the array at `(s, t, l)`. -/
theorem shapeCast_abc_nc_apply {a b c n : ℕ} (x : (⟨3, ![a, b, c]⟩ : Shape).Idx → α)
    (h : (⟨3, ![a, b, c]⟩ : Shape).ShapeCasts ⟨2, ![n, c]⟩) (s : Fin a) (t : Fin b) (l : Fin c) (r : Fin n)
    (hr : r.val = s.val * b + t.val) :
    shapeCast ⟨2, ![n, c]⟩ x h (ix2 r l) = x (ix3 s t l) :=
  shapeCast_apply x h _ _ (by
    rw [Shape.rowMajor_val_three, Shape.rowMajor_val_two]
    show (s.val * b + t.val) * c + l.val = r.val * c + l.val
    rw [hr])

/-- `[n, c]` with `n = a·b` recast as `[a, b, c]`, read at `(s, t, l)`: the matrix at `(r, l)` with `r = s·b + t`. -/
theorem shapeCast_nc_abc_apply {a b c n : ℕ} (x : (⟨2, ![n, c]⟩ : Shape).Idx → α)
    (h : (⟨2, ![n, c]⟩ : Shape).ShapeCasts ⟨3, ![a, b, c]⟩) (s : Fin a) (t : Fin b) (l : Fin c) (r : Fin n)
    (hr : r.val = s.val * b + t.val) :
    shapeCast ⟨3, ![a, b, c]⟩ x h (ix3 s t l) = x (ix2 r l) :=
  shapeCast_apply x h _ _ (by
    rw [Shape.rowMajor_val_three, Shape.rowMajor_val_two]
    show r.val * c + l.val = (s.val * b + t.val) * c + l.val
    rw [hr])

end Cert.LibRowsFlatten
-- ==== Proof.KTail.lean ====
/-
  The operations of @main around the region, read at an index.

  Before the region the argument `[64, 64, 4096]` is recast as the matrix `[4096, 4096]` of its rows: row `64·b + n`
  is the slice `(b, n, ·)`.  After the region the four planes `[4, 4096, 4096]` are transposed to `[4096, 4096, 4]`
  — entry `(r, t, ch)` is entry `(ch, r, t)` — and recast as `[64, 64, 4096, 4]`.  Composed with the filter bank of
  every row, the result at `(b, n, t, ch)` is entry `t` of row `ch` of the filter bank of the argument's slice
  `(b, n, ·)`: the specification.
-/
import proofs.«128658_j3599182594827_2_alg».proof.Proof.Gen.KernelIdeal.Frame
import proofs.«128658_j3599182594827_2_alg».proof.Proof.KArray
import proofs.«128658_j3599182594827_2_alg».proof.Proof.LibRowsFlatten
import Idealize.ShloMosaic.Lib.Pipeline.Value

noncomputable section

namespace Cert.KernelIdeal.SwtValue

open Cert.KernelIdeal Cert.KernelIdeal.Gen Idealize.ShloMosaic Idealize.ShloMosaic.TcCoe Idealize.SL.Sem
open Idealize.ShloMosaic.ValueIdx Cert.Swt
open Idealize.ShloMosaic.Pipeline (Dat)

variable (m : (ℓ : Loc nD τ sig) → Buf (Elt Ideal) ℓ)

/-- The matrix of rows the region finds is the argument recast. -/
theorem V_main_v0 (c : Dev nD) : (V m c main_v0 : S4096x4096.Idx → Ideal .f32)
    = shapeCast S4096x4096 (m ((c : Thread nD τ).loc main_arg0) : S64x64x4096.Idx → Ideal .f32)
        Facts₀.shapeCasts_S64x64x4096_S4096x4096 := by
  show StableHlo.after hostOps0 (fun b => m (c, b)) (Proc.devRef .tc main_v0) = _
  after_results
  rfl

/-- The result buffer after the operations that follow the region: the region's output array transposed and recast. -/
theorem tail_v3 (c : Dev nD) : Pipeline.afterTail₀ cfgs (dats m) 0 (V0 m) [hostOps1] c main_v3
    = shapeCast S64x64x4096x4 (transpose S4096x4096x4 [1, 2, 0]
        ((dats m 0 c).arrAt 1 cfg0.N : S4x4096x4096.Idx → Ideal .f32)
        Facts₀.transposes_S4x4096x4096_S4096x4096x4_1_2_0) Facts₀.shapeCasts_S4096x4096x4_S64x64x4096x4 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  rw [e]
  rfl

/-- The filter bank of every row of the recast argument, transposed and recast, is the specification. -/
theorem result_eq (A : S64x64x4096.Idx → Ideal .f32) (h0 : S64x64x4096.ShapeCasts S4096x4096)
    (h1 : S4x4096x4096.Transposes [1, 2, 0] S4096x4096x4) (h2 : S4096x4096x4.ShapeCasts S64x64x4096x4) :
    shapeCast S64x64x4096x4 (transpose S4096x4096x4 [1, 2, 0] (bankRows (shapeCast S4096x4096 A h0)) h1) h2 = G A := by
  funext i
  obtain ⟨b, n, t, ch, rfl⟩ : ∃ (b n : Fin 64) (t : Fin 4096) (ch : Fin 4), i = ix4 b n t ch :=
    ⟨i 0, i 1, i 2, i 3, eq_ix4 i⟩
  have hb := b.isLt
  have hn := n.isLt
  obtain ⟨r, hr⟩ : ∃ r : Fin 4096, r.val = b.val * 64 + n.val := ⟨⟨b.val * 64 + n.val, by omega⟩, rfl⟩
  rw [G_apply]
  refine (shapeCast_apply _ h2 (ix4 b n t ch) (ix3 r t ch) ?_).trans ?_
  · rw [Shape.rowMajor_val_three, Shape.rowMajor_val_four]
    show (r.val * 4096 + t.val) * 4 + ch.val = ((b.val * 64 + n.val) * 4096 + t.val) * 4 + ch.val
    rw [hr]
  refine (transpose_apply [1, 2, 0] _ h1 (ix3 r t ch) (ix3 ch r t) ?_).trans ?_
  · intro a
    match a with
    | ⟨0, _⟩ => rfl
    | ⟨1, _⟩ => rfl
    | ⟨2, _⟩ => rfl
  rw [bankRows_apply]
  show bank _ ch t = bank (rowOf A b n) ch t
  exact congrArg (fun row => bank row ch t)
    (funext fun s => Cert.LibRowsFlatten.shapeCast_abc_nc_apply A h0 b n s r hr)

/-- The result buffer after the run is the specification of the argument as launched. -/
theorem value (c : Dev nD) : Pipeline.afterTail₀ cfgs (dats m) 0 (V0 m) [hostOps1] c main_v3
    = G (m ((c : Thread nD τ).loc main_arg0)) := by
  rw [tail_v3, final, V_main_v0]
  exact result_eq _ _ _ _

end Cert.KernelIdeal.SwtValue

end
-- ==== Proof.KernelValue.lean ====
/-
  The kernel's run, read: every weakly fair execution terminates with the result buffer at the specification
  `Cert.Swt.G` of the argument — per slice `(b, n, ·)` the three-level filter bank, the last low-pass row and the three
  high-pass rows — and the argument as launched.
-/
import proofs.«128658_j3599182594827_2_alg».proof.Proof.Gen.KernelIdeal.Frame
import proofs.«128658_j3599182594827_2_alg».proof.Proof.KTail

noncomputable section

namespace Cert.KernelIdeal.SwtValue

open Cert.KernelIdeal Cert.KernelIdeal.Gen Idealize.ShloMosaic Idealize.ShloMosaic.TcCoe Idealize.SL.Sem

/-- The frame run re-posted: the result at the specification of the argument, the argument unchanged.  Neither buffer
    is an array of the region, so both are read off the operations after it: the result through the transpose and the
    recast of the region's output array, the argument untouched by them. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3) = Cert.Swt.G (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run defs _ _).mono (fun _ h c =>
      ⟨((h c).2 main_v3 (Pipeline.mem_restRefs_of main_v3 (by decide) (by decide))).trans (value m c),
        ((h c).2 main_arg0 (Pipeline.mem_restRefs_of main_arg0 (by decide) (by decide))).trans (W_main_arg0 m (dats m) c)⟩)
    (run_main m ρ)

end Cert.KernelIdeal.SwtValue

end
-- ==== Proof.RefOps.lean ====
/- The reference's 331 host operations in program order, each call of a roll helper written out as its two
   slices and their concatenation over that call's buffers, cut into nine consecutive pieces so that both the
   program's five statement windows and the three filtering levels are unions of whole pieces:
   pieces 0|1 2|3 4 5|6 7|8 by level (the two weight tables; level 1; level 2; level 3; the four results
   stacked), and 0 1|2 3|4|5 6|7 8 by window. -/
import proofs.«128658_j3599182594827_2_alg».proof.Proof.Gen.ReferenceIdeal
import Idealize.ShloMosaic.Lib.StableHlo.Run

noncomputable section

namespace Cert.ReferenceIdeal.SwtRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 2 of 331. -/
abbrev piece0 : List (HloOp τ sig (Elt F)) :=
  [ StableHlo.nullary main_cst (fun i => FloatOps.ofBits .f32 (lit0 (S8.rowMajor i))),
    StableHlo.nullary main_cst_0 (fun i => FloatOps.ofBits .f32 (lit1 (S8.rowMajor i))) ]

theorem piece0_sub : (piece0 : List (HloOp τ sig (Elt F))).Forall fun op => op.bufs ⊆ tcRefs τ sig :=
  ⟨nullary_bufs_sub .., nullary_bufs_sub ..⟩

/-- The buffers these operations write. -/
abbrev piece0_W : List (Ref sig .tc) := [main_cst, main_cst_0]

set_option maxRecDepth 8192 in
theorem piece0_writes : (piece0 : List (HloOp τ sig (Elt F))).Forall fun op => op.writes ⊆ (piece0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 3 … 70 of 331. -/
abbrev piece1 : List (HloOp τ sig (Elt F)) :=
  [ StableHlo.nullary main_cst_1 (constant S_ .f32 0x00000000#32),
    StableHlo.unary main_cst_1 main_v0 (broadcastInDim S64x64x4096 ![] bcast_S_S64x64x4096 : (⟨S_, .f32⟩ : BufTy).Contents (Elt F) → (⟨S64x64x4096, .f32⟩ : BufTy).Contents (Elt F)),
    StableHlo.nullary main_cst_2 (constant S_ .f32 0x00000000#32),
    StableHlo.unary main_cst_2 main_v1 (broadcastInDim S64x64x4096 ![] bcast_S_S64x64x4096 : (⟨S_, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call0.v0 (extractStridedSlice S64x64x4092 ![0, 0, 4] · slices_S64x64x4096_S64x64x4092_0_0_4),
    StableHlo.TRef.unary (StableHlo.TRef.of main_arg0 : StableHlo.TRef sig ⟨S64x64x4096, .f32⟩) main_call0.v1 (extractStridedSlice S64x64x4 ![0, 0, 0] · slices_S64x64x4096_S64x64x4_0_0_0),
    StableHlo.TRef.binary main_call0.v0 main_call0.v1 main_call0.v2 (fun a b => concatenate S64x64x4096 2 [⟨S64x64x4092, a⟩, ⟨S64x64x4, b⟩] concatenates_S64x64x4092_S64x64x4_S64x64x4096_d2),
    StableHlo.unary main_cst main_v3 ((extractStridedSlice S1 ![0] · slices_S8_S1_0) : (⟨S8, .f32⟩ : BufTy).Contents (Elt F) → (⟨S1, .f32⟩ : BufTy).Contents (Elt F)),
    StableHlo.reshape main_v3 main_v4 rfl shapeCasts_S1_S_,
    StableHlo.unary main_v4 main_v5 (broadcastInDim S64x64x4096 ![] bcast_S_S64x64x4096 : (⟨S_, .f32⟩ : BufTy).Contents (Elt F) → (⟨S64x64x4096, .f32⟩ : BufTy).Contents (Elt F)),
    StableHlo.binary main_v5 main_v2 main_v6 (mulf : (⟨S64x64x4096, .f32⟩ : BufTy).Contents (Elt F) → (⟨S64x64x4096, .f32⟩ : BufTy).Contents (Elt F) → (⟨S64x64x4096, .f32⟩ : BufTy).Contents (Elt F)),
    StableHlo.binary main_v0 main_v6 main_v7 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v8 ((extractStridedSlice S1 ![0] · slices_S8_S1_0) : (⟨S8, .f32⟩ : BufTy).Contents (Elt F) → (⟨S1, .f32⟩ : BufTy).Contents (Elt F)),
    StableHlo.reshape main_v8 main_v9 rfl shapeCasts_S1_S_,
    StableHlo.unary main_v9 main_v10 (broadcastInDim S64x64x4096 ![] bcast_S_S64x64x4096 : (⟨S_, .f32⟩ : BufTy).Contents (Elt F) → (⟨S64x64x4096, .f32⟩ : BufTy).Contents (Elt F)),
    StableHlo.binary main_v10 main_v2 main_v11 (mulf : (⟨S64x64x4096, .f32⟩ : BufTy).Contents (Elt F) → (⟨S64x64x4096, .f32⟩ : BufTy).Contents (Elt F) → (⟨S64x64x4096, .f32⟩ : BufTy).Contents (Elt F)),
    StableHlo.binary main_v1 main_v11 main_v12 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call1.v0 (extractStridedSlice S64x64x4093 ![0, 0, 3] · slices_S64x64x4096_S64x64x4093_0_0_3),
    StableHlo.TRef.unary (StableHlo.TRef.of main_arg0 : StableHlo.TRef sig ⟨S64x64x4096, .f32⟩) main_call1.v1 (extractStridedSlice S64x64x3 ![0, 0, 0] · slices_S64x64x4096_S64x64x3_0_0_0),
    StableHlo.TRef.binary main_call1.v0 main_call1.v1 main_call1.v2 (fun a b => concatenate S64x64x4096 2 [⟨S64x64x4093, a⟩, ⟨S64x64x3, b⟩] concatenates_S64x64x4093_S64x64x3_S64x64x4096_d2),
    StableHlo.unary main_cst main_v14 ((extractStridedSlice S1 ![1] · slices_S8_S1_1) : (⟨S8, .f32⟩ : BufTy).Contents (Elt F) → (⟨S1, .f32⟩ : BufTy).Contents (Elt F)),
    StableHlo.reshape main_v14 main_v15 rfl shapeCasts_S1_S_,
    StableHlo.unary main_v15 main_v16 (broadcastInDim S64x64x4096 ![] bcast_S_S64x64x4096 : (⟨S_, .f32⟩ : BufTy).Contents (Elt F) → (⟨S64x64x4096, .f32⟩ : BufTy).Contents (Elt F)),
    StableHlo.binary main_v16 main_v13 main_v17 (mulf : (⟨S64x64x4096, .f32⟩ : BufTy).Contents (Elt F) → (⟨S64x64x4096, .f32⟩ : BufTy).Contents (Elt F) → (⟨S64x64x4096, .f32⟩ : BufTy).Contents (Elt F)),
    StableHlo.binary main_v7 main_v17 main_v18 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v19 ((extractStridedSlice S1 ![1] · slices_S8_S1_1) : (⟨S8, .f32⟩ : BufTy).Contents (Elt F) → (⟨S1, .f32⟩ : BufTy).Contents (Elt F)),
    StableHlo.reshape main_v19 main_v20 rfl shapeCasts_S1_S_,
    StableHlo.unary main_v20 main_v21 (broadcastInDim S64x64x4096 ![] bcast_S_S64x64x4096 : (⟨S_, .f32⟩ : BufTy).Contents (Elt F) → (⟨S64x64x4096, .f32⟩ : BufTy).Contents (Elt F)),
    StableHlo.binary main_v21 main_v13 main_v22 (mulf : (⟨S64x64x4096, .f32⟩ : BufTy).Contents (Elt F) → (⟨S64x64x4096, .f32⟩ : BufTy).Contents (Elt F) → (⟨S64x64x4096, .f32⟩ : BufTy).Contents (Elt F)),
    StableHlo.binary main_v12 main_v22 main_v23 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call2.v0 (extractStridedSlice S64x64x4094 ![0, 0, 2] · slices_S64x64x4096_S64x64x4094_0_0_2),
    StableHlo.TRef.unary (StableHlo.TRef.of main_arg0 : StableHlo.TRef sig ⟨S64x64x4096, .f32⟩) main_call2.v1 (extractStridedSlice S64x64x2 ![0, 0, 0] · slices_S64x64x4096_S64x64x2_0_0_0),
    StableHlo.TRef.binary main_call2.v0 main_call2.v1 main_call2.v2 (fun a b => concatenate S64x64x4096 2 [⟨S64x64x4094, a⟩, ⟨S64x64x2, b⟩] concatenates_S64x64x4094_S64x64x2_S64x64x4096_d2),
    StableHlo.unary main_cst main_v25 ((extractStridedSlice S1 ![2] · slices_S8_S1_2) : (⟨S8, .f32⟩ : BufTy).Contents (Elt F) → (⟨S1, .f32⟩ : BufTy).Contents (Elt F)),
    StableHlo.reshape main_v25 main_v26 rfl shapeCasts_S1_S_,
    StableHlo.unary main_v26 main_v27 (broadcastInDim S64x64x4096 ![] bcast_S_S64x64x4096 : (⟨S_, .f32⟩ : BufTy).Contents (Elt F) → (⟨S64x64x4096, .f32⟩ : BufTy).Contents (Elt F)),
    StableHlo.binary main_v27 main_v24 main_v28 (mulf : (⟨S64x64x4096, .f32⟩ : BufTy).Contents (Elt F) → (⟨S64x64x4096, .f32⟩ : BufTy).Contents (Elt F) → (⟨S64x64x4096, .f32⟩ : BufTy).Contents (Elt F)),
    StableHlo.binary main_v18 main_v28 main_v29 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v30 ((extractStridedSlice S1 ![2] · slices_S8_S1_2) : (⟨S8, .f32⟩ : BufTy).Contents (Elt F) → (⟨S1, .f32⟩ : BufTy).Contents (Elt F)),
    StableHlo.reshape main_v30 main_v31 rfl shapeCasts_S1_S_,
    StableHlo.unary main_v31 main_v32 (broadcastInDim S64x64x4096 ![] bcast_S_S64x64x4096 : (⟨S_, .f32⟩ : BufTy).Contents (Elt F) → (⟨S64x64x4096, .f32⟩ : BufTy).Contents (Elt F)),
    StableHlo.binary main_v32 main_v24 main_v33 (mulf : (⟨S64x64x4096, .f32⟩ : BufTy).Contents (Elt F) → (⟨S64x64x4096, .f32⟩ : BufTy).Contents (Elt F) → (⟨S64x64x4096, .f32⟩ : BufTy).Contents (Elt F)),
    StableHlo.binary main_v23 main_v33 main_v34 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call3.v0 (extractStridedSlice S64x64x4095 ![0, 0, 1] · slices_S64x64x4096_S64x64x4095_0_0_1),
    StableHlo.TRef.unary (StableHlo.TRef.of main_arg0 : StableHlo.TRef sig ⟨S64x64x4096, .f32⟩) main_call3.v1 (extractStridedSlice S64x64x1 ![0, 0, 0] · slices_S64x64x4096_S64x64x1_0_0_0),
    StableHlo.TRef.binary main_call3.v0 main_call3.v1 main_call3.v2 (fun a b => concatenate S64x64x4096 2 [⟨S64x64x4095, a⟩, ⟨S64x64x1, b⟩] concatenates_S64x64x4095_S64x64x1_S64x64x4096_d2),
    StableHlo.unary main_cst main_v36 ((extractStridedSlice S1 ![3] · slices_S8_S1_3) : (⟨S8, .f32⟩ : BufTy).Contents (Elt F) → (⟨S1, .f32⟩ : BufTy).Contents (Elt F)),
    StableHlo.reshape main_v36 main_v37 rfl shapeCasts_S1_S_,
    StableHlo.unary main_v37 main_v38 (broadcastInDim S64x64x4096 ![] bcast_S_S64x64x4096 : (⟨S_, .f32⟩ : BufTy).Contents (Elt F) → (⟨S64x64x4096, .f32⟩ : BufTy).Contents (Elt F)),
    StableHlo.binary main_v38 main_v35 main_v39 (mulf : (⟨S64x64x4096, .f32⟩ : BufTy).Contents (Elt F) → (⟨S64x64x4096, .f32⟩ : BufTy).Contents (Elt F) → (⟨S64x64x4096, .f32⟩ : BufTy).Contents (Elt F)),
    StableHlo.binary main_v29 main_v39 main_v40 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v41 ((extractStridedSlice S1 ![3] · slices_S8_S1_3) : (⟨S8, .f32⟩ : BufTy).Contents (Elt F) → (⟨S1, .f32⟩ : BufTy).Contents (Elt F)),
    StableHlo.reshape main_v41 main_v42 rfl shapeCasts_S1_S_,
    StableHlo.unary main_v42 main_v43 (broadcastInDim S64x64x4096 ![] bcast_S_S64x64x4096 : (⟨S_, .f32⟩ : BufTy).Contents (Elt F) → (⟨S64x64x4096, .f32⟩ : BufTy).Contents (Elt F)),
    StableHlo.binary main_v43 main_v35 main_v44 (mulf : (⟨S64x64x4096, .f32⟩ : BufTy).Contents (Elt F) → (⟨S64x64x4096, .f32⟩ : BufTy).Contents (Elt F) → (⟨S64x64x4096, .f32⟩ : BufTy).Contents (Elt F)),
    StableHlo.binary main_v34 main_v44 main_v45 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call4.v0 (extractStridedSlice S64x64x4096 ![0, 0, 0] · slices_S64x64x4096_S64x64x4096_0_0_0),
    StableHlo.TRef.unary (StableHlo.TRef.of main_arg0 : StableHlo.TRef sig ⟨S64x64x4096, .f32⟩) main_call4.v1 (extractStridedSlice S64x64x0 ![0, 0, 0] · slices_S64x64x4096_S64x64x0_0_0_0),
    StableHlo.TRef.binary main_call4.v0 main_call4.v1 main_call4.v2 (fun a b => concatenate S64x64x4096 2 [⟨S64x64x4096, a⟩, ⟨S64x64x0, b⟩] concatenates_S64x64x4096_S64x64x0_S64x64x4096_d2),
    StableHlo.unary main_cst main_v47 ((extractStridedSlice S1 ![4] · slices_S8_S1_4) : (⟨S8, .f32⟩ : BufTy).Contents (Elt F) → (⟨S1, .f32⟩ : BufTy).Contents (Elt F)),
    StableHlo.reshape main_v47 main_v48 rfl shapeCasts_S1_S_,
    StableHlo.unary main_v48 main_v49 (broadcastInDim S64x64x4096 ![] bcast_S_S64x64x4096 : (⟨S_, .f32⟩ : BufTy).Contents (Elt F) → (⟨S64x64x4096, .f32⟩ : BufTy).Contents (Elt F)),
    StableHlo.binary main_v49 main_v46 main_v50 (mulf : (⟨S64x64x4096, .f32⟩ : BufTy).Contents (Elt F) → (⟨S64x64x4096, .f32⟩ : BufTy).Contents (Elt F) → (⟨S64x64x4096, .f32⟩ : BufTy).Contents (Elt F)),
    StableHlo.binary main_v40 main_v50 main_v51 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v52 ((extractStridedSlice S1 ![4] · slices_S8_S1_4) : (⟨S8, .f32⟩ : BufTy).Contents (Elt F) → (⟨S1, .f32⟩ : BufTy).Contents (Elt F)),
    StableHlo.reshape main_v52 main_v53 rfl shapeCasts_S1_S_,
    StableHlo.unary main_v53 main_v54 (broadcastInDim S64x64x4096 ![] bcast_S_S64x64x4096 : (⟨S_, .f32⟩ : BufTy).Contents (Elt F) → (⟨S64x64x4096, .f32⟩ : BufTy).Contents (Elt F)),
    StableHlo.binary main_v54 main_v46 main_v55 (mulf : (⟨S64x64x4096, .f32⟩ : BufTy).Contents (Elt F) → (⟨S64x64x4096, .f32⟩ : BufTy).Contents (Elt F) → (⟨S64x64x4096, .f32⟩ : BufTy).Contents (Elt F)) ]

theorem piece1_sub : (piece1 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub ..⟩

/-- The buffers these operations write. -/
abbrev piece1_W : List (Ref sig .tc) := [main_cst_1, main_v0, main_cst_2, main_v1, main_call0.v0.ref, main_call0.v1.ref, main_call0.v2.ref, main_v3, main_v4, main_v5, main_v6, main_v7, main_v8, main_v9, main_v10, main_v11, main_v12, main_call1.v0.ref, main_call1.v1.ref, main_call1.v2.ref, main_v14, main_v15, main_v16, main_v17, main_v18, main_v19, main_v20, main_v21, main_v22, main_v23, main_call2.v0.ref, main_call2.v1.ref, main_call2.v2.ref, main_v25, main_v26, main_v27, main_v28, main_v29, main_v30, main_v31, main_v32, main_v33, main_v34, main_call3.v0.ref, main_call3.v1.ref, main_call3.v2.ref, main_v36, main_v37, main_v38, main_v39, main_v40, main_v41, main_v42, main_v43, main_v44, main_v45, main_call4.v0.ref, main_call4.v1.ref, main_call4.v2.ref, main_v47, main_v48, main_v49, main_v50, main_v51, main_v52, main_v53, main_v54, main_v55]

set_option maxRecDepth 8192 in
theorem piece1_writes : (piece1 : List (HloOp τ sig (Elt F))).Forall fun op => op.writes ⊆ (piece1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 71 … 110 of 331. -/
abbrev piece2 : List (HloOp τ sig (Elt F)) :=
  [ StableHlo.binary main_v45 main_v55 main_v56 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call5.v0 (extractStridedSlice S64x64x1 ![0, 0, 4095] · slices_S64x64x4096_S64x64x1_0_0_4095),
    StableHlo.TRef.unary (StableHlo.TRef.of main_arg0 : StableHlo.TRef sig ⟨S64x64x4096, .f32⟩) main_call5.v1 (extractStridedSlice S64x64x4095 ![0, 0, 0] · slices_S64x64x4096_S64x64x4095_0_0_0),
    StableHlo.TRef.binary main_call5.v0 main_call5.v1 main_call5.v2 (fun a b => concatenate S64x64x4096 2 [⟨S64x64x1, a⟩, ⟨S64x64x4095, b⟩] concatenates_S64x64x1_S64x64x4095_S64x64x4096_d2),
    StableHlo.unary main_cst main_v58 ((extractStridedSlice S1 ![5] · slices_S8_S1_5) : (⟨S8, .f32⟩ : BufTy).Contents (Elt F) → (⟨S1, .f32⟩ : BufTy).Contents (Elt F)),
    StableHlo.reshape main_v58 main_v59 rfl shapeCasts_S1_S_,
    StableHlo.unary main_v59 main_v60 (broadcastInDim S64x64x4096 ![] bcast_S_S64x64x4096 : (⟨S_, .f32⟩ : BufTy).Contents (Elt F) → (⟨S64x64x4096, .f32⟩ : BufTy).Contents (Elt F)),
    StableHlo.binary main_v60 main_v57 main_v61 (mulf : (⟨S64x64x4096, .f32⟩ : BufTy).Contents (Elt F) → (⟨S64x64x4096, .f32⟩ : BufTy).Contents (Elt F) → (⟨S64x64x4096, .f32⟩ : BufTy).Contents (Elt F)),
    StableHlo.binary main_v51 main_v61 main_v62 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v63 ((extractStridedSlice S1 ![5] · slices_S8_S1_5) : (⟨S8, .f32⟩ : BufTy).Contents (Elt F) → (⟨S1, .f32⟩ : BufTy).Contents (Elt F)),
    StableHlo.reshape main_v63 main_v64 rfl shapeCasts_S1_S_,
    StableHlo.unary main_v64 main_v65 (broadcastInDim S64x64x4096 ![] bcast_S_S64x64x4096 : (⟨S_, .f32⟩ : BufTy).Contents (Elt F) → (⟨S64x64x4096, .f32⟩ : BufTy).Contents (Elt F)),
    StableHlo.binary main_v65 main_v57 main_v66 (mulf : (⟨S64x64x4096, .f32⟩ : BufTy).Contents (Elt F) → (⟨S64x64x4096, .f32⟩ : BufTy).Contents (Elt F) → (⟨S64x64x4096, .f32⟩ : BufTy).Contents (Elt F)),
    StableHlo.binary main_v56 main_v66 main_v67 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call6.v0 (extractStridedSlice S64x64x2 ![0, 0, 4094] · slices_S64x64x4096_S64x64x2_0_0_4094),
    StableHlo.TRef.unary (StableHlo.TRef.of main_arg0 : StableHlo.TRef sig ⟨S64x64x4096, .f32⟩) main_call6.v1 (extractStridedSlice S64x64x4094 ![0, 0, 0] · slices_S64x64x4096_S64x64x4094_0_0_0),
    StableHlo.TRef.binary main_call6.v0 main_call6.v1 main_call6.v2 (fun a b => concatenate S64x64x4096 2 [⟨S64x64x2, a⟩, ⟨S64x64x4094, b⟩] concatenates_S64x64x2_S64x64x4094_S64x64x4096_d2),
    StableHlo.unary main_cst main_v69 ((extractStridedSlice S1 ![6] · slices_S8_S1_6) : (⟨S8, .f32⟩ : BufTy).Contents (Elt F) → (⟨S1, .f32⟩ : BufTy).Contents (Elt F)),
    StableHlo.reshape main_v69 main_v70 rfl shapeCasts_S1_S_,
    StableHlo.unary main_v70 main_v71 (broadcastInDim S64x64x4096 ![] bcast_S_S64x64x4096 : (⟨S_, .f32⟩ : BufTy).Contents (Elt F) → (⟨S64x64x4096, .f32⟩ : BufTy).Contents (Elt F)),
    StableHlo.binary main_v71 main_v68 main_v72 (mulf : (⟨S64x64x4096, .f32⟩ : BufTy).Contents (Elt F) → (⟨S64x64x4096, .f32⟩ : BufTy).Contents (Elt F) → (⟨S64x64x4096, .f32⟩ : BufTy).Contents (Elt F)),
    StableHlo.binary main_v62 main_v72 main_v73 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v74 ((extractStridedSlice S1 ![6] · slices_S8_S1_6) : (⟨S8, .f32⟩ : BufTy).Contents (Elt F) → (⟨S1, .f32⟩ : BufTy).Contents (Elt F)),
    StableHlo.reshape main_v74 main_v75 rfl shapeCasts_S1_S_,
    StableHlo.unary main_v75 main_v76 (broadcastInDim S64x64x4096 ![] bcast_S_S64x64x4096 : (⟨S_, .f32⟩ : BufTy).Contents (Elt F) → (⟨S64x64x4096, .f32⟩ : BufTy).Contents (Elt F)),
    StableHlo.binary main_v76 main_v68 main_v77 (mulf : (⟨S64x64x4096, .f32⟩ : BufTy).Contents (Elt F) → (⟨S64x64x4096, .f32⟩ : BufTy).Contents (Elt F) → (⟨S64x64x4096, .f32⟩ : BufTy).Contents (Elt F)),
    StableHlo.binary main_v67 main_v77 main_v78 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_arg0 : StableHlo.TRef sig ⟨S64x64x4096, .f32⟩) main_call7.v0 (extractStridedSlice S64x64x3 ![0, 0, 4093] · slices_S64x64x4096_S64x64x3_0_0_4093),
    StableHlo.TRef.unary (StableHlo.TRef.of main_arg0 : StableHlo.TRef sig ⟨S64x64x4096, .f32⟩) main_call7.v1 (extractStridedSlice S64x64x4093 ![0, 0, 0] · slices_S64x64x4096_S64x64x4093_0_0_0),
    StableHlo.TRef.binary main_call7.v0 main_call7.v1 main_call7.v2 (fun a b => concatenate S64x64x4096 2 [⟨S64x64x3, a⟩, ⟨S64x64x4093, b⟩] concatenates_S64x64x3_S64x64x4093_S64x64x4096_d2),
    StableHlo.unary main_cst main_v80 ((extractStridedSlice S1 ![7] · slices_S8_S1_7) : (⟨S8, .f32⟩ : BufTy).Contents (Elt F) → (⟨S1, .f32⟩ : BufTy).Contents (Elt F)),
    StableHlo.reshape main_v80 main_v81 rfl shapeCasts_S1_S_,
    StableHlo.unary main_v81 main_v82 (broadcastInDim S64x64x4096 ![] bcast_S_S64x64x4096 : (⟨S_, .f32⟩ : BufTy).Contents (Elt F) → (⟨S64x64x4096, .f32⟩ : BufTy).Contents (Elt F)),
    StableHlo.binary main_v82 main_v79 main_v83 (mulf : (⟨S64x64x4096, .f32⟩ : BufTy).Contents (Elt F) → (⟨S64x64x4096, .f32⟩ : BufTy).Contents (Elt F) → (⟨S64x64x4096, .f32⟩ : BufTy).Contents (Elt F)),
    StableHlo.binary main_v73 main_v83 main_v84 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v85 ((extractStridedSlice S1 ![7] · slices_S8_S1_7) : (⟨S8, .f32⟩ : BufTy).Contents (Elt F) → (⟨S1, .f32⟩ : BufTy).Contents (Elt F)),
    StableHlo.reshape main_v85 main_v86 rfl shapeCasts_S1_S_,
    StableHlo.unary main_v86 main_v87 (broadcastInDim S64x64x4096 ![] bcast_S_S64x64x4096 : (⟨S_, .f32⟩ : BufTy).Contents (Elt F) → (⟨S64x64x4096, .f32⟩ : BufTy).Contents (Elt F)),
    StableHlo.binary main_v87 main_v79 main_v88 (mulf : (⟨S64x64x4096, .f32⟩ : BufTy).Contents (Elt F) → (⟨S64x64x4096, .f32⟩ : BufTy).Contents (Elt F) → (⟨S64x64x4096, .f32⟩ : BufTy).Contents (Elt F)),
    StableHlo.binary main_v78 main_v88 main_v89 (addf : (⟨S64x64x4096, .f32⟩ : BufTy).Contents (Elt F) → (⟨S64x64x4096, .f32⟩ : BufTy).Contents (Elt F) → (⟨S64x64x4096, .f32⟩ : BufTy).Contents (Elt F)) ]

theorem piece2_sub : (piece2 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub ..⟩

/-- The buffers these operations write. -/
abbrev piece2_W : List (Ref sig .tc) := [main_v56, main_call5.v0.ref, main_call5.v1.ref, main_call5.v2.ref, main_v58, main_v59, main_v60, main_v61, main_v62, main_v63, main_v64, main_v65, main_v66, main_v67, main_call6.v0.ref, main_call6.v1.ref, main_call6.v2.ref, main_v69, main_v70, main_v71, main_v72, main_v73, main_v74, main_v75, main_v76, main_v77, main_v78, main_call7.v0.ref, main_call7.v1.ref, main_call7.v2.ref, main_v80, main_v81, main_v82, main_v83, main_v84, main_v85, main_v86, main_v87, main_v88, main_v89]

set_option maxRecDepth 8192 in
theorem piece2_writes : (piece2 : List (HloOp τ sig (Elt F))).Forall fun op => op.writes ⊆ (piece2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 111 … 140 of 331. -/
abbrev piece3 : List (HloOp τ sig (Elt F)) :=
  [ StableHlo.nullary main_cst_3 (constant S_ .f32 0x00000000#32),
    StableHlo.unary main_cst_3 main_v90 (broadcastInDim S64x64x4096 ![] bcast_S_S64x64x4096 : (⟨S_, .f32⟩ : BufTy).Contents (Elt F) → (⟨S64x64x4096, .f32⟩ : BufTy).Contents (Elt F)),
    StableHlo.nullary main_cst_4 (constant S_ .f32 0x00000000#32),
    StableHlo.unary main_cst_4 main_v91 (broadcastInDim S64x64x4096 ![] bcast_S_S64x64x4096 : (⟨S_, .f32⟩ : BufTy).Contents (Elt F) → (⟨S64x64x4096, .f32⟩ : BufTy).Contents (Elt F)),
    StableHlo.TRef.unary (StableHlo.TRef.of main_v84 : StableHlo.TRef sig ⟨S64x64x4096, .f32⟩) main_call8.v0 (extractStridedSlice S64x64x4088 ![0, 0, 8] · slices_S64x64x4096_S64x64x4088_0_0_8),
    StableHlo.TRef.unary (StableHlo.TRef.of main_v84 : StableHlo.TRef sig ⟨S64x64x4096, .f32⟩) main_call8.v1 (extractStridedSlice S64x64x8 ![0, 0, 0] · slices_S64x64x4096_S64x64x8_0_0_0),
    StableHlo.TRef.binary main_call8.v0 main_call8.v1 main_call8.v2 (fun a b => concatenate S64x64x4096 2 [⟨S64x64x4088, a⟩, ⟨S64x64x8, b⟩] concatenates_S64x64x4088_S64x64x8_S64x64x4096_d2),
    StableHlo.unary main_cst main_v93 ((extractStridedSlice S1 ![0] · slices_S8_S1_0) : (⟨S8, .f32⟩ : BufTy).Contents (Elt F) → (⟨S1, .f32⟩ : BufTy).Contents (Elt F)),
    StableHlo.reshape main_v93 main_v94 rfl shapeCasts_S1_S_,
    StableHlo.unary main_v94 main_v95 (broadcastInDim S64x64x4096 ![] bcast_S_S64x64x4096 : (⟨S_, .f32⟩ : BufTy).Contents (Elt F) → (⟨S64x64x4096, .f32⟩ : BufTy).Contents (Elt F)),
    StableHlo.binary main_v95 main_v92 main_v96 (mulf : (⟨S64x64x4096, .f32⟩ : BufTy).Contents (Elt F) → (⟨S64x64x4096, .f32⟩ : BufTy).Contents (Elt F) → (⟨S64x64x4096, .f32⟩ : BufTy).Contents (Elt F)),
    StableHlo.binary main_v90 main_v96 main_v97 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v98 ((extractStridedSlice S1 ![0] · slices_S8_S1_0) : (⟨S8, .f32⟩ : BufTy).Contents (Elt F) → (⟨S1, .f32⟩ : BufTy).Contents (Elt F)),
    StableHlo.reshape main_v98 main_v99 rfl shapeCasts_S1_S_,
    StableHlo.unary main_v99 main_v100 (broadcastInDim S64x64x4096 ![] bcast_S_S64x64x4096 : (⟨S_, .f32⟩ : BufTy).Contents (Elt F) → (⟨S64x64x4096, .f32⟩ : BufTy).Contents (Elt F)),
    StableHlo.binary main_v100 main_v92 main_v101 (mulf : (⟨S64x64x4096, .f32⟩ : BufTy).Contents (Elt F) → (⟨S64x64x4096, .f32⟩ : BufTy).Contents (Elt F) → (⟨S64x64x4096, .f32⟩ : BufTy).Contents (Elt F)),
    StableHlo.binary main_v91 main_v101 main_v102 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v84 : StableHlo.TRef sig ⟨S64x64x4096, .f32⟩) main_call9.v0 (extractStridedSlice S64x64x4090 ![0, 0, 6] · slices_S64x64x4096_S64x64x4090_0_0_6),
    StableHlo.TRef.unary (StableHlo.TRef.of main_v84 : StableHlo.TRef sig ⟨S64x64x4096, .f32⟩) main_call9.v1 (extractStridedSlice S64x64x6 ![0, 0, 0] · slices_S64x64x4096_S64x64x6_0_0_0),
    StableHlo.TRef.binary main_call9.v0 main_call9.v1 main_call9.v2 (fun a b => concatenate S64x64x4096 2 [⟨S64x64x4090, a⟩, ⟨S64x64x6, b⟩] concatenates_S64x64x4090_S64x64x6_S64x64x4096_d2),
    StableHlo.unary main_cst main_v104 ((extractStridedSlice S1 ![1] · slices_S8_S1_1) : (⟨S8, .f32⟩ : BufTy).Contents (Elt F) → (⟨S1, .f32⟩ : BufTy).Contents (Elt F)),
    StableHlo.reshape main_v104 main_v105 rfl shapeCasts_S1_S_,
    StableHlo.unary main_v105 main_v106 (broadcastInDim S64x64x4096 ![] bcast_S_S64x64x4096 : (⟨S_, .f32⟩ : BufTy).Contents (Elt F) → (⟨S64x64x4096, .f32⟩ : BufTy).Contents (Elt F)),
    StableHlo.binary main_v106 main_v103 main_v107 (mulf : (⟨S64x64x4096, .f32⟩ : BufTy).Contents (Elt F) → (⟨S64x64x4096, .f32⟩ : BufTy).Contents (Elt F) → (⟨S64x64x4096, .f32⟩ : BufTy).Contents (Elt F)),
    StableHlo.binary main_v97 main_v107 main_v108 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v109 ((extractStridedSlice S1 ![1] · slices_S8_S1_1) : (⟨S8, .f32⟩ : BufTy).Contents (Elt F) → (⟨S1, .f32⟩ : BufTy).Contents (Elt F)),
    StableHlo.reshape main_v109 main_v110 rfl shapeCasts_S1_S_,
    StableHlo.unary main_v110 main_v111 (broadcastInDim S64x64x4096 ![] bcast_S_S64x64x4096 : (⟨S_, .f32⟩ : BufTy).Contents (Elt F) → (⟨S64x64x4096, .f32⟩ : BufTy).Contents (Elt F)),
    StableHlo.binary main_v111 main_v103 main_v112 (mulf : (⟨S64x64x4096, .f32⟩ : BufTy).Contents (Elt F) → (⟨S64x64x4096, .f32⟩ : BufTy).Contents (Elt F) → (⟨S64x64x4096, .f32⟩ : BufTy).Contents (Elt F)),
    StableHlo.binary main_v102 main_v112 main_v113 (addf : (⟨S64x64x4096, .f32⟩ : BufTy).Contents (Elt F) → (⟨S64x64x4096, .f32⟩ : BufTy).Contents (Elt F) → (⟨S64x64x4096, .f32⟩ : BufTy).Contents (Elt F)) ]

theorem piece3_sub : (piece3 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub ..⟩

/-- The buffers these operations write. -/
abbrev piece3_W : List (Ref sig .tc) := [main_cst_3, main_v90, main_cst_4, main_v91, main_call8.v0.ref, main_call8.v1.ref, main_call8.v2.ref, main_v93, main_v94, main_v95, main_v96, main_v97, main_v98, main_v99, main_v100, main_v101, main_v102, main_call9.v0.ref, main_call9.v1.ref, main_call9.v2.ref, main_v104, main_v105, main_v106, main_v107, main_v108, main_v109, main_v110, main_v111, main_v112, main_v113]

set_option maxRecDepth 8192 in
theorem piece3_writes : (piece3 : List (HloOp τ sig (Elt F))).Forall fun op => op.writes ⊆ (piece3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 141 … 212 of 331. -/
abbrev piece4 : List (HloOp τ sig (Elt F)) :=
  [ StableHlo.TRef.unary (StableHlo.TRef.of main_v84 : StableHlo.TRef sig ⟨S64x64x4096, .f32⟩) main_call10.v0 (extractStridedSlice S64x64x4092 ![0, 0, 4] · slices_S64x64x4096_S64x64x4092_0_0_4),
    StableHlo.TRef.unary (StableHlo.TRef.of main_v84 : StableHlo.TRef sig ⟨S64x64x4096, .f32⟩) main_call10.v1 (extractStridedSlice S64x64x4 ![0, 0, 0] · slices_S64x64x4096_S64x64x4_0_0_0),
    StableHlo.TRef.binary main_call10.v0 main_call10.v1 main_call10.v2 (fun a b => concatenate S64x64x4096 2 [⟨S64x64x4092, a⟩, ⟨S64x64x4, b⟩] concatenates_S64x64x4092_S64x64x4_S64x64x4096_d2),
    StableHlo.unary main_cst main_v115 ((extractStridedSlice S1 ![2] · slices_S8_S1_2) : (⟨S8, .f32⟩ : BufTy).Contents (Elt F) → (⟨S1, .f32⟩ : BufTy).Contents (Elt F)),
    StableHlo.reshape main_v115 main_v116 rfl shapeCasts_S1_S_,
    StableHlo.unary main_v116 main_v117 (broadcastInDim S64x64x4096 ![] bcast_S_S64x64x4096 : (⟨S_, .f32⟩ : BufTy).Contents (Elt F) → (⟨S64x64x4096, .f32⟩ : BufTy).Contents (Elt F)),
    StableHlo.binary main_v117 main_v114 main_v118 (mulf : (⟨S64x64x4096, .f32⟩ : BufTy).Contents (Elt F) → (⟨S64x64x4096, .f32⟩ : BufTy).Contents (Elt F) → (⟨S64x64x4096, .f32⟩ : BufTy).Contents (Elt F)),
    StableHlo.binary main_v108 main_v118 main_v119 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v120 ((extractStridedSlice S1 ![2] · slices_S8_S1_2) : (⟨S8, .f32⟩ : BufTy).Contents (Elt F) → (⟨S1, .f32⟩ : BufTy).Contents (Elt F)),
    StableHlo.reshape main_v120 main_v121 rfl shapeCasts_S1_S_,
    StableHlo.unary main_v121 main_v122 (broadcastInDim S64x64x4096 ![] bcast_S_S64x64x4096 : (⟨S_, .f32⟩ : BufTy).Contents (Elt F) → (⟨S64x64x4096, .f32⟩ : BufTy).Contents (Elt F)),
    StableHlo.binary main_v122 main_v114 main_v123 (mulf : (⟨S64x64x4096, .f32⟩ : BufTy).Contents (Elt F) → (⟨S64x64x4096, .f32⟩ : BufTy).Contents (Elt F) → (⟨S64x64x4096, .f32⟩ : BufTy).Contents (Elt F)),
    StableHlo.binary main_v113 main_v123 main_v124 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v84 : StableHlo.TRef sig ⟨S64x64x4096, .f32⟩) main_call11.v0 (extractStridedSlice S64x64x4094 ![0, 0, 2] · slices_S64x64x4096_S64x64x4094_0_0_2),
    StableHlo.TRef.unary (StableHlo.TRef.of main_v84 : StableHlo.TRef sig ⟨S64x64x4096, .f32⟩) main_call11.v1 (extractStridedSlice S64x64x2 ![0, 0, 0] · slices_S64x64x4096_S64x64x2_0_0_0),
    StableHlo.TRef.binary main_call11.v0 main_call11.v1 main_call11.v2 (fun a b => concatenate S64x64x4096 2 [⟨S64x64x4094, a⟩, ⟨S64x64x2, b⟩] concatenates_S64x64x4094_S64x64x2_S64x64x4096_d2),
    StableHlo.unary main_cst main_v126 ((extractStridedSlice S1 ![3] · slices_S8_S1_3) : (⟨S8, .f32⟩ : BufTy).Contents (Elt F) → (⟨S1, .f32⟩ : BufTy).Contents (Elt F)),
    StableHlo.reshape main_v126 main_v127 rfl shapeCasts_S1_S_,
    StableHlo.unary main_v127 main_v128 (broadcastInDim S64x64x4096 ![] bcast_S_S64x64x4096 : (⟨S_, .f32⟩ : BufTy).Contents (Elt F) → (⟨S64x64x4096, .f32⟩ : BufTy).Contents (Elt F)),
    StableHlo.binary main_v128 main_v125 main_v129 (mulf : (⟨S64x64x4096, .f32⟩ : BufTy).Contents (Elt F) → (⟨S64x64x4096, .f32⟩ : BufTy).Contents (Elt F) → (⟨S64x64x4096, .f32⟩ : BufTy).Contents (Elt F)),
    StableHlo.binary main_v119 main_v129 main_v130 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v131 ((extractStridedSlice S1 ![3] · slices_S8_S1_3) : (⟨S8, .f32⟩ : BufTy).Contents (Elt F) → (⟨S1, .f32⟩ : BufTy).Contents (Elt F)),
    StableHlo.reshape main_v131 main_v132 rfl shapeCasts_S1_S_,
    StableHlo.unary main_v132 main_v133 (broadcastInDim S64x64x4096 ![] bcast_S_S64x64x4096 : (⟨S_, .f32⟩ : BufTy).Contents (Elt F) → (⟨S64x64x4096, .f32⟩ : BufTy).Contents (Elt F)),
    StableHlo.binary main_v133 main_v125 main_v134 (mulf : (⟨S64x64x4096, .f32⟩ : BufTy).Contents (Elt F) → (⟨S64x64x4096, .f32⟩ : BufTy).Contents (Elt F) → (⟨S64x64x4096, .f32⟩ : BufTy).Contents (Elt F)),
    StableHlo.binary main_v124 main_v134 main_v135 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v84 : StableHlo.TRef sig ⟨S64x64x4096, .f32⟩) main_call12.v0 (extractStridedSlice S64x64x4096 ![0, 0, 0] · slices_S64x64x4096_S64x64x4096_0_0_0),
    StableHlo.TRef.unary (StableHlo.TRef.of main_v84 : StableHlo.TRef sig ⟨S64x64x4096, .f32⟩) main_call12.v1 (extractStridedSlice S64x64x0 ![0, 0, 0] · slices_S64x64x4096_S64x64x0_0_0_0),
    StableHlo.TRef.binary main_call12.v0 main_call12.v1 main_call12.v2 (fun a b => concatenate S64x64x4096 2 [⟨S64x64x4096, a⟩, ⟨S64x64x0, b⟩] concatenates_S64x64x4096_S64x64x0_S64x64x4096_d2),
    StableHlo.unary main_cst main_v137 ((extractStridedSlice S1 ![4] · slices_S8_S1_4) : (⟨S8, .f32⟩ : BufTy).Contents (Elt F) → (⟨S1, .f32⟩ : BufTy).Contents (Elt F)),
    StableHlo.reshape main_v137 main_v138 rfl shapeCasts_S1_S_,
    StableHlo.unary main_v138 main_v139 (broadcastInDim S64x64x4096 ![] bcast_S_S64x64x4096 : (⟨S_, .f32⟩ : BufTy).Contents (Elt F) → (⟨S64x64x4096, .f32⟩ : BufTy).Contents (Elt F)),
    StableHlo.binary main_v139 main_v136 main_v140 (mulf : (⟨S64x64x4096, .f32⟩ : BufTy).Contents (Elt F) → (⟨S64x64x4096, .f32⟩ : BufTy).Contents (Elt F) → (⟨S64x64x4096, .f32⟩ : BufTy).Contents (Elt F)),
    StableHlo.binary main_v130 main_v140 main_v141 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v142 ((extractStridedSlice S1 ![4] · slices_S8_S1_4) : (⟨S8, .f32⟩ : BufTy).Contents (Elt F) → (⟨S1, .f32⟩ : BufTy).Contents (Elt F)),
    StableHlo.reshape main_v142 main_v143 rfl shapeCasts_S1_S_,
    StableHlo.unary main_v143 main_v144 (broadcastInDim S64x64x4096 ![] bcast_S_S64x64x4096 : (⟨S_, .f32⟩ : BufTy).Contents (Elt F) → (⟨S64x64x4096, .f32⟩ : BufTy).Contents (Elt F)),
    StableHlo.binary main_v144 main_v136 main_v145 (mulf : (⟨S64x64x4096, .f32⟩ : BufTy).Contents (Elt F) → (⟨S64x64x4096, .f32⟩ : BufTy).Contents (Elt F) → (⟨S64x64x4096, .f32⟩ : BufTy).Contents (Elt F)),
    StableHlo.binary main_v135 main_v145 main_v146 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v84 : StableHlo.TRef sig ⟨S64x64x4096, .f32⟩) main_call13.v0 (extractStridedSlice S64x64x2 ![0, 0, 4094] · slices_S64x64x4096_S64x64x2_0_0_4094),
    StableHlo.TRef.unary (StableHlo.TRef.of main_v84 : StableHlo.TRef sig ⟨S64x64x4096, .f32⟩) main_call13.v1 (extractStridedSlice S64x64x4094 ![0, 0, 0] · slices_S64x64x4096_S64x64x4094_0_0_0),
    StableHlo.TRef.binary main_call13.v0 main_call13.v1 main_call13.v2 (fun a b => concatenate S64x64x4096 2 [⟨S64x64x2, a⟩, ⟨S64x64x4094, b⟩] concatenates_S64x64x2_S64x64x4094_S64x64x4096_d2),
    StableHlo.unary main_cst main_v148 ((extractStridedSlice S1 ![5] · slices_S8_S1_5) : (⟨S8, .f32⟩ : BufTy).Contents (Elt F) → (⟨S1, .f32⟩ : BufTy).Contents (Elt F)),
    StableHlo.reshape main_v148 main_v149 rfl shapeCasts_S1_S_,
    StableHlo.unary main_v149 main_v150 (broadcastInDim S64x64x4096 ![] bcast_S_S64x64x4096 : (⟨S_, .f32⟩ : BufTy).Contents (Elt F) → (⟨S64x64x4096, .f32⟩ : BufTy).Contents (Elt F)),
    StableHlo.binary main_v150 main_v147 main_v151 (mulf : (⟨S64x64x4096, .f32⟩ : BufTy).Contents (Elt F) → (⟨S64x64x4096, .f32⟩ : BufTy).Contents (Elt F) → (⟨S64x64x4096, .f32⟩ : BufTy).Contents (Elt F)),
    StableHlo.binary main_v141 main_v151 main_v152 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v153 ((extractStridedSlice S1 ![5] · slices_S8_S1_5) : (⟨S8, .f32⟩ : BufTy).Contents (Elt F) → (⟨S1, .f32⟩ : BufTy).Contents (Elt F)),
    StableHlo.reshape main_v153 main_v154 rfl shapeCasts_S1_S_,
    StableHlo.unary main_v154 main_v155 (broadcastInDim S64x64x4096 ![] bcast_S_S64x64x4096 : (⟨S_, .f32⟩ : BufTy).Contents (Elt F) → (⟨S64x64x4096, .f32⟩ : BufTy).Contents (Elt F)),
    StableHlo.binary main_v155 main_v147 main_v156 (mulf : (⟨S64x64x4096, .f32⟩ : BufTy).Contents (Elt F) → (⟨S64x64x4096, .f32⟩ : BufTy).Contents (Elt F) → (⟨S64x64x4096, .f32⟩ : BufTy).Contents (Elt F)),
    StableHlo.binary main_v146 main_v156 main_v157 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v84 : StableHlo.TRef sig ⟨S64x64x4096, .f32⟩) main_call14.v0 (extractStridedSlice S64x64x4 ![0, 0, 4092] · slices_S64x64x4096_S64x64x4_0_0_4092),
    StableHlo.TRef.unary (StableHlo.TRef.of main_v84 : StableHlo.TRef sig ⟨S64x64x4096, .f32⟩) main_call14.v1 (extractStridedSlice S64x64x4092 ![0, 0, 0] · slices_S64x64x4096_S64x64x4092_0_0_0),
    StableHlo.TRef.binary main_call14.v0 main_call14.v1 main_call14.v2 (fun a b => concatenate S64x64x4096 2 [⟨S64x64x4, a⟩, ⟨S64x64x4092, b⟩] concatenates_S64x64x4_S64x64x4092_S64x64x4096_d2),
    StableHlo.unary main_cst main_v159 ((extractStridedSlice S1 ![6] · slices_S8_S1_6) : (⟨S8, .f32⟩ : BufTy).Contents (Elt F) → (⟨S1, .f32⟩ : BufTy).Contents (Elt F)),
    StableHlo.reshape main_v159 main_v160 rfl shapeCasts_S1_S_,
    StableHlo.unary main_v160 main_v161 (broadcastInDim S64x64x4096 ![] bcast_S_S64x64x4096 : (⟨S_, .f32⟩ : BufTy).Contents (Elt F) → (⟨S64x64x4096, .f32⟩ : BufTy).Contents (Elt F)),
    StableHlo.binary main_v161 main_v158 main_v162 (mulf : (⟨S64x64x4096, .f32⟩ : BufTy).Contents (Elt F) → (⟨S64x64x4096, .f32⟩ : BufTy).Contents (Elt F) → (⟨S64x64x4096, .f32⟩ : BufTy).Contents (Elt F)),
    StableHlo.binary main_v152 main_v162 main_v163 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v164 ((extractStridedSlice S1 ![6] · slices_S8_S1_6) : (⟨S8, .f32⟩ : BufTy).Contents (Elt F) → (⟨S1, .f32⟩ : BufTy).Contents (Elt F)),
    StableHlo.reshape main_v164 main_v165 rfl shapeCasts_S1_S_,
    StableHlo.unary main_v165 main_v166 (broadcastInDim S64x64x4096 ![] bcast_S_S64x64x4096 : (⟨S_, .f32⟩ : BufTy).Contents (Elt F) → (⟨S64x64x4096, .f32⟩ : BufTy).Contents (Elt F)),
    StableHlo.binary main_v166 main_v158 main_v167 (mulf : (⟨S64x64x4096, .f32⟩ : BufTy).Contents (Elt F) → (⟨S64x64x4096, .f32⟩ : BufTy).Contents (Elt F) → (⟨S64x64x4096, .f32⟩ : BufTy).Contents (Elt F)),
    StableHlo.binary main_v157 main_v167 main_v168 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v84 : StableHlo.TRef sig ⟨S64x64x4096, .f32⟩) main_call15.v0 (extractStridedSlice S64x64x6 ![0, 0, 4090] · slices_S64x64x4096_S64x64x6_0_0_4090),
    StableHlo.TRef.unary (StableHlo.TRef.of main_v84 : StableHlo.TRef sig ⟨S64x64x4096, .f32⟩) main_call15.v1 (extractStridedSlice S64x64x4090 ![0, 0, 0] · slices_S64x64x4096_S64x64x4090_0_0_0),
    StableHlo.TRef.binary main_call15.v0 main_call15.v1 main_call15.v2 (fun a b => concatenate S64x64x4096 2 [⟨S64x64x6, a⟩, ⟨S64x64x4090, b⟩] concatenates_S64x64x6_S64x64x4090_S64x64x4096_d2),
    StableHlo.unary main_cst main_v170 ((extractStridedSlice S1 ![7] · slices_S8_S1_7) : (⟨S8, .f32⟩ : BufTy).Contents (Elt F) → (⟨S1, .f32⟩ : BufTy).Contents (Elt F)),
    StableHlo.reshape main_v170 main_v171 rfl shapeCasts_S1_S_,
    StableHlo.unary main_v171 main_v172 (broadcastInDim S64x64x4096 ![] bcast_S_S64x64x4096 : (⟨S_, .f32⟩ : BufTy).Contents (Elt F) → (⟨S64x64x4096, .f32⟩ : BufTy).Contents (Elt F)),
    StableHlo.binary main_v172 main_v169 main_v173 (mulf : (⟨S64x64x4096, .f32⟩ : BufTy).Contents (Elt F) → (⟨S64x64x4096, .f32⟩ : BufTy).Contents (Elt F) → (⟨S64x64x4096, .f32⟩ : BufTy).Contents (Elt F)) ]

theorem piece4_sub : (piece4 : List (HloOp τ sig (Elt F))).Forall fun op => op.bufs ⊆ tcRefs τ sig :=
  ⟨unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub ..⟩

/-- The buffers these operations write. -/
abbrev piece4_W : List (Ref sig .tc) := [main_call10.v0.ref, main_call10.v1.ref, main_call10.v2.ref, main_v115, main_v116, main_v117, main_v118, main_v119, main_v120, main_v121, main_v122, main_v123, main_v124, main_call11.v0.ref, main_call11.v1.ref, main_call11.v2.ref, main_v126, main_v127, main_v128, main_v129, main_v130, main_v131, main_v132, main_v133, main_v134, main_v135, main_call12.v0.ref, main_call12.v1.ref, main_call12.v2.ref, main_v137, main_v138, main_v139, main_v140, main_v141, main_v142, main_v143, main_v144, main_v145, main_v146, main_call13.v0.ref, main_call13.v1.ref, main_call13.v2.ref, main_v148, main_v149, main_v150, main_v151, main_v152, main_v153, main_v154, main_v155, main_v156, main_v157, main_call14.v0.ref, main_call14.v1.ref, main_call14.v2.ref, main_v159, main_v160, main_v161, main_v162, main_v163, main_v164, main_v165, main_v166, main_v167, main_v168, main_call15.v0.ref, main_call15.v1.ref, main_call15.v2.ref, main_v170, main_v171, main_v172, main_v173]

set_option maxRecDepth 8192 in
theorem piece4_writes : (piece4 : List (HloOp τ sig (Elt F))).Forall fun op => op.writes ⊆ (piece4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 213 … 218 of 331. -/
abbrev piece5 : List (HloOp τ sig (Elt F)) :=
  [ StableHlo.binary main_v163 main_v173 main_v174 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v175 ((extractStridedSlice S1 ![7] · slices_S8_S1_7) : (⟨S8, .f32⟩ : BufTy).Contents (Elt F) → (⟨S1, .f32⟩ : BufTy).Contents (Elt F)),
    StableHlo.reshape main_v175 main_v176 rfl shapeCasts_S1_S_,
    StableHlo.unary main_v176 main_v177 (broadcastInDim S64x64x4096 ![] bcast_S_S64x64x4096 : (⟨S_, .f32⟩ : BufTy).Contents (Elt F) → (⟨S64x64x4096, .f32⟩ : BufTy).Contents (Elt F)),
    StableHlo.binary main_v177 main_v169 main_v178 (mulf : (⟨S64x64x4096, .f32⟩ : BufTy).Contents (Elt F) → (⟨S64x64x4096, .f32⟩ : BufTy).Contents (Elt F) → (⟨S64x64x4096, .f32⟩ : BufTy).Contents (Elt F)),
    StableHlo.binary main_v168 main_v178 main_v179 (addf : (⟨S64x64x4096, .f32⟩ : BufTy).Contents (Elt F) → (⟨S64x64x4096, .f32⟩ : BufTy).Contents (Elt F) → (⟨S64x64x4096, .f32⟩ : BufTy).Contents (Elt F)) ]

theorem piece5_sub : (piece5 : List (HloOp τ sig (Elt F))).Forall fun op => op.bufs ⊆ tcRefs τ sig :=
  ⟨binary_bufs_sub .., unary_bufs_sub .., reshape_bufs_sub .., unary_bufs_sub .., binary_bufs_sub .., binary_bufs_sub ..⟩

/-- The buffers these operations write. -/
abbrev piece5_W : List (Ref sig .tc) := [main_v174, main_v175, main_v176, main_v177, main_v178, main_v179]

set_option maxRecDepth 8192 in
theorem piece5_writes : (piece5 : List (HloOp τ sig (Elt F))).Forall fun op => op.writes ⊆ (piece5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 219 … 282 of 331. -/
abbrev piece6 : List (HloOp τ sig (Elt F)) :=
  [ StableHlo.nullary main_cst_5 (constant S_ .f32 0x00000000#32),
    StableHlo.unary main_cst_5 main_v180 (broadcastInDim S64x64x4096 ![] bcast_S_S64x64x4096 : (⟨S_, .f32⟩ : BufTy).Contents (Elt F) → (⟨S64x64x4096, .f32⟩ : BufTy).Contents (Elt F)),
    StableHlo.nullary main_cst_6 (constant S_ .f32 0x00000000#32),
    StableHlo.unary main_cst_6 main_v181 (broadcastInDim S64x64x4096 ![] bcast_S_S64x64x4096 : (⟨S_, .f32⟩ : BufTy).Contents (Elt F) → (⟨S64x64x4096, .f32⟩ : BufTy).Contents (Elt F)),
    StableHlo.TRef.unary (StableHlo.TRef.of main_v174 : StableHlo.TRef sig ⟨S64x64x4096, .f32⟩) main_call16.v0 (extractStridedSlice S64x64x4080 ![0, 0, 16] · slices_S64x64x4096_S64x64x4080_0_0_16),
    StableHlo.TRef.unary (StableHlo.TRef.of main_v174 : StableHlo.TRef sig ⟨S64x64x4096, .f32⟩) main_call16.v1 (extractStridedSlice S64x64x16 ![0, 0, 0] · slices_S64x64x4096_S64x64x16_0_0_0),
    StableHlo.TRef.binary main_call16.v0 main_call16.v1 main_call16.v2 (fun a b => concatenate S64x64x4096 2 [⟨S64x64x4080, a⟩, ⟨S64x64x16, b⟩] concatenates_S64x64x4080_S64x64x16_S64x64x4096_d2),
    StableHlo.unary main_cst main_v183 ((extractStridedSlice S1 ![0] · slices_S8_S1_0) : (⟨S8, .f32⟩ : BufTy).Contents (Elt F) → (⟨S1, .f32⟩ : BufTy).Contents (Elt F)),
    StableHlo.reshape main_v183 main_v184 rfl shapeCasts_S1_S_,
    StableHlo.unary main_v184 main_v185 (broadcastInDim S64x64x4096 ![] bcast_S_S64x64x4096 : (⟨S_, .f32⟩ : BufTy).Contents (Elt F) → (⟨S64x64x4096, .f32⟩ : BufTy).Contents (Elt F)),
    StableHlo.binary main_v185 main_v182 main_v186 (mulf : (⟨S64x64x4096, .f32⟩ : BufTy).Contents (Elt F) → (⟨S64x64x4096, .f32⟩ : BufTy).Contents (Elt F) → (⟨S64x64x4096, .f32⟩ : BufTy).Contents (Elt F)),
    StableHlo.binary main_v180 main_v186 main_v187 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v188 ((extractStridedSlice S1 ![0] · slices_S8_S1_0) : (⟨S8, .f32⟩ : BufTy).Contents (Elt F) → (⟨S1, .f32⟩ : BufTy).Contents (Elt F)),
    StableHlo.reshape main_v188 main_v189 rfl shapeCasts_S1_S_,
    StableHlo.unary main_v189 main_v190 (broadcastInDim S64x64x4096 ![] bcast_S_S64x64x4096 : (⟨S_, .f32⟩ : BufTy).Contents (Elt F) → (⟨S64x64x4096, .f32⟩ : BufTy).Contents (Elt F)),
    StableHlo.binary main_v190 main_v182 main_v191 (mulf : (⟨S64x64x4096, .f32⟩ : BufTy).Contents (Elt F) → (⟨S64x64x4096, .f32⟩ : BufTy).Contents (Elt F) → (⟨S64x64x4096, .f32⟩ : BufTy).Contents (Elt F)),
    StableHlo.binary main_v181 main_v191 main_v192 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v174 : StableHlo.TRef sig ⟨S64x64x4096, .f32⟩) main_call17.v0 (extractStridedSlice S64x64x4084 ![0, 0, 12] · slices_S64x64x4096_S64x64x4084_0_0_12),
    StableHlo.TRef.unary (StableHlo.TRef.of main_v174 : StableHlo.TRef sig ⟨S64x64x4096, .f32⟩) main_call17.v1 (extractStridedSlice S64x64x12 ![0, 0, 0] · slices_S64x64x4096_S64x64x12_0_0_0),
    StableHlo.TRef.binary main_call17.v0 main_call17.v1 main_call17.v2 (fun a b => concatenate S64x64x4096 2 [⟨S64x64x4084, a⟩, ⟨S64x64x12, b⟩] concatenates_S64x64x4084_S64x64x12_S64x64x4096_d2),
    StableHlo.unary main_cst main_v194 ((extractStridedSlice S1 ![1] · slices_S8_S1_1) : (⟨S8, .f32⟩ : BufTy).Contents (Elt F) → (⟨S1, .f32⟩ : BufTy).Contents (Elt F)),
    StableHlo.reshape main_v194 main_v195 rfl shapeCasts_S1_S_,
    StableHlo.unary main_v195 main_v196 (broadcastInDim S64x64x4096 ![] bcast_S_S64x64x4096 : (⟨S_, .f32⟩ : BufTy).Contents (Elt F) → (⟨S64x64x4096, .f32⟩ : BufTy).Contents (Elt F)),
    StableHlo.binary main_v196 main_v193 main_v197 (mulf : (⟨S64x64x4096, .f32⟩ : BufTy).Contents (Elt F) → (⟨S64x64x4096, .f32⟩ : BufTy).Contents (Elt F) → (⟨S64x64x4096, .f32⟩ : BufTy).Contents (Elt F)),
    StableHlo.binary main_v187 main_v197 main_v198 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v199 ((extractStridedSlice S1 ![1] · slices_S8_S1_1) : (⟨S8, .f32⟩ : BufTy).Contents (Elt F) → (⟨S1, .f32⟩ : BufTy).Contents (Elt F)),
    StableHlo.reshape main_v199 main_v200 rfl shapeCasts_S1_S_,
    StableHlo.unary main_v200 main_v201 (broadcastInDim S64x64x4096 ![] bcast_S_S64x64x4096 : (⟨S_, .f32⟩ : BufTy).Contents (Elt F) → (⟨S64x64x4096, .f32⟩ : BufTy).Contents (Elt F)),
    StableHlo.binary main_v201 main_v193 main_v202 (mulf : (⟨S64x64x4096, .f32⟩ : BufTy).Contents (Elt F) → (⟨S64x64x4096, .f32⟩ : BufTy).Contents (Elt F) → (⟨S64x64x4096, .f32⟩ : BufTy).Contents (Elt F)),
    StableHlo.binary main_v192 main_v202 main_v203 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v174 : StableHlo.TRef sig ⟨S64x64x4096, .f32⟩) main_call18.v0 (extractStridedSlice S64x64x4088 ![0, 0, 8] · slices_S64x64x4096_S64x64x4088_0_0_8),
    StableHlo.TRef.unary (StableHlo.TRef.of main_v174 : StableHlo.TRef sig ⟨S64x64x4096, .f32⟩) main_call18.v1 (extractStridedSlice S64x64x8 ![0, 0, 0] · slices_S64x64x4096_S64x64x8_0_0_0),
    StableHlo.TRef.binary main_call18.v0 main_call18.v1 main_call18.v2 (fun a b => concatenate S64x64x4096 2 [⟨S64x64x4088, a⟩, ⟨S64x64x8, b⟩] concatenates_S64x64x4088_S64x64x8_S64x64x4096_d2),
    StableHlo.unary main_cst main_v205 ((extractStridedSlice S1 ![2] · slices_S8_S1_2) : (⟨S8, .f32⟩ : BufTy).Contents (Elt F) → (⟨S1, .f32⟩ : BufTy).Contents (Elt F)),
    StableHlo.reshape main_v205 main_v206 rfl shapeCasts_S1_S_,
    StableHlo.unary main_v206 main_v207 (broadcastInDim S64x64x4096 ![] bcast_S_S64x64x4096 : (⟨S_, .f32⟩ : BufTy).Contents (Elt F) → (⟨S64x64x4096, .f32⟩ : BufTy).Contents (Elt F)),
    StableHlo.binary main_v207 main_v204 main_v208 (mulf : (⟨S64x64x4096, .f32⟩ : BufTy).Contents (Elt F) → (⟨S64x64x4096, .f32⟩ : BufTy).Contents (Elt F) → (⟨S64x64x4096, .f32⟩ : BufTy).Contents (Elt F)),
    StableHlo.binary main_v198 main_v208 main_v209 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v210 ((extractStridedSlice S1 ![2] · slices_S8_S1_2) : (⟨S8, .f32⟩ : BufTy).Contents (Elt F) → (⟨S1, .f32⟩ : BufTy).Contents (Elt F)),
    StableHlo.reshape main_v210 main_v211 rfl shapeCasts_S1_S_,
    StableHlo.unary main_v211 main_v212 (broadcastInDim S64x64x4096 ![] bcast_S_S64x64x4096 : (⟨S_, .f32⟩ : BufTy).Contents (Elt F) → (⟨S64x64x4096, .f32⟩ : BufTy).Contents (Elt F)),
    StableHlo.binary main_v212 main_v204 main_v213 (mulf : (⟨S64x64x4096, .f32⟩ : BufTy).Contents (Elt F) → (⟨S64x64x4096, .f32⟩ : BufTy).Contents (Elt F) → (⟨S64x64x4096, .f32⟩ : BufTy).Contents (Elt F)),
    StableHlo.binary main_v203 main_v213 main_v214 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v174 : StableHlo.TRef sig ⟨S64x64x4096, .f32⟩) main_call19.v0 (extractStridedSlice S64x64x4092 ![0, 0, 4] · slices_S64x64x4096_S64x64x4092_0_0_4),
    StableHlo.TRef.unary (StableHlo.TRef.of main_v174 : StableHlo.TRef sig ⟨S64x64x4096, .f32⟩) main_call19.v1 (extractStridedSlice S64x64x4 ![0, 0, 0] · slices_S64x64x4096_S64x64x4_0_0_0),
    StableHlo.TRef.binary main_call19.v0 main_call19.v1 main_call19.v2 (fun a b => concatenate S64x64x4096 2 [⟨S64x64x4092, a⟩, ⟨S64x64x4, b⟩] concatenates_S64x64x4092_S64x64x4_S64x64x4096_d2),
    StableHlo.unary main_cst main_v216 ((extractStridedSlice S1 ![3] · slices_S8_S1_3) : (⟨S8, .f32⟩ : BufTy).Contents (Elt F) → (⟨S1, .f32⟩ : BufTy).Contents (Elt F)),
    StableHlo.reshape main_v216 main_v217 rfl shapeCasts_S1_S_,
    StableHlo.unary main_v217 main_v218 (broadcastInDim S64x64x4096 ![] bcast_S_S64x64x4096 : (⟨S_, .f32⟩ : BufTy).Contents (Elt F) → (⟨S64x64x4096, .f32⟩ : BufTy).Contents (Elt F)),
    StableHlo.binary main_v218 main_v215 main_v219 (mulf : (⟨S64x64x4096, .f32⟩ : BufTy).Contents (Elt F) → (⟨S64x64x4096, .f32⟩ : BufTy).Contents (Elt F) → (⟨S64x64x4096, .f32⟩ : BufTy).Contents (Elt F)),
    StableHlo.binary main_v209 main_v219 main_v220 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v221 ((extractStridedSlice S1 ![3] · slices_S8_S1_3) : (⟨S8, .f32⟩ : BufTy).Contents (Elt F) → (⟨S1, .f32⟩ : BufTy).Contents (Elt F)),
    StableHlo.reshape main_v221 main_v222 rfl shapeCasts_S1_S_,
    StableHlo.unary main_v222 main_v223 (broadcastInDim S64x64x4096 ![] bcast_S_S64x64x4096 : (⟨S_, .f32⟩ : BufTy).Contents (Elt F) → (⟨S64x64x4096, .f32⟩ : BufTy).Contents (Elt F)),
    StableHlo.binary main_v223 main_v215 main_v224 (mulf : (⟨S64x64x4096, .f32⟩ : BufTy).Contents (Elt F) → (⟨S64x64x4096, .f32⟩ : BufTy).Contents (Elt F) → (⟨S64x64x4096, .f32⟩ : BufTy).Contents (Elt F)),
    StableHlo.binary main_v214 main_v224 main_v225 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v174 : StableHlo.TRef sig ⟨S64x64x4096, .f32⟩) main_call20.v0 (extractStridedSlice S64x64x4096 ![0, 0, 0] · slices_S64x64x4096_S64x64x4096_0_0_0),
    StableHlo.TRef.unary (StableHlo.TRef.of main_v174 : StableHlo.TRef sig ⟨S64x64x4096, .f32⟩) main_call20.v1 (extractStridedSlice S64x64x0 ![0, 0, 0] · slices_S64x64x4096_S64x64x0_0_0_0),
    StableHlo.TRef.binary main_call20.v0 main_call20.v1 main_call20.v2 (fun a b => concatenate S64x64x4096 2 [⟨S64x64x4096, a⟩, ⟨S64x64x0, b⟩] concatenates_S64x64x4096_S64x64x0_S64x64x4096_d2),
    StableHlo.unary main_cst main_v227 ((extractStridedSlice S1 ![4] · slices_S8_S1_4) : (⟨S8, .f32⟩ : BufTy).Contents (Elt F) → (⟨S1, .f32⟩ : BufTy).Contents (Elt F)),
    StableHlo.reshape main_v227 main_v228 rfl shapeCasts_S1_S_,
    StableHlo.unary main_v228 main_v229 (broadcastInDim S64x64x4096 ![] bcast_S_S64x64x4096 : (⟨S_, .f32⟩ : BufTy).Contents (Elt F) → (⟨S64x64x4096, .f32⟩ : BufTy).Contents (Elt F)),
    StableHlo.binary main_v229 main_v226 main_v230 (mulf : (⟨S64x64x4096, .f32⟩ : BufTy).Contents (Elt F) → (⟨S64x64x4096, .f32⟩ : BufTy).Contents (Elt F) → (⟨S64x64x4096, .f32⟩ : BufTy).Contents (Elt F)),
    StableHlo.binary main_v220 main_v230 main_v231 (addf : (⟨S64x64x4096, .f32⟩ : BufTy).Contents (Elt F) → (⟨S64x64x4096, .f32⟩ : BufTy).Contents (Elt F) → (⟨S64x64x4096, .f32⟩ : BufTy).Contents (Elt F)) ]

theorem piece6_sub : (piece6 : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub ..⟩

/-- The buffers these operations write. -/
abbrev piece6_W : List (Ref sig .tc) := [main_cst_5, main_v180, main_cst_6, main_v181, main_call16.v0.ref, main_call16.v1.ref, main_call16.v2.ref, main_v183, main_v184, main_v185, main_v186, main_v187, main_v188, main_v189, main_v190, main_v191, main_v192, main_call17.v0.ref, main_call17.v1.ref, main_call17.v2.ref, main_v194, main_v195, main_v196, main_v197, main_v198, main_v199, main_v200, main_v201, main_v202, main_v203, main_call18.v0.ref, main_call18.v1.ref, main_call18.v2.ref, main_v205, main_v206, main_v207, main_v208, main_v209, main_v210, main_v211, main_v212, main_v213, main_v214, main_call19.v0.ref, main_call19.v1.ref, main_call19.v2.ref, main_v216, main_v217, main_v218, main_v219, main_v220, main_v221, main_v222, main_v223, main_v224, main_v225, main_call20.v0.ref, main_call20.v1.ref, main_call20.v2.ref, main_v227, main_v228, main_v229, main_v230, main_v231]

set_option maxRecDepth 8192 in
theorem piece6_writes : (piece6 : List (HloOp τ sig (Elt F))).Forall fun op => op.writes ⊆ (piece6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 283 … 326 of 331. -/
abbrev piece7 : List (HloOp τ sig (Elt F)) :=
  [ StableHlo.unary main_cst_0 main_v232 ((extractStridedSlice S1 ![4] · slices_S8_S1_4) : (⟨S8, .f32⟩ : BufTy).Contents (Elt F) → (⟨S1, .f32⟩ : BufTy).Contents (Elt F)),
    StableHlo.reshape main_v232 main_v233 rfl shapeCasts_S1_S_,
    StableHlo.unary main_v233 main_v234 (broadcastInDim S64x64x4096 ![] bcast_S_S64x64x4096 : (⟨S_, .f32⟩ : BufTy).Contents (Elt F) → (⟨S64x64x4096, .f32⟩ : BufTy).Contents (Elt F)),
    StableHlo.binary main_v234 main_v226 main_v235 (mulf : (⟨S64x64x4096, .f32⟩ : BufTy).Contents (Elt F) → (⟨S64x64x4096, .f32⟩ : BufTy).Contents (Elt F) → (⟨S64x64x4096, .f32⟩ : BufTy).Contents (Elt F)),
    StableHlo.binary main_v225 main_v235 main_v236 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v174 : StableHlo.TRef sig ⟨S64x64x4096, .f32⟩) main_call21.v0 (extractStridedSlice S64x64x4 ![0, 0, 4092] · slices_S64x64x4096_S64x64x4_0_0_4092),
    StableHlo.TRef.unary (StableHlo.TRef.of main_v174 : StableHlo.TRef sig ⟨S64x64x4096, .f32⟩) main_call21.v1 (extractStridedSlice S64x64x4092 ![0, 0, 0] · slices_S64x64x4096_S64x64x4092_0_0_0),
    StableHlo.TRef.binary main_call21.v0 main_call21.v1 main_call21.v2 (fun a b => concatenate S64x64x4096 2 [⟨S64x64x4, a⟩, ⟨S64x64x4092, b⟩] concatenates_S64x64x4_S64x64x4092_S64x64x4096_d2),
    StableHlo.unary main_cst main_v238 ((extractStridedSlice S1 ![5] · slices_S8_S1_5) : (⟨S8, .f32⟩ : BufTy).Contents (Elt F) → (⟨S1, .f32⟩ : BufTy).Contents (Elt F)),
    StableHlo.reshape main_v238 main_v239 rfl shapeCasts_S1_S_,
    StableHlo.unary main_v239 main_v240 (broadcastInDim S64x64x4096 ![] bcast_S_S64x64x4096 : (⟨S_, .f32⟩ : BufTy).Contents (Elt F) → (⟨S64x64x4096, .f32⟩ : BufTy).Contents (Elt F)),
    StableHlo.binary main_v240 main_v237 main_v241 (mulf : (⟨S64x64x4096, .f32⟩ : BufTy).Contents (Elt F) → (⟨S64x64x4096, .f32⟩ : BufTy).Contents (Elt F) → (⟨S64x64x4096, .f32⟩ : BufTy).Contents (Elt F)),
    StableHlo.binary main_v231 main_v241 main_v242 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v243 ((extractStridedSlice S1 ![5] · slices_S8_S1_5) : (⟨S8, .f32⟩ : BufTy).Contents (Elt F) → (⟨S1, .f32⟩ : BufTy).Contents (Elt F)),
    StableHlo.reshape main_v243 main_v244 rfl shapeCasts_S1_S_,
    StableHlo.unary main_v244 main_v245 (broadcastInDim S64x64x4096 ![] bcast_S_S64x64x4096 : (⟨S_, .f32⟩ : BufTy).Contents (Elt F) → (⟨S64x64x4096, .f32⟩ : BufTy).Contents (Elt F)),
    StableHlo.binary main_v245 main_v237 main_v246 (mulf : (⟨S64x64x4096, .f32⟩ : BufTy).Contents (Elt F) → (⟨S64x64x4096, .f32⟩ : BufTy).Contents (Elt F) → (⟨S64x64x4096, .f32⟩ : BufTy).Contents (Elt F)),
    StableHlo.binary main_v236 main_v246 main_v247 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v174 : StableHlo.TRef sig ⟨S64x64x4096, .f32⟩) main_call22.v0 (extractStridedSlice S64x64x8 ![0, 0, 4088] · slices_S64x64x4096_S64x64x8_0_0_4088),
    StableHlo.TRef.unary (StableHlo.TRef.of main_v174 : StableHlo.TRef sig ⟨S64x64x4096, .f32⟩) main_call22.v1 (extractStridedSlice S64x64x4088 ![0, 0, 0] · slices_S64x64x4096_S64x64x4088_0_0_0),
    StableHlo.TRef.binary main_call22.v0 main_call22.v1 main_call22.v2 (fun a b => concatenate S64x64x4096 2 [⟨S64x64x8, a⟩, ⟨S64x64x4088, b⟩] concatenates_S64x64x8_S64x64x4088_S64x64x4096_d2),
    StableHlo.unary main_cst main_v249 ((extractStridedSlice S1 ![6] · slices_S8_S1_6) : (⟨S8, .f32⟩ : BufTy).Contents (Elt F) → (⟨S1, .f32⟩ : BufTy).Contents (Elt F)),
    StableHlo.reshape main_v249 main_v250 rfl shapeCasts_S1_S_,
    StableHlo.unary main_v250 main_v251 (broadcastInDim S64x64x4096 ![] bcast_S_S64x64x4096 : (⟨S_, .f32⟩ : BufTy).Contents (Elt F) → (⟨S64x64x4096, .f32⟩ : BufTy).Contents (Elt F)),
    StableHlo.binary main_v251 main_v248 main_v252 (mulf : (⟨S64x64x4096, .f32⟩ : BufTy).Contents (Elt F) → (⟨S64x64x4096, .f32⟩ : BufTy).Contents (Elt F) → (⟨S64x64x4096, .f32⟩ : BufTy).Contents (Elt F)),
    StableHlo.binary main_v242 main_v252 main_v253 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v254 ((extractStridedSlice S1 ![6] · slices_S8_S1_6) : (⟨S8, .f32⟩ : BufTy).Contents (Elt F) → (⟨S1, .f32⟩ : BufTy).Contents (Elt F)),
    StableHlo.reshape main_v254 main_v255 rfl shapeCasts_S1_S_,
    StableHlo.unary main_v255 main_v256 (broadcastInDim S64x64x4096 ![] bcast_S_S64x64x4096 : (⟨S_, .f32⟩ : BufTy).Contents (Elt F) → (⟨S64x64x4096, .f32⟩ : BufTy).Contents (Elt F)),
    StableHlo.binary main_v256 main_v248 main_v257 (mulf : (⟨S64x64x4096, .f32⟩ : BufTy).Contents (Elt F) → (⟨S64x64x4096, .f32⟩ : BufTy).Contents (Elt F) → (⟨S64x64x4096, .f32⟩ : BufTy).Contents (Elt F)),
    StableHlo.binary main_v247 main_v257 main_v258 (addf : (⟨S64x64x4096, .f32⟩ : BufTy).Contents (Elt F) → (⟨S64x64x4096, .f32⟩ : BufTy).Contents (Elt F) → (⟨S64x64x4096, .f32⟩ : BufTy).Contents (Elt F)),
    StableHlo.TRef.unary (StableHlo.TRef.of main_v174 : StableHlo.TRef sig ⟨S64x64x4096, .f32⟩) main_call23.v0 (extractStridedSlice S64x64x12 ![0, 0, 4084] · slices_S64x64x4096_S64x64x12_0_0_4084),
    StableHlo.TRef.unary (StableHlo.TRef.of main_v174 : StableHlo.TRef sig ⟨S64x64x4096, .f32⟩) main_call23.v1 (extractStridedSlice S64x64x4084 ![0, 0, 0] · slices_S64x64x4096_S64x64x4084_0_0_0),
    StableHlo.TRef.binary main_call23.v0 main_call23.v1 main_call23.v2 (fun a b => concatenate S64x64x4096 2 [⟨S64x64x12, a⟩, ⟨S64x64x4084, b⟩] concatenates_S64x64x12_S64x64x4084_S64x64x4096_d2),
    StableHlo.unary main_cst main_v260 ((extractStridedSlice S1 ![7] · slices_S8_S1_7) : (⟨S8, .f32⟩ : BufTy).Contents (Elt F) → (⟨S1, .f32⟩ : BufTy).Contents (Elt F)),
    StableHlo.reshape main_v260 main_v261 rfl shapeCasts_S1_S_,
    StableHlo.unary main_v261 main_v262 (broadcastInDim S64x64x4096 ![] bcast_S_S64x64x4096 : (⟨S_, .f32⟩ : BufTy).Contents (Elt F) → (⟨S64x64x4096, .f32⟩ : BufTy).Contents (Elt F)),
    StableHlo.binary main_v262 main_v259 main_v263 (mulf : (⟨S64x64x4096, .f32⟩ : BufTy).Contents (Elt F) → (⟨S64x64x4096, .f32⟩ : BufTy).Contents (Elt F) → (⟨S64x64x4096, .f32⟩ : BufTy).Contents (Elt F)),
    StableHlo.binary main_v253 main_v263 main_v264 (addf : (⟨S64x64x4096, .f32⟩ : BufTy).Contents (Elt F) → (⟨S64x64x4096, .f32⟩ : BufTy).Contents (Elt F) → (⟨S64x64x4096, .f32⟩ : BufTy).Contents (Elt F)),
    StableHlo.unary main_cst_0 main_v265 ((extractStridedSlice S1 ![7] · slices_S8_S1_7) : (⟨S8, .f32⟩ : BufTy).Contents (Elt F) → (⟨S1, .f32⟩ : BufTy).Contents (Elt F)),
    StableHlo.reshape main_v265 main_v266 rfl shapeCasts_S1_S_,
    StableHlo.unary main_v266 main_v267 (broadcastInDim S64x64x4096 ![] bcast_S_S64x64x4096 : (⟨S_, .f32⟩ : BufTy).Contents (Elt F) → (⟨S64x64x4096, .f32⟩ : BufTy).Contents (Elt F)),
    StableHlo.binary main_v267 main_v259 main_v268 (mulf : (⟨S64x64x4096, .f32⟩ : BufTy).Contents (Elt F) → (⟨S64x64x4096, .f32⟩ : BufTy).Contents (Elt F) → (⟨S64x64x4096, .f32⟩ : BufTy).Contents (Elt F)),
    StableHlo.binary main_v258 main_v268 main_v269 (addf : (⟨S64x64x4096, .f32⟩ : BufTy).Contents (Elt F) → (⟨S64x64x4096, .f32⟩ : BufTy).Contents (Elt F) → (⟨S64x64x4096, .f32⟩ : BufTy).Contents (Elt F)) ]

theorem piece7_sub : (piece7 : List (HloOp τ sig (Elt F))).Forall fun op => op.bufs ⊆ tcRefs τ sig :=
  ⟨unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub ..⟩

/-- The buffers these operations write. -/
abbrev piece7_W : List (Ref sig .tc) := [main_v232, main_v233, main_v234, main_v235, main_v236, main_call21.v0.ref, main_call21.v1.ref, main_call21.v2.ref, main_v238, main_v239, main_v240, main_v241, main_v242, main_v243, main_v244, main_v245, main_v246, main_v247, main_call22.v0.ref, main_call22.v1.ref, main_call22.v2.ref, main_v249, main_v250, main_v251, main_v252, main_v253, main_v254, main_v255, main_v256, main_v257, main_v258, main_call23.v0.ref, main_call23.v1.ref, main_call23.v2.ref, main_v260, main_v261, main_v262, main_v263, main_v264, main_v265, main_v266, main_v267, main_v268, main_v269]

set_option maxRecDepth 8192 in
theorem piece7_writes : (piece7 : List (HloOp τ sig (Elt F))).Forall fun op => op.writes ⊆ (piece7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Operations 327 … 331 of 331. -/
abbrev piece8 : List (HloOp τ sig (Elt F)) :=
  [ StableHlo.unary main_v264 main_v270 (broadcastInDim S64x64x4096x1 ![0, 1, 2] bcast_S64x64x4096_S64x64x4096x1_0_1_2 : (⟨S64x64x4096, .f32⟩ : BufTy).Contents (Elt F) → (⟨S64x64x4096x1, .f32⟩ : BufTy).Contents (Elt F)),
    StableHlo.unary main_v269 main_v271 (broadcastInDim S64x64x4096x1 ![0, 1, 2] bcast_S64x64x4096_S64x64x4096x1_0_1_2 : (⟨S64x64x4096, .f32⟩ : BufTy).Contents (Elt F) → (⟨S64x64x4096x1, .f32⟩ : BufTy).Contents (Elt F)),
    StableHlo.unary main_v179 main_v272 (broadcastInDim S64x64x4096x1 ![0, 1, 2] bcast_S64x64x4096_S64x64x4096x1_0_1_2 : (⟨S64x64x4096, .f32⟩ : BufTy).Contents (Elt F) → (⟨S64x64x4096x1, .f32⟩ : BufTy).Contents (Elt F)),
    StableHlo.unary main_v89 main_v273 (broadcastInDim S64x64x4096x1 ![0, 1, 2] bcast_S64x64x4096_S64x64x4096x1_0_1_2 : (⟨S64x64x4096, .f32⟩ : BufTy).Contents (Elt F) → (⟨S64x64x4096x1, .f32⟩ : BufTy).Contents (Elt F)),
    StableHlo.nary ![main_v270, main_v271, main_v272, main_v273] main_v274 (fun u => concatenate S64x64x4096x4 3 [⟨S64x64x4096x1, u 0⟩, ⟨S64x64x4096x1, u 1⟩, ⟨S64x64x4096x1, u 2⟩, ⟨S64x64x4096x1, u 3⟩] concatenates_S64x64x4096x1_S64x64x4096x1_S64x64x4096x1_S64x64x4096x1_S64x64x4096x4_d3) ]

theorem piece8_sub : (piece8 : List (HloOp τ sig (Elt F))).Forall fun op => op.bufs ⊆ tcRefs τ sig :=
  ⟨unary_bufs_sub .., unary_bufs_sub .., unary_bufs_sub .., unary_bufs_sub .., nary_bufs_sub ..⟩

/-- The buffers these operations write. -/
abbrev piece8_W : List (Ref sig .tc) := [main_v270, main_v271, main_v272, main_v273, main_v274]

set_option maxRecDepth 8192 in
theorem piece8_writes : (piece8 : List (HloOp τ sig (Elt F))).Forall fun op => op.writes ⊆ (piece8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.SwtRun

end
-- ==== Proof.RefMain.lean ====
/-
  The reference's program is one straight line of 331 host operations, and its run leaves every buffer at the fold
  of those operations over the launch contents.

  The program text runs five statement windows one after the other; each window is the line of its pieces, a call
  of a roll helper being its body's three operations over the call's buffers, and lines run in a row are their
  concatenation run as one.
-/
import proofs.«128658_j3599182594827_2_alg».proof.Proof.RefOps

noncomputable section

namespace Cert.ReferenceIdeal.SwtRun

open Cert.ReferenceIdeal Cert.ReferenceIdeal.Gen Idealize.ShloMosaic Idealize.ShloMosaic.TcCoe Idealize.SL.Sem Idealize.ShloMosaic.StableHlo

variable {F : FTy → Type} [FloatOps F]

/-- The operations of each statement window. -/
abbrev win0 : List (HloOp τ sig (Elt F)) := piece0 ++ piece1
abbrev win1 : List (HloOp τ sig (Elt F)) := piece2 ++ piece3
abbrev win2 : List (HloOp τ sig (Elt F)) := piece4
abbrev win3 : List (HloOp τ sig (Elt F)) := piece5 ++ piece6
abbrev win4 : List (HloOp τ sig (Elt F)) := piece7 ++ piece8

/-- All 331 operations, window after window. -/
abbrev ops : List (HloOp τ sig (Elt F)) := win0 ++ (win1 ++ (win2 ++ (win3 ++ win4)))

set_option maxRecDepth 16384 in
theorem part0_eq (d : Dev nD) : main_part0 (F := F) d = seq win0 := rfl
set_option maxRecDepth 16384 in
theorem part1_eq (d : Dev nD) : main_part1 (F := F) d = seq win1 := rfl
set_option maxRecDepth 16384 in
theorem part2_eq (d : Dev nD) : main_part2 (F := F) d = seq win2 := rfl
set_option maxRecDepth 16384 in
theorem part3_eq (d : Dev nD) : main_part3 (F := F) d = seq win3 := rfl
set_option maxRecDepth 16384 in
theorem part4_eq (d : Dev nD) : main_part4 (F := F) d = seq win4 := rfl

/-- The program is the line of all its operations. -/
theorem main_eq (d : Dev nD) : main (F := F) d = seq ops := by
  show (main_part0 d >>= fun _ => main_part1 d >>= fun _ => main_part2 d >>= fun _ => main_part3 d >>= fun _ => main_part4 d) = _
  rw [part0_eq, part1_eq, part2_eq, part3_eq, part4_eq,
    seq_append win0, seq_append win1, seq_append win2, seq_append win3]

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of the two in a row. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem ops_sub : (ops : List (HloOp τ sig (Elt F))).Forall fun op => op.bufs ⊆ tcRefs τ sig :=
  forall_append (forall_append piece0_sub piece1_sub) (forall_append (forall_append piece2_sub piece3_sub)
    (forall_append piece4_sub (forall_append (forall_append piece5_sub piece6_sub) (forall_append piece7_sub piece8_sub))))

theorem piece0_fresh : (piece0 : List (HloOp τ sig (Elt F))).Forall fun op => op.fresh = ∅ := by
  simp only [List.Forall]; repeat' constructor
theorem piece1_fresh : (piece1 : List (HloOp τ sig (Elt F))).Forall fun op => op.fresh = ∅ := by
  simp only [List.Forall]; repeat' constructor
theorem piece2_fresh : (piece2 : List (HloOp τ sig (Elt F))).Forall fun op => op.fresh = ∅ := by
  simp only [List.Forall]; repeat' constructor
theorem piece3_fresh : (piece3 : List (HloOp τ sig (Elt F))).Forall fun op => op.fresh = ∅ := by
  simp only [List.Forall]; repeat' constructor
theorem piece4_fresh : (piece4 : List (HloOp τ sig (Elt F))).Forall fun op => op.fresh = ∅ := by
  simp only [List.Forall]; repeat' constructor
theorem piece5_fresh : (piece5 : List (HloOp τ sig (Elt F))).Forall fun op => op.fresh = ∅ := by
  simp only [List.Forall]; repeat' constructor
theorem piece6_fresh : (piece6 : List (HloOp τ sig (Elt F))).Forall fun op => op.fresh = ∅ := by
  simp only [List.Forall]; repeat' constructor
theorem piece7_fresh : (piece7 : List (HloOp τ sig (Elt F))).Forall fun op => op.fresh = ∅ := by
  simp only [List.Forall]; repeat' constructor
theorem piece8_fresh : (piece8 : List (HloOp τ sig (Elt F))).Forall fun op => op.fresh = ∅ := by
  simp only [List.Forall]; repeat' constructor

/-- No operation of the line allocates a buffer. -/
theorem ops_fresh : (ops : List (HloOp τ sig (Elt F))).Forall fun op => op.fresh = ∅ :=
  forall_append (forall_append piece0_fresh piece1_fresh) (forall_append (forall_append piece2_fresh piece3_fresh)
    (forall_append piece4_fresh (forall_append (forall_append piece5_fresh piece6_fresh) (forall_append piece7_fresh piece8_fresh))))

/-- From any memory with zero counters, every weakly fair execution of the reference terminates, and every final
    state has each buffer at the fold of the 331 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.SwtRun

end
-- ==== Proof.LibCyclicRoll.lean ====
/-
  A cyclic roll along the last axis, as a host program spells it, read at an index.

  `jnp.roll` with a static shift lowers to two slices of the last axis and their concatenation in swapped order:
  the tail `[n₂, N)` of every row followed by its head `[0, n₂)`.  Read at position `t`, the rolled row holds the
  original row at `(t + n₂) mod N`: the tail piece while `t < N − n₂`, the head piece from there on.  General in the
  three extents and in the cut; the caller names the index read, with its value.
-/
import Idealize.ShloMosaic.Lib.Pipeline.Value
import Idealize.ShloMosaic.Lib.ValueIdx

namespace Cert.LibCyclicRoll

open Idealize.ShloMosaic Idealize.ShloMosaic.ValueIdx

variable {α : Type}

/-- The tail `[n₂, N)` of every row of an `[A, B, N]` array followed by its head `[0, n₂)` (`n₁ = N − n₂` the tail's
    length), read at `(b, n, t)`: the array at `(b, n, k)` with `k = (t + n₂) mod N`. -/
theorem roll_last_apply {A B N : ℕ} (n₁ n₂ : ℕ) (hn : n₂ + n₁ = N) (src : (⟨3, ![A, B, N]⟩ : Shape).Idx → α)
    (h1 : (⟨3, ![A, B, N]⟩ : Shape).Slices ![0, 0, n₂] ⟨3, ![A, B, n₁]⟩)
    (h2 : (⟨3, ![A, B, N]⟩ : Shape).Slices ![0, 0, 0] ⟨3, ![A, B, n₂]⟩)
    (hc : Shape.Concatenates [(⟨3, ![A, B, n₁]⟩ : Shape), ⟨3, ![A, B, n₂]⟩] ⟨3, ![A, B, N]⟩ 2)
    (b : Fin A) (n : Fin B) (t k : Fin N) (hk : k.val = (t.val + n₂) % N) :
    concatenate ⟨3, ![A, B, N]⟩ 2
        [⟨⟨3, ![A, B, n₁]⟩, extractStridedSlice ⟨3, ![A, B, n₁]⟩ ![0, 0, n₂] src h1⟩,
         ⟨⟨3, ![A, B, n₂]⟩, extractStridedSlice ⟨3, ![A, B, n₂]⟩ ![0, 0, 0] src h2⟩] hc (ix3 b n t)
      = src (ix3 b n k) := by
  have htl := t.isLt
  by_cases ht : t.val < n₁
  · have hk' : k.val = n₂ + t.val := by rw [hk, Nat.mod_eq_of_lt (by omega)]; omega
    refine (concatenate_pair_apply_left (t := ⟨3, ![A, B, N]⟩) (s₁ := ⟨3, ![A, B, n₁]⟩) (s₂ := ⟨3, ![A, B, n₂]⟩) (2 : Fin 3) _ _ hc
      (ix3 b n t) rfl (ix3 b n (⟨t.val, ht⟩ : Fin n₁)) (fun a =>
        match a with | ⟨0, _⟩ => rfl | ⟨1, _⟩ => rfl | ⟨2, _⟩ => rfl)).trans ?_
    exact extractStridedSlice_apply ![0, 0, n₂] src h1 _ (ix3 b n k) (fun a =>
      match a with
      | ⟨0, _⟩ => by show b.val = 0 + b.val; omega
      | ⟨1, _⟩ => by show n.val = 0 + n.val; omega
      | ⟨2, _⟩ => by show k.val = n₂ + t.val; exact hk')
  · have ht2 : t.val - n₁ < n₂ := by omega
    have hk' : k.val = t.val - n₁ := by
      rw [hk, show t.val + n₂ = (t.val - n₁) + N by omega, Nat.add_mod_right, Nat.mod_eq_of_lt (by omega)]
    refine (concatenate_pair_apply_right (t := ⟨3, ![A, B, N]⟩) (s₁ := ⟨3, ![A, B, n₁]⟩) (s₂ := ⟨3, ![A, B, n₂]⟩) (2 : Fin 3) _ _ hc
      (ix3 b n t) rfl rfl (ix3 b n (⟨t.val - n₁, ht2⟩ : Fin n₂))
      (fun a ha => match a, ha with
        | ⟨0, _⟩, _ => rfl
        | ⟨1, _⟩, _ => rfl
        | ⟨2, _⟩, ha => absurd rfl ha)
      (by show (t.val - n₁) + n₁ = t.val; omega)).trans ?_
    exact extractStridedSlice_apply ![0, 0, 0] src h2 _ (ix3 b n k) (fun a =>
      match a with
      | ⟨0, _⟩ => by show b.val = 0 + b.val; omega
      | ⟨1, _⟩ => by show n.val = 0 + n.val; omega
      | ⟨2, _⟩ => by show k.val = 0 + (t.val - n₁); omega)

end Cert.LibCyclicRoll
-- ==== Proof.RefRead.lean ====
/-
  Three layout facts of the reference, read at an index, general in the array's contents.

  A weight: one entry of a table of eight, cut out as a slice of length one, recast as a scalar and spread over
  the whole array, is that entry everywhere.  A cyclic move: a row's tail `[n₂, 4096)` followed by its head
  `[0, n₂)` reads, at position `t`, the row at `(t + n₂) mod 4096` — the tail piece while `t < 4096 − n₂`, the head
  piece from there on.  The stack: four arrays given a last axis of length one and laid side by side along it read,
  at channel `ch`, the `ch`-th array.
-/
import proofs.«128658_j3599182594827_2_alg».proof.Proof.Swt
import proofs.«128658_j3599182594827_2_alg».proof.Proof.LibCyclicRoll
import Idealize.ShloMosaic.Lib.Pipeline.Value
import Idealize.ShloMosaic.Lib.ValueIdx
import Idealize.ShloMosaic.Lib.IdealHost

noncomputable section

namespace Cert.Swt.Read

open Idealize.ShloMosaic Idealize.ShloMosaic.ValueIdx Cert.Swt

variable {α : Type}

/-- Entry `j` of a table of eight, sliced out, recast as a scalar and broadcast: entry `j` at every index. -/
theorem weight_apply {T : Shape} (tbl : (⟨1, ![8]⟩ : Shape).Idx → α) (j : ℕ) (hj : j < 8)
    (hs : (⟨1, ![8]⟩ : Shape).Slices ![j] ⟨1, ![1]⟩) (hc : (⟨1, ![1]⟩ : Shape).ShapeCasts ⟨0, ![]⟩)
    (hb : (⟨0, ![]⟩ : Shape).BroadcastsInDim T ![]) (i : T.Idx) :
    broadcastInDim T ![] hb (shapeCast ⟨0, ![]⟩ (extractStridedSlice ⟨1, ![1]⟩ ![j] tbl hs) hc) i
      = tbl (ix1 (⟨j, hj⟩ : Fin 8)) := by
  rw [broadcastInDim_scalar_apply]
  refine (shapeCast_apply _ hc ix0 (ix1 (0 : Fin 1)) ?_).trans ?_
  · rw [Shape.rowMajor_val_one]; rfl
  · exact extractStridedSlice_apply ![j] tbl hs (ix1 (0 : Fin 1)) (ix1 (⟨j, hj⟩ : Fin 8)) (fun a =>
      match a with | ⟨0, _⟩ => by show j = j + 0; rfl)

/-- The tail `[n₂, 4096)` of every row followed by its head `[0, n₂)`, read at `(b, n, t)`: the array at
    `(b, n, (t + n₂) mod 4096)`. -/
theorem roll_apply (n₁ n₂ : ℕ) (hn : n₂ + n₁ = 4096) (src : (⟨3, ![64, 64, 4096]⟩ : Shape).Idx → α)
    (h1 : (⟨3, ![64, 64, 4096]⟩ : Shape).Slices ![0, 0, n₂] ⟨3, ![64, 64, n₁]⟩)
    (h2 : (⟨3, ![64, 64, 4096]⟩ : Shape).Slices ![0, 0, 0] ⟨3, ![64, 64, n₂]⟩)
    (hc : Shape.Concatenates [(⟨3, ![64, 64, n₁]⟩ : Shape), ⟨3, ![64, 64, n₂]⟩] ⟨3, ![64, 64, 4096]⟩ 2)
    (b n : Fin 64) (t : Fin 4096) :
    concatenate ⟨3, ![64, 64, 4096]⟩ 2
        [⟨⟨3, ![64, 64, n₁]⟩, extractStridedSlice ⟨3, ![64, 64, n₁]⟩ ![0, 0, n₂] src h1⟩,
         ⟨⟨3, ![64, 64, n₂]⟩, extractStridedSlice ⟨3, ![64, 64, n₂]⟩ ![0, 0, 0] src h2⟩] hc (ix3 b n t)
      = src (ix3 b n (turn n₂ t)) :=
  Cert.LibCyclicRoll.roll_last_apply n₁ n₂ hn src h1 h2 hc b n t (turn n₂ t) rfl

/-- An array given a last axis of length one, read at `(b, n, t, 0)`: the array at `(b, n, t)`. -/
theorem lastUnit_apply (x : (⟨3, ![64, 64, 4096]⟩ : Shape).Idx → α)
    (h : (⟨3, ![64, 64, 4096]⟩ : Shape).BroadcastsInDim ⟨4, ![64, 64, 4096, 1]⟩ ![0, 1, 2]) (b n : Fin 64) (t : Fin 4096) :
    broadcastInDim ⟨4, ![64, 64, 4096, 1]⟩ ![0, 1, 2] h x (ix4 b n t (0 : Fin 1)) = x (ix3 b n t) :=
  broadcastInDim_apply ![0, 1, 2] h x _ (ix3 b n t) (fun a =>
    match a with | ⟨0, _⟩ => rfl | ⟨1, _⟩ => rfl | ⟨2, _⟩ => rfl)

end Cert.Swt.Read

end
-- ==== Proof.RefTerms.lean ====
/-
  The reference's arithmetic as terms, and those terms read at an index.

  One level of the reference is eight taps; a tap multiplies a rolled copy of the level's input by one weight —
  an entry of a table of eight, spread over the array — and adds the product to the running sum, which starts at
  the zero array.  Read at `(b, n, t)`, the sum is the zero word plus the eight products of the table's entries with
  the rolled copies there, in tap order.  The filters `low d` and `high d` of the specification, written out for the
  three spacings, have exactly that form with each rolled copy read through a cyclic move of `t`.
-/
import proofs.«128658_j3599182594827_2_alg».proof.Proof.Gen.ReferenceIdeal
import proofs.«128658_j3599182594827_2_alg».proof.Proof.RefRead

noncomputable section

namespace Cert.Swt

open Idealize.ShloMosaic

theorem low1_apply (a : Row) (t : Fin 4096) :
    low 1 a t = Ideal.ofBits .f32 0x00000000#32 + Ideal.ofBits .f32 0xBBF58BFD#32 * a (turn 4 t)
      + Ideal.ofBits .f32 0x3CBE7A8F#32 * a (turn 3 t)
      + Ideal.ofBits .f32 0x3CB2A702#32 * a (turn 2 t)
      + Ideal.ofBits .f32 0xBE076D7C#32 * a (turn 1 t)
      + Ideal.ofBits .f32 0xBCA2196C#32 * a t
      + Ideal.ofBits .f32 0x3EE4673A#32 * a (turn 4095 t)
      + Ideal.ofBits .f32 0x3F0166AB#32 * a (turn 4094 t)
      + Ideal.ofBits .f32 0x3E26CFB5#32 * a (turn 4093 t) := rfl

theorem high1_apply (a : Row) (t : Fin 4096) :
    high 1 a t = Ideal.ofBits .f32 0x00000000#32 + Ideal.ofBits .f32 0xBE26CFB5#32 * a (turn 4 t)
      + Ideal.ofBits .f32 0x3F0166AB#32 * a (turn 3 t)
      + Ideal.ofBits .f32 0xBEE4673A#32 * a (turn 2 t)
      + Ideal.ofBits .f32 0xBCA2196C#32 * a (turn 1 t)
      + Ideal.ofBits .f32 0x3E076D7C#32 * a t
      + Ideal.ofBits .f32 0x3CB2A702#32 * a (turn 4095 t)
      + Ideal.ofBits .f32 0xBCBE7A8F#32 * a (turn 4094 t)
      + Ideal.ofBits .f32 0xBBF58BFD#32 * a (turn 4093 t) := rfl

theorem low2_apply (a : Row) (t : Fin 4096) :
    low 2 a t = Ideal.ofBits .f32 0x00000000#32 + Ideal.ofBits .f32 0xBBF58BFD#32 * a (turn 8 t)
      + Ideal.ofBits .f32 0x3CBE7A8F#32 * a (turn 6 t)
      + Ideal.ofBits .f32 0x3CB2A702#32 * a (turn 4 t)
      + Ideal.ofBits .f32 0xBE076D7C#32 * a (turn 2 t)
      + Ideal.ofBits .f32 0xBCA2196C#32 * a t
      + Ideal.ofBits .f32 0x3EE4673A#32 * a (turn 4094 t)
      + Ideal.ofBits .f32 0x3F0166AB#32 * a (turn 4092 t)
      + Ideal.ofBits .f32 0x3E26CFB5#32 * a (turn 4090 t) := rfl

theorem high2_apply (a : Row) (t : Fin 4096) :
    high 2 a t = Ideal.ofBits .f32 0x00000000#32 + Ideal.ofBits .f32 0xBE26CFB5#32 * a (turn 8 t)
      + Ideal.ofBits .f32 0x3F0166AB#32 * a (turn 6 t)
      + Ideal.ofBits .f32 0xBEE4673A#32 * a (turn 4 t)
      + Ideal.ofBits .f32 0xBCA2196C#32 * a (turn 2 t)
      + Ideal.ofBits .f32 0x3E076D7C#32 * a t
      + Ideal.ofBits .f32 0x3CB2A702#32 * a (turn 4094 t)
      + Ideal.ofBits .f32 0xBCBE7A8F#32 * a (turn 4092 t)
      + Ideal.ofBits .f32 0xBBF58BFD#32 * a (turn 4090 t) := rfl

theorem low4_apply (a : Row) (t : Fin 4096) :
    low 4 a t = Ideal.ofBits .f32 0x00000000#32 + Ideal.ofBits .f32 0xBBF58BFD#32 * a (turn 16 t)
      + Ideal.ofBits .f32 0x3CBE7A8F#32 * a (turn 12 t)
      + Ideal.ofBits .f32 0x3CB2A702#32 * a (turn 8 t)
      + Ideal.ofBits .f32 0xBE076D7C#32 * a (turn 4 t)
      + Ideal.ofBits .f32 0xBCA2196C#32 * a t
      + Ideal.ofBits .f32 0x3EE4673A#32 * a (turn 4092 t)
      + Ideal.ofBits .f32 0x3F0166AB#32 * a (turn 4088 t)
      + Ideal.ofBits .f32 0x3E26CFB5#32 * a (turn 4084 t) := rfl

theorem high4_apply (a : Row) (t : Fin 4096) :
    high 4 a t = Ideal.ofBits .f32 0x00000000#32 + Ideal.ofBits .f32 0xBE26CFB5#32 * a (turn 16 t)
      + Ideal.ofBits .f32 0x3F0166AB#32 * a (turn 12 t)
      + Ideal.ofBits .f32 0xBEE4673A#32 * a (turn 8 t)
      + Ideal.ofBits .f32 0xBCA2196C#32 * a (turn 4 t)
      + Ideal.ofBits .f32 0x3E076D7C#32 * a t
      + Ideal.ofBits .f32 0x3CB2A702#32 * a (turn 4092 t)
      + Ideal.ofBits .f32 0xBCBE7A8F#32 * a (turn 4088 t)
      + Ideal.ofBits .f32 0xBBF58BFD#32 * a (turn 4084 t) := rfl

end Cert.Swt

namespace Cert.ReferenceIdeal.SwtRun

open Cert.ReferenceIdeal Cert.ReferenceIdeal.Gen Idealize.ShloMosaic Idealize.ShloMosaic.ValueIdx Cert.Swt Cert.Swt.Read

/-- The zero array a level's sums start from. -/
abbrev zeros : FVec Ideal S64x64x4096 .f32 :=
  broadcastInDim S64x64x4096 ![] bcast_S_S64x64x4096 (constant (F := Ideal) S_ .f32 0x00000000#32)

/-- Entry `j` of a table of eight weights, spread over the array. -/
abbrev wt (j : ℕ) (hs : S8.Slices ![j] S1) (tbl : FVec Ideal S8 .f32) : FVec Ideal S64x64x4096 .f32 :=
  broadcastInDim S64x64x4096 ![] bcast_S_S64x64x4096 (shapeCast S_ (extractStridedSlice S1 ![j] tbl hs) shapeCasts_S1_S_)

/-- Every row's tail `[n₂, 4096)` followed by its head `[0, n₂)`. -/
abbrev roll (n₁ n₂ : ℕ) (h1 : S64x64x4096.Slices ![0, 0, n₂] ⟨3, ![64, 64, n₁]⟩)
    (h2 : S64x64x4096.Slices ![0, 0, 0] ⟨3, ![64, 64, n₂]⟩)
    (hc : Shape.Concatenates [(⟨3, ![64, 64, n₁]⟩ : Shape), ⟨3, ![64, 64, n₂]⟩] S64x64x4096 2)
    (x : FVec Ideal S64x64x4096 .f32) : FVec Ideal S64x64x4096 .f32 :=
  concatenate S64x64x4096 2
    [⟨⟨3, ![64, 64, n₁]⟩, extractStridedSlice ⟨3, ![64, 64, n₁]⟩ ![0, 0, n₂] x h1⟩,
     ⟨⟨3, ![64, 64, n₂]⟩, extractStridedSlice ⟨3, ![64, 64, n₂]⟩ ![0, 0, 0] x h2⟩] hc

/-- One tap: the running sum plus a weight times a rolled copy. -/
abbrev tap (acc w r : FVec Ideal S64x64x4096 .f32) : FVec Ideal S64x64x4096 .f32 := addf acc (mulf w r)

/-- Eight taps over one table, from the zero array, in tap order. -/
abbrev filt8 (tbl : FVec Ideal S8 .f32) (r0 r1 r2 r3 r4 r5 r6 r7 : FVec Ideal S64x64x4096 .f32) : FVec Ideal S64x64x4096 .f32 :=
  tap (tap (tap (tap (tap (tap (tap (tap zeros (wt 0 slices_S8_S1_0 tbl) r0) (wt 1 slices_S8_S1_1 tbl) r1)
    (wt 2 slices_S8_S1_2 tbl) r2) (wt 3 slices_S8_S1_3 tbl) r3) (wt 4 slices_S8_S1_4 tbl) r4)
    (wt 5 slices_S8_S1_5 tbl) r5) (wt 6 slices_S8_S1_6 tbl) r6) (wt 7 slices_S8_S1_7 tbl) r7

/-- The eight taps read at an index: the zero word plus the products of the table's entries with the rolled copies. -/
theorem filt8_apply (tbl : FVec Ideal S8 .f32) (r0 r1 r2 r3 r4 r5 r6 r7 : FVec Ideal S64x64x4096 .f32) (i : S64x64x4096.Idx) :
    filt8 tbl r0 r1 r2 r3 r4 r5 r6 r7 i
      = Ideal.ofBits .f32 0x00000000#32 + tbl (ix1 (⟨0, by norm_num⟩ : Fin 8)) * r0 i + tbl (ix1 (⟨1, by norm_num⟩ : Fin 8)) * r1 i
        + tbl (ix1 (⟨2, by norm_num⟩ : Fin 8)) * r2 i + tbl (ix1 (⟨3, by norm_num⟩ : Fin 8)) * r3 i
        + tbl (ix1 (⟨4, by norm_num⟩ : Fin 8)) * r4 i + tbl (ix1 (⟨5, by norm_num⟩ : Fin 8)) * r5 i
        + tbl (ix1 (⟨6, by norm_num⟩ : Fin 8)) * r6 i + tbl (ix1 (⟨7, by norm_num⟩ : Fin 8)) * r7 i := by
  simp only [filt8, tap, addf_apply, mulf_apply, zeros, broadcastInDim_scalar_apply, constant_apply, wt]
  rw [weight_apply tbl 0 (by norm_num), weight_apply tbl 1 (by norm_num), weight_apply tbl 2 (by norm_num),
    weight_apply tbl 3 (by norm_num), weight_apply tbl 4 (by norm_num), weight_apply tbl 5 (by norm_num),
    weight_apply tbl 6 (by norm_num), weight_apply tbl 7 (by norm_num)]
  rfl

/-- Four arrays, each given a last axis of length one, laid side by side along that axis. -/
abbrev stack (a b c d : FVec Ideal S64x64x4096 .f32) : FVec Ideal S64x64x4096x4 .f32 :=
  concatenate S64x64x4096x4 3
    [⟨S64x64x4096x1, broadcastInDim S64x64x4096x1 ![0, 1, 2] bcast_S64x64x4096_S64x64x4096x1_0_1_2 a⟩,
     ⟨S64x64x4096x1, broadcastInDim S64x64x4096x1 ![0, 1, 2] bcast_S64x64x4096_S64x64x4096x1_0_1_2 b⟩,
     ⟨S64x64x4096x1, broadcastInDim S64x64x4096x1 ![0, 1, 2] bcast_S64x64x4096_S64x64x4096x1_0_1_2 c⟩,
     ⟨S64x64x4096x1, broadcastInDim S64x64x4096x1 ![0, 1, 2] bcast_S64x64x4096_S64x64x4096x1_0_1_2 d⟩]
    concatenates_S64x64x4096x1_S64x64x4096x1_S64x64x4096x1_S64x64x4096x1_S64x64x4096x4_d3

/-- The stack read at channel `k` (one of its four pieces): that piece at `(b, n, t)`. -/
theorem stack_piece (a b c d x : FVec Ideal S64x64x4096 .f32) (k : ℕ) (hk : k < 4)
    (hx : [a, b, c, d][k]'(by simpa using hk) = x) (bb n : Fin 64) (t : Fin 4096) :
    stack a b c d (ix4 bb n t (⟨k, hk⟩ : Fin 4)) = x (ix3 bb n t) := by
  subst hx
  refine (concatenate_apply_piece (t := S64x64x4096x4) (3 : Fin 4)
    [⟨S64x64x4096x1, broadcastInDim S64x64x4096x1 ![0, 1, 2] bcast_S64x64x4096_S64x64x4096x1_0_1_2 a⟩,
     ⟨S64x64x4096x1, broadcastInDim S64x64x4096x1 ![0, 1, 2] bcast_S64x64x4096_S64x64x4096x1_0_1_2 b⟩,
     ⟨S64x64x4096x1, broadcastInDim S64x64x4096x1 ![0, 1, 2] bcast_S64x64x4096_S64x64x4096x1_0_1_2 c⟩,
     ⟨S64x64x4096x1, broadcastInDim S64x64x4096x1 ![0, 1, 2] bcast_S64x64x4096_S64x64x4096x1_0_1_2 d⟩]
    concatenates_S64x64x4096x1_S64x64x4096x1_S64x64x4096x1_S64x64x4096x1_S64x64x4096x4_d3 (ix4 bb n t (⟨k, hk⟩ : Fin 4))
    k (by simpa using hk) S64x64x4096x1
    (broadcastInDim S64x64x4096x1 ![0, 1, 2] bcast_S64x64x4096_S64x64x4096x1_0_1_2 ([a, b, c, d][k]'(by simpa using hk)))
    ?_ rfl k ?_ (ix4 bb n t (0 : Fin 1)) ?_ ?_).trans (lastUnit_apply _ _ bb n t)
  · interval_cases k <;> rfl
  · interval_cases k <;> rfl
  · intro e he
    match e, he with
    | ⟨0, _⟩, _ => rfl
    | ⟨1, _⟩, _ => rfl
    | ⟨2, _⟩, _ => rfl
    | ⟨3, _⟩, he => exact absurd rfl he
  · show k + 0 = k; rfl

/-- The low-pass table as the program writes it. -/
abbrev tblLo : FVec Ideal S8 .f32 := fun i => FloatOps.ofBits .f32 (lit0 (S8.rowMajor i))
/-- The high-pass table as the program writes it. -/
abbrev tblHi : FVec Ideal S8 .f32 := fun i => FloatOps.ofBits .f32 (lit1 (S8.rowMajor i))

/-- An array filtered row by row. -/
def rows (f : Row → Row) (x : FVec Ideal S64x64x4096 .f32) : FVec Ideal S64x64x4096 .f32 :=
  fun i => f (rowOf x (i 0) (i 1)) (i 2)

theorem rows_apply (f : Row → Row) (x : FVec Ideal S64x64x4096 .f32) (b n : Fin 64) (t : Fin 4096) :
    rows f x (ix3 b n t) = f (rowOf x b n) t := rfl

end Cert.ReferenceIdeal.SwtRun

end
-- ==== Proof.LibHostLine.lean ====
/-
  Two facts about a line of host operations, general in the program.

  Running two lines in a row is running the second from the buffer contents the first leaves.  And a value written
  through a typed reference and read back through the same reference is the value: the two transports along the
  reference's type equation cancel, whatever the buffer — so the transports inside a called function's operations
  (each result written through its typed reference, each operand read through its own) collapse pairwise without the
  buffers' types ever being computed.  After the results of such a line are rewritten, `simp only [ofBuf_toBuf]` leaves
  only the transports at the line's own inputs and at its result.
-/
import Idealize.ShloMosaic.Lib.StableHlo.Run

noncomputable section

namespace Cert.LibHostLine

open Idealize.ShloMosaic Idealize.ShloMosaic.StableHlo

variable {τ : Topo} {sig : RefSig} {Val : EltTy → Type}

/-- Running two lines in a row is running the second from where the first ends. -/
theorem after_append (l1 l2 : List (HloOp τ sig Val)) (V : Valuation τ sig Val) :
    StableHlo.after (l1 ++ l2) V = StableHlo.after l2 (StableHlo.after l1 V) := by
  induction l1 generalizing V with
  | nil => rfl
  | cons op l ih => exact ih _

/-- Reading back through a typed reference what was written through it gives the value back. -/
theorem ofBuf_toBuf {T : BufTy} (x : TRef sig T) (v : T.Contents Val) : x.ofBuf (x.toBuf v) = v := by
  obtain ⟨r, h, h2, h3⟩ := x
  subst h
  rfl

end Cert.LibHostLine

end
-- ==== Proof.RefLevel1.lean ====
/-
  Level 1 of the reference (spacing 1): from any buffer contents, the level's operations leave its low-pass and
  high-pass results at the eight taps over the two weight tables and the eight rolled copies of the level's input;
  with the tables at the program's weights these are the specification's `low 1` and `high 1` of every row.
  Buffers the level does not write keep their contents through it.
-/
import proofs.«128658_j3599182594827_2_alg».proof.Proof.RefOps
import proofs.«128658_j3599182594827_2_alg».proof.Proof.RefTerms
import proofs.«128658_j3599182594827_2_alg».proof.Proof.LibHostLine

noncomputable section

namespace Cert.ReferenceIdeal.SwtRun

open Cert.ReferenceIdeal Cert.ReferenceIdeal.Gen Idealize.ShloMosaic Idealize.ShloMosaic.TcCoe Idealize.SL.Sem Idealize.ShloMosaic.StableHlo
open Idealize.ShloMosaic.ValueIdx Cert.Swt Cert.Swt.Read

/-- The operations of level 1. -/
abbrev lev1 : List (HloOp τ sig (Elt Ideal)) := piece1 ++ piece2

set_option maxRecDepth 65536 in
set_option maxHeartbeats 4000000 in
/-- The fold at the level's low-pass buffer, by computation. -/
theorem lev1_low_term (W : Valuation τ sig (Elt Ideal)) :
    after lev1 W (main_v84 : DevRef τ sig)
      = filt8 (W (main_cst : DevRef τ sig))
        (roll 4092 4 slices_S64x64x4096_S64x64x4092_0_0_4 slices_S64x64x4096_S64x64x4_0_0_0 concatenates_S64x64x4092_S64x64x4_S64x64x4096_d2 (W (main_arg0 : DevRef τ sig)))
        (roll 4093 3 slices_S64x64x4096_S64x64x4093_0_0_3 slices_S64x64x4096_S64x64x3_0_0_0 concatenates_S64x64x4093_S64x64x3_S64x64x4096_d2 (W (main_arg0 : DevRef τ sig)))
        (roll 4094 2 slices_S64x64x4096_S64x64x4094_0_0_2 slices_S64x64x4096_S64x64x2_0_0_0 concatenates_S64x64x4094_S64x64x2_S64x64x4096_d2 (W (main_arg0 : DevRef τ sig)))
        (roll 4095 1 slices_S64x64x4096_S64x64x4095_0_0_1 slices_S64x64x4096_S64x64x1_0_0_0 concatenates_S64x64x4095_S64x64x1_S64x64x4096_d2 (W (main_arg0 : DevRef τ sig)))
        (roll 4096 0 slices_S64x64x4096_S64x64x4096_0_0_0 slices_S64x64x4096_S64x64x0_0_0_0 concatenates_S64x64x4096_S64x64x0_S64x64x4096_d2 (W (main_arg0 : DevRef τ sig)))
        (roll 1 4095 slices_S64x64x4096_S64x64x1_0_0_4095 slices_S64x64x4096_S64x64x4095_0_0_0 concatenates_S64x64x1_S64x64x4095_S64x64x4096_d2 (W (main_arg0 : DevRef τ sig)))
        (roll 2 4094 slices_S64x64x4096_S64x64x2_0_0_4094 slices_S64x64x4096_S64x64x4094_0_0_0 concatenates_S64x64x2_S64x64x4094_S64x64x4096_d2 (W (main_arg0 : DevRef τ sig)))
        (roll 3 4093 slices_S64x64x4096_S64x64x3_0_0_4093 slices_S64x64x4096_S64x64x4093_0_0_0 concatenates_S64x64x3_S64x64x4093_S64x64x4096_d2 (W (main_arg0 : DevRef τ sig))) := rfl

set_option maxRecDepth 65536 in
set_option maxHeartbeats 4000000 in
/-- The fold at the level's high-pass buffer, by computation. -/
theorem lev1_high_term (W : Valuation τ sig (Elt Ideal)) :
    after lev1 W (main_v89 : DevRef τ sig)
      = filt8 (W (main_cst_0 : DevRef τ sig))
        (roll 4092 4 slices_S64x64x4096_S64x64x4092_0_0_4 slices_S64x64x4096_S64x64x4_0_0_0 concatenates_S64x64x4092_S64x64x4_S64x64x4096_d2 (W (main_arg0 : DevRef τ sig)))
        (roll 4093 3 slices_S64x64x4096_S64x64x4093_0_0_3 slices_S64x64x4096_S64x64x3_0_0_0 concatenates_S64x64x4093_S64x64x3_S64x64x4096_d2 (W (main_arg0 : DevRef τ sig)))
        (roll 4094 2 slices_S64x64x4096_S64x64x4094_0_0_2 slices_S64x64x4096_S64x64x2_0_0_0 concatenates_S64x64x4094_S64x64x2_S64x64x4096_d2 (W (main_arg0 : DevRef τ sig)))
        (roll 4095 1 slices_S64x64x4096_S64x64x4095_0_0_1 slices_S64x64x4096_S64x64x1_0_0_0 concatenates_S64x64x4095_S64x64x1_S64x64x4096_d2 (W (main_arg0 : DevRef τ sig)))
        (roll 4096 0 slices_S64x64x4096_S64x64x4096_0_0_0 slices_S64x64x4096_S64x64x0_0_0_0 concatenates_S64x64x4096_S64x64x0_S64x64x4096_d2 (W (main_arg0 : DevRef τ sig)))
        (roll 1 4095 slices_S64x64x4096_S64x64x1_0_0_4095 slices_S64x64x4096_S64x64x4095_0_0_0 concatenates_S64x64x1_S64x64x4095_S64x64x4096_d2 (W (main_arg0 : DevRef τ sig)))
        (roll 2 4094 slices_S64x64x4096_S64x64x2_0_0_4094 slices_S64x64x4096_S64x64x4094_0_0_0 concatenates_S64x64x2_S64x64x4094_S64x64x4096_d2 (W (main_arg0 : DevRef τ sig)))
        (roll 3 4093 slices_S64x64x4096_S64x64x3_0_0_4093 slices_S64x64x4096_S64x64x4093_0_0_0 concatenates_S64x64x3_S64x64x4093_S64x64x4096_d2 (W (main_arg0 : DevRef τ sig))) := rfl

/-- With the low-pass table in place, the level's low-pass buffer ends at `low 1` of every row of its input. -/
theorem lev1_low (W : Valuation τ sig (Elt Ideal)) (hlo : W (main_cst : DevRef τ sig) = tblLo) :
    after lev1 W (main_v84 : DevRef τ sig) = rows (low 1) (W (main_arg0 : DevRef τ sig)) := by
  rw [lev1_low_term, hlo]
  funext i
  obtain ⟨b, n, t, rfl⟩ : ∃ (b n : Fin 64) (t : Fin 4096), i = ix3 b n t := ⟨i 0, i 1, i 2, eq_ix3 i⟩
  rw [filt8_apply, rows_apply, low1_apply]
  simp only [roll]
  rw [roll_apply 4092 4 (by norm_num), roll_apply 4093 3 (by norm_num), roll_apply 4094 2 (by norm_num), roll_apply 4095 1 (by norm_num), roll_apply 4096 0 (by norm_num), roll_apply 1 4095 (by norm_num), roll_apply 2 4094 (by norm_num), roll_apply 3 4093 (by norm_num)]
  rw [turn_zero]
  rfl

/-- With the high-pass table in place, the level's high-pass buffer ends at `high 1` of every row of its input. -/
theorem lev1_high (W : Valuation τ sig (Elt Ideal)) (hhi : W (main_cst_0 : DevRef τ sig) = tblHi) :
    after lev1 W (main_v89 : DevRef τ sig) = rows (high 1) (W (main_arg0 : DevRef τ sig)) := by
  rw [lev1_high_term, hhi]
  funext i
  obtain ⟨b, n, t, rfl⟩ : ∃ (b n : Fin 64) (t : Fin 4096), i = ix3 b n t := ⟨i 0, i 1, i 2, eq_ix3 i⟩
  rw [filt8_apply, rows_apply, high1_apply]
  simp only [roll]
  rw [roll_apply 4092 4 (by norm_num), roll_apply 4093 3 (by norm_num), roll_apply 4094 2 (by norm_num), roll_apply 4095 1 (by norm_num), roll_apply 4096 0 (by norm_num), roll_apply 1 4095 (by norm_num), roll_apply 2 4094 (by norm_num), roll_apply 3 4093 (by norm_num)]
  rw [turn_zero]
  rfl

/-- A buffer none of the level's operations writes keeps its contents. -/
theorem lev1_keep (W : Valuation τ sig (Elt Ideal)) (r : Ref sig .tc) (h0 : r ∉ piece1_W) (h1 : r ∉ piece2_W) :
    after lev1 W (Proc.devRef .tc r) = W (Proc.devRef .tc r) := by
  rw [Cert.LibHostLine.after_append, after_of_writes_sub piece2 _ piece2_writes h1, after_of_writes_sub piece1 _ piece1_writes h0]

end Cert.ReferenceIdeal.SwtRun

end
-- ==== Proof.RefLevel2.lean ====
/-
  Level 2 of the reference (spacing 2): from any buffer contents, the level's operations leave its low-pass and
  high-pass results at the eight taps over the two weight tables and the eight rolled copies of the level's input;
  with the tables at the program's weights these are the specification's `low 2` and `high 2` of every row.
  Buffers the level does not write keep their contents through it.
-/
import proofs.«128658_j3599182594827_2_alg».proof.Proof.RefOps
import proofs.«128658_j3599182594827_2_alg».proof.Proof.RefTerms
import proofs.«128658_j3599182594827_2_alg».proof.Proof.LibHostLine

noncomputable section

namespace Cert.ReferenceIdeal.SwtRun

open Cert.ReferenceIdeal Cert.ReferenceIdeal.Gen Idealize.ShloMosaic Idealize.ShloMosaic.TcCoe Idealize.SL.Sem Idealize.ShloMosaic.StableHlo
open Idealize.ShloMosaic.ValueIdx Cert.Swt Cert.Swt.Read

/-- The operations of level 2. -/
abbrev lev2 : List (HloOp τ sig (Elt Ideal)) := piece3 ++ (piece4 ++ piece5)

set_option maxRecDepth 65536 in
set_option maxHeartbeats 4000000 in
/-- The fold at the level's low-pass buffer, by computation. -/
theorem lev2_low_term (W : Valuation τ sig (Elt Ideal)) :
    after lev2 W (main_v174 : DevRef τ sig)
      = filt8 (W (main_cst : DevRef τ sig))
        (roll 4088 8 slices_S64x64x4096_S64x64x4088_0_0_8 slices_S64x64x4096_S64x64x8_0_0_0 concatenates_S64x64x4088_S64x64x8_S64x64x4096_d2 (W (main_v84 : DevRef τ sig)))
        (roll 4090 6 slices_S64x64x4096_S64x64x4090_0_0_6 slices_S64x64x4096_S64x64x6_0_0_0 concatenates_S64x64x4090_S64x64x6_S64x64x4096_d2 (W (main_v84 : DevRef τ sig)))
        (roll 4092 4 slices_S64x64x4096_S64x64x4092_0_0_4 slices_S64x64x4096_S64x64x4_0_0_0 concatenates_S64x64x4092_S64x64x4_S64x64x4096_d2 (W (main_v84 : DevRef τ sig)))
        (roll 4094 2 slices_S64x64x4096_S64x64x4094_0_0_2 slices_S64x64x4096_S64x64x2_0_0_0 concatenates_S64x64x4094_S64x64x2_S64x64x4096_d2 (W (main_v84 : DevRef τ sig)))
        (roll 4096 0 slices_S64x64x4096_S64x64x4096_0_0_0 slices_S64x64x4096_S64x64x0_0_0_0 concatenates_S64x64x4096_S64x64x0_S64x64x4096_d2 (W (main_v84 : DevRef τ sig)))
        (roll 2 4094 slices_S64x64x4096_S64x64x2_0_0_4094 slices_S64x64x4096_S64x64x4094_0_0_0 concatenates_S64x64x2_S64x64x4094_S64x64x4096_d2 (W (main_v84 : DevRef τ sig)))
        (roll 4 4092 slices_S64x64x4096_S64x64x4_0_0_4092 slices_S64x64x4096_S64x64x4092_0_0_0 concatenates_S64x64x4_S64x64x4092_S64x64x4096_d2 (W (main_v84 : DevRef τ sig)))
        (roll 6 4090 slices_S64x64x4096_S64x64x6_0_0_4090 slices_S64x64x4096_S64x64x4090_0_0_0 concatenates_S64x64x6_S64x64x4090_S64x64x4096_d2 (W (main_v84 : DevRef τ sig))) := rfl

set_option maxRecDepth 65536 in
set_option maxHeartbeats 4000000 in
/-- The fold at the level's high-pass buffer, by computation. -/
theorem lev2_high_term (W : Valuation τ sig (Elt Ideal)) :
    after lev2 W (main_v179 : DevRef τ sig)
      = filt8 (W (main_cst_0 : DevRef τ sig))
        (roll 4088 8 slices_S64x64x4096_S64x64x4088_0_0_8 slices_S64x64x4096_S64x64x8_0_0_0 concatenates_S64x64x4088_S64x64x8_S64x64x4096_d2 (W (main_v84 : DevRef τ sig)))
        (roll 4090 6 slices_S64x64x4096_S64x64x4090_0_0_6 slices_S64x64x4096_S64x64x6_0_0_0 concatenates_S64x64x4090_S64x64x6_S64x64x4096_d2 (W (main_v84 : DevRef τ sig)))
        (roll 4092 4 slices_S64x64x4096_S64x64x4092_0_0_4 slices_S64x64x4096_S64x64x4_0_0_0 concatenates_S64x64x4092_S64x64x4_S64x64x4096_d2 (W (main_v84 : DevRef τ sig)))
        (roll 4094 2 slices_S64x64x4096_S64x64x4094_0_0_2 slices_S64x64x4096_S64x64x2_0_0_0 concatenates_S64x64x4094_S64x64x2_S64x64x4096_d2 (W (main_v84 : DevRef τ sig)))
        (roll 4096 0 slices_S64x64x4096_S64x64x4096_0_0_0 slices_S64x64x4096_S64x64x0_0_0_0 concatenates_S64x64x4096_S64x64x0_S64x64x4096_d2 (W (main_v84 : DevRef τ sig)))
        (roll 2 4094 slices_S64x64x4096_S64x64x2_0_0_4094 slices_S64x64x4096_S64x64x4094_0_0_0 concatenates_S64x64x2_S64x64x4094_S64x64x4096_d2 (W (main_v84 : DevRef τ sig)))
        (roll 4 4092 slices_S64x64x4096_S64x64x4_0_0_4092 slices_S64x64x4096_S64x64x4092_0_0_0 concatenates_S64x64x4_S64x64x4092_S64x64x4096_d2 (W (main_v84 : DevRef τ sig)))
        (roll 6 4090 slices_S64x64x4096_S64x64x6_0_0_4090 slices_S64x64x4096_S64x64x4090_0_0_0 concatenates_S64x64x6_S64x64x4090_S64x64x4096_d2 (W (main_v84 : DevRef τ sig))) := rfl

/-- With the low-pass table in place, the level's low-pass buffer ends at `low 2` of every row of its input. -/
theorem lev2_low (W : Valuation τ sig (Elt Ideal)) (hlo : W (main_cst : DevRef τ sig) = tblLo) :
    after lev2 W (main_v174 : DevRef τ sig) = rows (low 2) (W (main_v84 : DevRef τ sig)) := by
  rw [lev2_low_term, hlo]
  funext i
  obtain ⟨b, n, t, rfl⟩ : ∃ (b n : Fin 64) (t : Fin 4096), i = ix3 b n t := ⟨i 0, i 1, i 2, eq_ix3 i⟩
  rw [filt8_apply, rows_apply, low2_apply]
  simp only [roll]
  rw [roll_apply 4088 8 (by norm_num), roll_apply 4090 6 (by norm_num), roll_apply 4092 4 (by norm_num), roll_apply 4094 2 (by norm_num), roll_apply 4096 0 (by norm_num), roll_apply 2 4094 (by norm_num), roll_apply 4 4092 (by norm_num), roll_apply 6 4090 (by norm_num)]
  rw [turn_zero]
  rfl

/-- With the high-pass table in place, the level's high-pass buffer ends at `high 2` of every row of its input. -/
theorem lev2_high (W : Valuation τ sig (Elt Ideal)) (hhi : W (main_cst_0 : DevRef τ sig) = tblHi) :
    after lev2 W (main_v179 : DevRef τ sig) = rows (high 2) (W (main_v84 : DevRef τ sig)) := by
  rw [lev2_high_term, hhi]
  funext i
  obtain ⟨b, n, t, rfl⟩ : ∃ (b n : Fin 64) (t : Fin 4096), i = ix3 b n t := ⟨i 0, i 1, i 2, eq_ix3 i⟩
  rw [filt8_apply, rows_apply, high2_apply]
  simp only [roll]
  rw [roll_apply 4088 8 (by norm_num), roll_apply 4090 6 (by norm_num), roll_apply 4092 4 (by norm_num), roll_apply 4094 2 (by norm_num), roll_apply 4096 0 (by norm_num), roll_apply 2 4094 (by norm_num), roll_apply 4 4092 (by norm_num), roll_apply 6 4090 (by norm_num)]
  rw [turn_zero]
  rfl

/-- A buffer none of the level's operations writes keeps its contents. -/
theorem lev2_keep (W : Valuation τ sig (Elt Ideal)) (r : Ref sig .tc) (h0 : r ∉ piece3_W) (h1 : r ∉ piece4_W) (h2 : r ∉ piece5_W) :
    after lev2 W (Proc.devRef .tc r) = W (Proc.devRef .tc r) := by
  rw [Cert.LibHostLine.after_append, Cert.LibHostLine.after_append, after_of_writes_sub piece5 _ piece5_writes h2,
    after_of_writes_sub piece4 _ piece4_writes h1, after_of_writes_sub piece3 _ piece3_writes h0]

end Cert.ReferenceIdeal.SwtRun

end
-- ==== Proof.RefLevel3.lean ====
/-
  Level 3 of the reference (spacing 4): from any buffer contents, the level's operations leave its low-pass and
  high-pass results at the eight taps over the two weight tables and the eight rolled copies of the level's input;
  with the tables at the program's weights these are the specification's `low 4` and `high 4` of every row.
  Buffers the level does not write keep their contents through it.
-/
import proofs.«128658_j3599182594827_2_alg».proof.Proof.RefOps
import proofs.«128658_j3599182594827_2_alg».proof.Proof.RefTerms
import proofs.«128658_j3599182594827_2_alg».proof.Proof.LibHostLine

noncomputable section

namespace Cert.ReferenceIdeal.SwtRun

open Cert.ReferenceIdeal Cert.ReferenceIdeal.Gen Idealize.ShloMosaic Idealize.ShloMosaic.TcCoe Idealize.SL.Sem Idealize.ShloMosaic.StableHlo
open Idealize.ShloMosaic.ValueIdx Cert.Swt Cert.Swt.Read

/-- The operations of level 3. -/
abbrev lev3 : List (HloOp τ sig (Elt Ideal)) := piece6 ++ piece7

set_option maxRecDepth 65536 in
set_option maxHeartbeats 4000000 in
/-- The fold at the level's low-pass buffer, by computation. -/
theorem lev3_low_term (W : Valuation τ sig (Elt Ideal)) :
    after lev3 W (main_v264 : DevRef τ sig)
      = filt8 (W (main_cst : DevRef τ sig))
        (roll 4080 16 slices_S64x64x4096_S64x64x4080_0_0_16 slices_S64x64x4096_S64x64x16_0_0_0 concatenates_S64x64x4080_S64x64x16_S64x64x4096_d2 (W (main_v174 : DevRef τ sig)))
        (roll 4084 12 slices_S64x64x4096_S64x64x4084_0_0_12 slices_S64x64x4096_S64x64x12_0_0_0 concatenates_S64x64x4084_S64x64x12_S64x64x4096_d2 (W (main_v174 : DevRef τ sig)))
        (roll 4088 8 slices_S64x64x4096_S64x64x4088_0_0_8 slices_S64x64x4096_S64x64x8_0_0_0 concatenates_S64x64x4088_S64x64x8_S64x64x4096_d2 (W (main_v174 : DevRef τ sig)))
        (roll 4092 4 slices_S64x64x4096_S64x64x4092_0_0_4 slices_S64x64x4096_S64x64x4_0_0_0 concatenates_S64x64x4092_S64x64x4_S64x64x4096_d2 (W (main_v174 : DevRef τ sig)))
        (roll 4096 0 slices_S64x64x4096_S64x64x4096_0_0_0 slices_S64x64x4096_S64x64x0_0_0_0 concatenates_S64x64x4096_S64x64x0_S64x64x4096_d2 (W (main_v174 : DevRef τ sig)))
        (roll 4 4092 slices_S64x64x4096_S64x64x4_0_0_4092 slices_S64x64x4096_S64x64x4092_0_0_0 concatenates_S64x64x4_S64x64x4092_S64x64x4096_d2 (W (main_v174 : DevRef τ sig)))
        (roll 8 4088 slices_S64x64x4096_S64x64x8_0_0_4088 slices_S64x64x4096_S64x64x4088_0_0_0 concatenates_S64x64x8_S64x64x4088_S64x64x4096_d2 (W (main_v174 : DevRef τ sig)))
        (roll 12 4084 slices_S64x64x4096_S64x64x12_0_0_4084 slices_S64x64x4096_S64x64x4084_0_0_0 concatenates_S64x64x12_S64x64x4084_S64x64x4096_d2 (W (main_v174 : DevRef τ sig))) := rfl

set_option maxRecDepth 65536 in
set_option maxHeartbeats 4000000 in
/-- The fold at the level's high-pass buffer, by computation. -/
theorem lev3_high_term (W : Valuation τ sig (Elt Ideal)) :
    after lev3 W (main_v269 : DevRef τ sig)
      = filt8 (W (main_cst_0 : DevRef τ sig))
        (roll 4080 16 slices_S64x64x4096_S64x64x4080_0_0_16 slices_S64x64x4096_S64x64x16_0_0_0 concatenates_S64x64x4080_S64x64x16_S64x64x4096_d2 (W (main_v174 : DevRef τ sig)))
        (roll 4084 12 slices_S64x64x4096_S64x64x4084_0_0_12 slices_S64x64x4096_S64x64x12_0_0_0 concatenates_S64x64x4084_S64x64x12_S64x64x4096_d2 (W (main_v174 : DevRef τ sig)))
        (roll 4088 8 slices_S64x64x4096_S64x64x4088_0_0_8 slices_S64x64x4096_S64x64x8_0_0_0 concatenates_S64x64x4088_S64x64x8_S64x64x4096_d2 (W (main_v174 : DevRef τ sig)))
        (roll 4092 4 slices_S64x64x4096_S64x64x4092_0_0_4 slices_S64x64x4096_S64x64x4_0_0_0 concatenates_S64x64x4092_S64x64x4_S64x64x4096_d2 (W (main_v174 : DevRef τ sig)))
        (roll 4096 0 slices_S64x64x4096_S64x64x4096_0_0_0 slices_S64x64x4096_S64x64x0_0_0_0 concatenates_S64x64x4096_S64x64x0_S64x64x4096_d2 (W (main_v174 : DevRef τ sig)))
        (roll 4 4092 slices_S64x64x4096_S64x64x4_0_0_4092 slices_S64x64x4096_S64x64x4092_0_0_0 concatenates_S64x64x4_S64x64x4092_S64x64x4096_d2 (W (main_v174 : DevRef τ sig)))
        (roll 8 4088 slices_S64x64x4096_S64x64x8_0_0_4088 slices_S64x64x4096_S64x64x4088_0_0_0 concatenates_S64x64x8_S64x64x4088_S64x64x4096_d2 (W (main_v174 : DevRef τ sig)))
        (roll 12 4084 slices_S64x64x4096_S64x64x12_0_0_4084 slices_S64x64x4096_S64x64x4084_0_0_0 concatenates_S64x64x12_S64x64x4084_S64x64x4096_d2 (W (main_v174 : DevRef τ sig))) := rfl

/-- With the low-pass table in place, the level's low-pass buffer ends at `low 4` of every row of its input. -/
theorem lev3_low (W : Valuation τ sig (Elt Ideal)) (hlo : W (main_cst : DevRef τ sig) = tblLo) :
    after lev3 W (main_v264 : DevRef τ sig) = rows (low 4) (W (main_v174 : DevRef τ sig)) := by
  rw [lev3_low_term, hlo]
  funext i
  obtain ⟨b, n, t, rfl⟩ : ∃ (b n : Fin 64) (t : Fin 4096), i = ix3 b n t := ⟨i 0, i 1, i 2, eq_ix3 i⟩
  rw [filt8_apply, rows_apply, low4_apply]
  simp only [roll]
  rw [roll_apply 4080 16 (by norm_num), roll_apply 4084 12 (by norm_num), roll_apply 4088 8 (by norm_num), roll_apply 4092 4 (by norm_num), roll_apply 4096 0 (by norm_num), roll_apply 4 4092 (by norm_num), roll_apply 8 4088 (by norm_num), roll_apply 12 4084 (by norm_num)]
  rw [turn_zero]
  rfl

/-- With the high-pass table in place, the level's high-pass buffer ends at `high 4` of every row of its input. -/
theorem lev3_high (W : Valuation τ sig (Elt Ideal)) (hhi : W (main_cst_0 : DevRef τ sig) = tblHi) :
    after lev3 W (main_v269 : DevRef τ sig) = rows (high 4) (W (main_v174 : DevRef τ sig)) := by
  rw [lev3_high_term, hhi]
  funext i
  obtain ⟨b, n, t, rfl⟩ : ∃ (b n : Fin 64) (t : Fin 4096), i = ix3 b n t := ⟨i 0, i 1, i 2, eq_ix3 i⟩
  rw [filt8_apply, rows_apply, high4_apply]
  simp only [roll]
  rw [roll_apply 4080 16 (by norm_num), roll_apply 4084 12 (by norm_num), roll_apply 4088 8 (by norm_num), roll_apply 4092 4 (by norm_num), roll_apply 4096 0 (by norm_num), roll_apply 4 4092 (by norm_num), roll_apply 8 4088 (by norm_num), roll_apply 12 4084 (by norm_num)]
  rw [turn_zero]
  rfl

/-- A buffer none of the level's operations writes keeps its contents. -/
theorem lev3_keep (W : Valuation τ sig (Elt Ideal)) (r : Ref sig .tc) (h0 : r ∉ piece6_W) (h1 : r ∉ piece7_W) :
    after lev3 W (Proc.devRef .tc r) = W (Proc.devRef .tc r) := by
  rw [Cert.LibHostLine.after_append, after_of_writes_sub piece7 _ piece7_writes h1, after_of_writes_sub piece6 _ piece6_writes h0]

end Cert.ReferenceIdeal.SwtRun

end
-- ==== Proof.RefValue.lean ====
/-
  The reference's result is the specification's filter bank of its argument.

  The 331 operations are the two weight tables, the three levels in turn, and the stacking of the four results.  The
  tables are written once and no level writes them; each level reads the previous level's low-pass result and leaves
  its own two results, which no later level writes; so the stacked array holds, per row, the third low-pass row and
  the high-pass rows of levels three, two and one: the specification's four channels.  No operation writes the
  argument.
-/
import proofs.«128658_j3599182594827_2_alg».proof.Proof.RefMain
import proofs.«128658_j3599182594827_2_alg».proof.Proof.RefLevel1
import proofs.«128658_j3599182594827_2_alg».proof.Proof.RefLevel2
import proofs.«128658_j3599182594827_2_alg».proof.Proof.RefLevel3

noncomputable section

namespace Cert.ReferenceIdeal.SwtRun

open Cert.ReferenceIdeal Cert.ReferenceIdeal.Gen Idealize.ShloMosaic Idealize.ShloMosaic.TcCoe Idealize.SL.Sem Idealize.ShloMosaic.StableHlo
open Idealize.ShloMosaic.ValueIdx Cert.Swt Cert.Swt.Read

/-- The operations window after window are the operations level after level. -/
theorem ops_levels : (ops : List (HloOp τ sig (Elt Ideal))) = piece0 ++ (lev1 ++ (lev2 ++ (lev3 ++ piece8))) := by
  simp only [ops, win0, win1, win2, win3, win4, lev1, lev2, lev3, List.append_assoc]

/-- The first two operations write the two tables. -/
theorem piece0_lo (V : Valuation τ sig (Elt Ideal)) : after piece0 V (main_cst : DevRef τ sig) = tblLo := rfl
theorem piece0_hi (V : Valuation τ sig (Elt Ideal)) : after piece0 V (main_cst_0 : DevRef τ sig) = tblHi := rfl

/-- The last five operations stack the four results. -/
theorem piece8_term (W : Valuation τ sig (Elt Ideal)) :
    after piece8 W (main_v274 : DevRef τ sig)
      = stack (W (main_v264 : DevRef τ sig)) (W (main_v269 : DevRef τ sig)) (W (main_v179 : DevRef τ sig))
          (W (main_v89 : DevRef τ sig)) := rfl

/-- A row of an array filtered row by row is the filtered row. -/
theorem rowOf_rows (f : Row → Row) (x : FVec Ideal S64x64x4096 .f32) (b n : Fin 64) : rowOf (rows f x) b n = f (rowOf x b n) := rfl

/-- Level 3 and the stacking, from contents holding the tables, level 2's two results and level 1's high-pass result. -/
theorem tail3 (W : Valuation τ sig (Elt Ideal)) (lo : W (main_cst : DevRef τ sig) = tblLo) (hi : W (main_cst_0 : DevRef τ sig) = tblHi)
    (a2 d2 d1 : FVec Ideal S64x64x4096 .f32) (h174 : W (main_v174 : DevRef τ sig) = a2) (h179 : W (main_v179 : DevRef τ sig) = d2)
    (h89 : W (main_v89 : DevRef τ sig) = d1) :
    after piece8 (after lev3 W) (main_v274 : DevRef τ sig) = stack (rows (low 4) a2) (rows (high 4) a2) d2 d1 := by
  rw [piece8_term, lev3_low W lo, lev3_high W hi, lev3_keep W main_v179 (by decide) (by decide),
    lev3_keep W main_v89 (by decide) (by decide), h174, h179, h89]

/-- Levels 2 and 3 and the stacking, from contents holding the tables and level 1's two results. -/
theorem tail2 (W : Valuation τ sig (Elt Ideal)) (lo : W (main_cst : DevRef τ sig) = tblLo) (hi : W (main_cst_0 : DevRef τ sig) = tblHi)
    (a1 d1 : FVec Ideal S64x64x4096 .f32) (h84 : W (main_v84 : DevRef τ sig) = a1) (h89 : W (main_v89 : DevRef τ sig) = d1) :
    after piece8 (after lev3 (after lev2 W)) (main_v274 : DevRef τ sig)
      = stack (rows (low 4) (rows (low 2) a1)) (rows (high 4) (rows (low 2) a1)) (rows (high 2) a1) d1 :=
  tail3 (after lev2 W)
    ((lev2_keep W main_cst (by decide) (by decide) (by decide)).trans lo)
    ((lev2_keep W main_cst_0 (by decide) (by decide) (by decide)).trans hi) _ _ _
    ((lev2_low W lo).trans (by rw [h84])) ((lev2_high W hi).trans (by rw [h84]))
    ((lev2_keep W main_v89 (by decide) (by decide) (by decide)).trans h89)

/-- All three levels and the stacking, from contents holding the tables. -/
theorem tail1 (W : Valuation τ sig (Elt Ideal)) (lo : W (main_cst : DevRef τ sig) = tblLo) (hi : W (main_cst_0 : DevRef τ sig) = tblHi) :
    after piece8 (after lev3 (after lev2 (after lev1 W))) (main_v274 : DevRef τ sig)
      = stack (rows (low 4) (rows (low 2) (rows (low 1) (W (main_arg0 : DevRef τ sig)))))
          (rows (high 4) (rows (low 2) (rows (low 1) (W (main_arg0 : DevRef τ sig)))))
          (rows (high 2) (rows (low 1) (W (main_arg0 : DevRef τ sig)))) (rows (high 1) (W (main_arg0 : DevRef τ sig))) :=
  tail2 (after lev1 W)
    ((lev1_keep W main_cst (by decide) (by decide)).trans lo)
    ((lev1_keep W main_cst_0 (by decide) (by decide)).trans hi) _ _
    (lev1_low W lo) (lev1_high W hi)

/-- The result buffer after all 331 operations: the filter bank of the argument. -/
theorem value (V : Valuation τ sig (Elt Ideal)) :
    after ops V (main_v274 : DevRef τ sig) = G (V (main_arg0 : DevRef τ sig)) := by
  rw [ops_levels, StableHlo.after_append piece0, StableHlo.after_append lev1, StableHlo.after_append lev2,
    StableHlo.after_append lev3]
  rw [tail1 (after piece0 V) (piece0_lo V) (piece0_hi V),
    after_of_writes_sub piece0 V piece0_writes (by decide : main_arg0 ∉ piece0_W)]
  funext i
  obtain ⟨b, n, t, ch, rfl⟩ : ∃ (b n : Fin 64) (t : Fin 4096) (ch : Fin 4), i = ix4 b n t ch := ⟨i 0, i 1, i 2, i 3, eq_ix4 i⟩
  rw [G_apply]
  match ch with
  | ⟨0, h⟩ => exact (stack_piece _ _ _ _ _ 0 h rfl b n t)
  | ⟨1, h⟩ => exact (stack_piece _ _ _ _ _ 1 h rfl b n t)
  | ⟨2, h⟩ => exact (stack_piece _ _ _ _ _ 2 h rfl b n t)
  | ⟨3, h⟩ => exact (stack_piece _ _ _ _ _ 3 h rfl b n t)

/-- No operation writes the argument. -/
theorem arg_kept (V : Valuation τ sig (Elt Ideal)) :
    after ops V (main_arg0 : DevRef τ sig) = V (main_arg0 : DevRef τ sig) := by
  rw [ops_levels, StableHlo.after_append piece0, StableHlo.after_append lev1, StableHlo.after_append lev2,
    StableHlo.after_append lev3]
  rw [after_of_writes_sub piece8 _ piece8_writes (by decide : main_arg0 ∉ piece8_W),
    lev3_keep _ main_arg0 (by decide) (by decide), lev2_keep _ main_arg0 (by decide) (by decide) (by decide),
    lev1_keep _ main_arg0 (by decide) (by decide),
    after_of_writes_sub piece0 V piece0_writes (by decide : main_arg0 ∉ piece0_W)]

/-- Every weakly fair execution of the reference terminates with its result at the filter bank of its argument and
    the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v274) = G (m ((c.tc : Thread nD τ).loc main_arg0))
      ∧ r.2.mem ((c.tc : Thread nD τ).loc main_arg0) = m ((c.tc : Thread nD τ).loc main_arg0) :=
  (θ_run defs _ _).mono (fun _ h c => ⟨(h c main_v274).trans (value _), (h c main_arg0).trans (arg_kept _)⟩)
    (run_main m ρ)

end Cert.ReferenceIdeal.SwtRun

end
-- ==== Proof.lean ====
/-
  A three-level undecimated wavelet filter bank along the last axis of a [64, 64, 4096] array, computed by a
  block-wise kernel and by a whole-array reference, gives the same [64, 64, 4096, 4] result on the extended reals.

  Both programs filter every row cyclically with the same eight low-pass and eight high-pass weights at spacings
  1, 2 and 4, summing the taps from zero in the same order, feed each level's low-pass row to the next, and lay out
  the last low-pass row and the three high-pass rows (deepest first) as the four channels.  The kernel rotates a
  block of 128 rows along its lanes; the reference rolls each row by cutting it in two and swapping the parts; both
  read position `(t + s) mod 4096`.  The two sides are the same expression entry by entry — only commutations of
  layout, no law of arithmetic — so the precondition is not used.  Each side is shown equal to one function `G` of
  the argument array (`Cert.Swt.G`); the kernel's idealization rewrote nothing, so that part of the claim is trivial.
-/
import proofs.«128658_j3599182594827_2_alg».proof.Defs
import proofs.«128658_j3599182594827_2_alg».proof.Proof.Gen.Kernel
import proofs.«128658_j3599182594827_2_alg».proof.Proof.Gen.Kernel.Frame
import proofs.«128658_j3599182594827_2_alg».proof.Proof.Gen.KernelIdeal
import proofs.«128658_j3599182594827_2_alg».proof.Proof.Gen.KernelIdeal.Frame
import proofs.«128658_j3599182594827_2_alg».proof.Proof.Gen.ReferenceIdeal
import proofs.«128658_j3599182594827_2_alg».proof.Proof.Gen.Pre_finite_inputs
import proofs.«128658_j3599182594827_2_alg».proof.Proof.KernelValue
import proofs.«128658_j3599182594827_2_alg».proof.Proof.RefValue
import Idealize.ShloMosaic.Adequacy
import Idealize.ShloMosaic.Init

noncomputable section

namespace Cert.Proof

open Idealize.ShloMosaic Idealize.SL.Sem

/-- The kernel as printed runs and leaves its argument as it found it. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.SwtRun.run m ρ)

/-- From memories agreeing on the argument, both idealized programs end with the filter bank of that argument. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.SwtValue.run m ρ, ?_⟩
  refine (θ_run Cert.ReferenceIdeal.defs _ _).mono (fun _ h c => ⟨(h c).1.trans ?_, (h c).2⟩)
    (Cert.ReferenceIdeal.SwtRun.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
